-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v181_0)) (v1 : (c : Dev Cert.KernelIdeal.nD) → Buf (Elt Ideal) ((c.tc : Thread Cert.KernelIdeal.nD Cert.KernelIdeal.τ).loc Cert.KernelIdeal.main_v181_1)) (v2 : (c : Dev Cert.KernelIdeal.nD) → Buf (Elt Ideal) ((c.tc : Thread Cert.KernelIdeal.nD Cert.KernelIdeal.τ).loc Cert.KernelIdeal.main_v181_2)) (v3 : (c : Dev Cert.KernelIdeal.nD) → Buf (Elt Ideal) ((c.tc : Thread Cert.KernelIdeal.nD Cert.KernelIdeal.τ).loc Cert.KernelIdeal.main_v180)) (v4 : (c : Dev Cert.KernelIdeal.nD) → Buf (Elt Ideal) ((c.tc : Thread Cert.KernelIdeal.nD Cert.KernelIdeal.τ).loc Cert.KernelIdeal.main_v179)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v181_0) = v0 c
          ∧ r.2.mem ((c.tc : Thread Cert.KernelIdeal.nD Cert.KernelIdeal.τ).loc Cert.KernelIdeal.main_v181_1) = v1 c
          ∧ r.2.mem ((c.tc : Thread Cert.KernelIdeal.nD Cert.KernelIdeal.τ).loc Cert.KernelIdeal.main_v181_2) = v2 c
          ∧ r.2.mem ((c.tc : Thread Cert.KernelIdeal.nD Cert.KernelIdeal.τ).loc Cert.KernelIdeal.main_v180) = v3 c
          ∧ r.2.mem ((c.tc : Thread Cert.KernelIdeal.nD Cert.KernelIdeal.τ).loc Cert.KernelIdeal.main_v179) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v199) = v0 c
          ∧ r.2.mem ((c.tc : Thread Cert.ReferenceIdeal.nD Cert.ReferenceIdeal.τ).loc Cert.ReferenceIdeal.main_v201) = v1 c
          ∧ r.2.mem ((c.tc : Thread Cert.ReferenceIdeal.nD Cert.ReferenceIdeal.τ).loc Cert.ReferenceIdeal.main_v197) = v2 c
          ∧ r.2.mem ((c.tc : Thread Cert.ReferenceIdeal.nD Cert.ReferenceIdeal.τ).loc Cert.ReferenceIdeal.main_v187) = v3 c
          ∧ r.2.mem ((c.tc : Thread Cert.ReferenceIdeal.nD Cert.ReferenceIdeal.τ).loc Cert.ReferenceIdeal.main_v208) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S16384x1000 : Shape := ⟨2, ![16384, 1000]⟩
abbrev S100000x64 : Shape := ⟨2, ![100000, 64]⟩
abbrev S30000x64 : Shape := ⟨2, ![30000, 64]⟩
abbrev S1000x64 : Shape := ⟨2, ![1000, 64]⟩
abbrev S1600000 : Shape := ⟨1, ![1600000]⟩
abbrev S480000 : Shape := ⟨1, ![480000]⟩
abbrev S32000 : Shape := ⟨1, ![32000]⟩
abbrev S64x128 : Shape := ⟨2, ![64, 128]⟩
abbrev S128 : Shape := ⟨1, ![128]⟩
abbrev S64x1 : Shape := ⟨2, ![64, 1]⟩
abbrev S1 : Shape := ⟨1, ![1]⟩
abbrev S_ : Shape := ⟨0, ![]⟩

class Facts : Prop where
  bcast_S_S16384x1000 : S_.BroadcastsInDim S16384x1000 (![] : Fin 0 → Fin S16384x1000.rank)
  reducesTo_S16384x1000_S_d0_1 : S16384x1000.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S30000x64 : S_.BroadcastsInDim S30000x64 (![] : Fin 0 → Fin S30000x64.rank)
  reducesTo_S30000x64_S_d0_1 : S30000x64.ReducesTo [0, 1] S_
  bcast_S_S1000x64 : S_.BroadcastsInDim S1000x64 (![] : Fin 0 → Fin S1000x64.rank)
  reducesTo_S1000x64_S_d0_1 : S1000x64.ReducesTo [0, 1] S_
  bcast_S_S1600000 : S_.BroadcastsInDim S1600000 (![] : Fin 0 → Fin S1600000.rank)
  reducesTo_S1600000_S_d0 : S1600000.ReducesTo [0] S_
  bcast_S_S480000 : S_.BroadcastsInDim S480000 (![] : Fin 0 → Fin S480000.rank)
  reducesTo_S480000_S_d0 : S480000.ReducesTo [0] S_
  bcast_S_S32000 : S_.BroadcastsInDim S32000 (![] : Fin 0 → Fin S32000.rank)
  reducesTo_S32000_S_d0 : S32000.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg22 : FVec F S64x1 .f32) (main_arg23 : FVec F S1 .f32) (main_v63 : IVec S_ 1) (main_v67 : IVec S_ 1) : IVec S_ 1 :=
  let main_v68 : IVec S_ 1 := andi main_v63 main_v67
  let main_v69 : FVec F S64x1 .f32 := Host.absf main_arg22
  let main_cst_26 : FVec F S_ .f32 := constant S_ .f32 0x7F800000#32
  let main_v70 : FVec F S64x1 .f32 := broadcastInDim S64x1 ![] bcast_S_S64x1 main_cst_26
  let main_v71 : IVec S64x1 1 := cmpf .olt main_v69 main_v70
  let main_c_27 : IVec S_ 1 := constantI S_ 1 1#1
  let main_v72 : IVec S_ 1 := (fun x v => Host.reduce IntOp.andi x v reducesTo_S64x1_S_d0_1 h_S_) main_v71 main_c_27
  let main_v73 : IVec S_ 1 := andi main_v68 main_v72
  let main_v74 : FVec F S1 .f32 := Host.absf main_arg23
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg19 : FVec F S128 .f32) (main_arg20 : FVec F S64x128 .f32) (main_arg21 : FVec F S128 .f32) (main_arg22 : FVec F S64x1 .f32) (main_arg23 : FVec F S1 .f32) (main_v48 : IVec S_ 1) (main_v49 : FVec F S64x128 .f32) (main_v50 : FVec F S64x128 .f32) : IVec S_ 1 :=
  let main_v51 : IVec S64x128 1 := cmpf .olt main_v49 main_v50
  let main_c_19 : IVec S_ 1 := constantI S_ 1 1#1
  let main_v52 : IVec S_ 1 := (fun x v => Host.reduce IntOp.andi x v reducesTo_S64x128_S_d0_1 h_S_) main_v51 main_c_19
  let main_v53 : IVec S_ 1 := andi main_v48 main_v52
  let main_v54 : FVec F S128 .f32 := Host.absf main_arg19
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S64x128 .f32 := Host.absf main_arg20
  let main_cst_22 : FVec F S_ .f32 := constant S_ .f32 0x7F800000#32
  let main_v60 : FVec F S64x128 .f32 := broadcastInDim S64x128 ![] bcast_S_S64x128 main_cst_22
  let main_v61 : IVec S64x128 1 := cmpf .olt main_v59 main_v60
  let main_c_23 : IVec S_ 1 := constantI S_ 1 1#1
  let main_v62 : IVec S_ 1 := (fun x v => Host.reduce IntOp.andi x v reducesTo_S64x128_S_d0_1 h_S_) main_v61 main_c_23
  let main_v63 : IVec S_ 1 := andi main_v58 main_v62
  let main_v64 : FVec F S128 .f32 := Host.absf main_arg21
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg22 main_arg23 main_v63 main_v67

def fn_part2 {F : FTy → Type} [FloatOps F] (main_arg15 : FVec F S32000 .f32) (main_arg16 : FVec F S64x128 .f32) (main_arg17 : FVec F S128 .f32) (main_arg18 : FVec F S64x128 .f32) (main_arg19 : FVec F S128 .f32) (main_arg20 : FVec F S64x128 .f32) (main_arg21 : FVec F S128 .f32) (main_arg22 : FVec F S64x1 .f32) (main_arg23 : FVec F S1 .f32) (main_v33 : IVec S_ 1) : IVec S_ 1 :=
  let main_v34 : FVec F S32000 .f32 := Host.absf main_arg15
  let main_cst_12 : FVec F S_ .f32 := constant S_ .f32 0x7F800000#32
  let main_v35 : FVec F S32000 .f32 := broadcastInDim S32000 ![] bcast_S_S32000 main_cst_12
  let main_v36 : IVec S32000 1 := cmpf .olt main_v34 main_v35
  let main_c_13 : IVec S_ 1 := constantI S_ 1 1#1
  let main_v37 : IVec S_ 1 := (fun x v => Host.reduce IntOp.andi x v reducesTo_S32000_S_d0 h_S_) main_v36 main_c_13
  let main_v38 : IVec S_ 1 := andi main_v33 main_v37
  let main_v39 : FVec F S64x128 .f32 := Host.absf main_arg16
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S128 .f32 := Host.absf main_arg17
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S64x128 .f32 := Host.absf main_arg18
  let main_cst_18 : FVec F S_ .f32 := constant S_ .f32 0x7F800000#32
  let main_v50 : FVec F S64x128 .f32 := broadcastInDim S64x128 ![] bcast_S_S64x128 main_cst_18
  fn_part3 (F := F) main_arg19 main_arg20 main_arg21 main_arg22 main_arg23 main_v48 main_v49 main_v50

def fn_part1 {F : FTy → Type} [FloatOps F] (main_arg6 : FVec F S30000x64 .f32) (main_arg9 : FVec F S1600000 .f32) (main_arg12 : FVec F S480000 .f32) (main_arg15 : FVec F S32000 .f32) (main_arg16 : FVec F S64x128 .f32) (main_arg17 : FVec F S128 .f32) (main_arg18 : FVec F S64x128 .f32) (main_arg19 : FVec F S128 .f32) (main_arg20 : FVec F S64x128 .f32) (main_arg21 : FVec F S128 .f32) (main_arg22 : FVec F S64x1 .f32) (main_arg23 : FVec F S1 .f32) (main_v13 : IVec S_ 1) (main_v16 : IVec S1000x64 1) : IVec S_ 1 :=
  let main_c_5 : IVec S_ 1 := constantI S_ 1 1#1
  let main_v17 : IVec S_ 1 := (fun x v => Host.reduce IntOp.andi x v reducesTo_S1000x64_S_d0_1 h_S_) main_v16 main_c_5
  let main_v18 : IVec S_ 1 := andi main_v13 main_v17
  let main_v19 : FVec F S30000x64 .f32 := Host.absf main_arg6
  let main_cst_6 : FVec F S_ .f32 := constant S_ .f32 0x7F800000#32
  let main_v20 : FVec F S30000x64 .f32 := broadcastInDim S30000x64 ![] bcast_S_S30000x64 main_cst_6
  let main_v21 : IVec S30000x64 1 := cmpf .olt main_v19 main_v20
  let main_c_7 : IVec S_ 1 := constantI S_ 1 1#1
  let main_v22 : IVec S_ 1 := (fun x v => Host.reduce IntOp.andi x v reducesTo_S30000x64_S_d0_1 h_S_) main_v21 main_c_7
  let main_v23 : IVec S_ 1 := andi main_v18 main_v22
  let main_v24 : FVec F S1600000 .f32 := Host.absf main_arg9
  let main_cst_8 : FVec F S_ .f32 := constant S_ .f32 0x7F800000#32
  let main_v25 : FVec F S1600000 .f32 := broadcastInDim S1600000 ![] bcast_S_S1600000 main_cst_8
  let main_v26 : IVec S1600000 1 := cmpf .olt main_v24 main_v25
  let main_c_9 : IVec S_ 1 := constantI S_ 1 1#1
  let main_v27 : IVec S_ 1 := (fun x v => Host.reduce IntOp.andi x v reducesTo_S1600000_S_d0 h_S_) main_v26 main_c_9
  let main_v28 : IVec S_ 1 := andi main_v23 main_v27
  let main_v29 : FVec F S480000 .f32 := Host.absf main_arg12
  let main_cst_10 : FVec F S_ .f32 := constant S_ .f32 0x7F800000#32
  let main_v30 : FVec F S480000 .f32 := broadcastInDim S480000 ![] bcast_S_S480000 main_cst_10
  let main_v31 : IVec S480000 1 := cmpf .olt main_v29 main_v30
  let main_c_11 : IVec S_ 1 := constantI S_ 1 1#1
  let main_v32 : IVec S_ 1 := (fun x v => Host.reduce IntOp.andi x v reducesTo_S480000_S_d0 h_S_) main_v31 main_c_11
  let main_v33 : IVec S_ 1 := andi main_v28 main_v32
  fn_part2 (F := F) main_arg15 main_arg16 main_arg17 main_arg18 main_arg19 main_arg20 main_arg21 main_arg22 main_arg23 main_v33

def fn {F : FTy → Type} [FloatOps F] (main_arg0 : IVec S16384 32) (main_arg1 : IVec S16384 32) (main_arg2 : FVec F S16384x1000 .f32) (main_arg3 : FVec F S100000x64 .f32) (main_arg4 : FVec F S30000x64 .f32) (main_arg5 : FVec F S1000x64 .f32) (main_arg6 : FVec F S30000x64 .f32) (main_arg7 : IVec S1600000 32) (main_arg8 : IVec S1600000 32) (main_arg9 : FVec F S1600000 .f32) (main_arg10 : IVec S480000 32) (main_arg11 : IVec S480000 32) (main_arg12 : FVec F S480000 .f32) (main_arg13 : IVec S32000 32) (main_arg14 : IVec S32000 32) (main_arg15 : FVec F S32000 .f32) (main_arg16 : FVec F S64x128 .f32) (main_arg17 : FVec F S128 .f32) (main_arg18 : FVec F S64x128 .f32) (main_arg19 : FVec F S128 .f32) (main_arg20 : FVec F S64x128 .f32) (main_arg21 : FVec F S128 .f32) (main_arg22 : FVec F S64x1 .f32) (main_arg23 : FVec F S1 .f32) : IVec S_ 1 :=
  let main_v0 : FVec F S16384x1000 .f32 := Host.absf main_arg2
  let main_cst : FVec F S_ .f32 := constant S_ .f32 0x7F800000#32
  let main_v1 : FVec F S16384x1000 .f32 := broadcastInDim S16384x1000 ![] bcast_S_S16384x1000 main_cst
  let main_v2 : IVec S16384x1000 1 := cmpf .olt main_v0 main_v1
  let main_c : IVec S_ 1 := constantI S_ 1 1#1
  let main_v3 : IVec S_ 1 := (fun x v => Host.reduce IntOp.andi x v reducesTo_S16384x1000_S_d0_1 h_S_) main_v2 main_c
  let main_v4 : FVec F S100000x64 .f32 := Host.absf main_arg3
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S30000x64 .f32 := Host.absf main_arg4
  let main_cst_2 : FVec F S_ .f32 := constant S_ .f32 0x7F800000#32
  let main_v10 : FVec F S30000x64 .f32 := broadcastInDim S30000x64 ![] bcast_S_S30000x64 main_cst_2
  let main_v11 : IVec S30000x64 1 := cmpf .olt main_v9 main_v10
  let main_c_3 : IVec S_ 1 := constantI S_ 1 1#1
  let main_v12 : IVec S_ 1 := (fun x v => Host.reduce IntOp.andi x v reducesTo_S30000x64_S_d0_1 h_S_) main_v11 main_c_3
  let main_v13 : IVec S_ 1 := andi main_v8 main_v12
  let main_v14 : FVec F S1000x64 .f32 := Host.absf main_arg5
  let main_cst_4 : FVec F S_ .f32 := constant S_ .f32 0x7F800000#32
  let main_v15 : FVec F S1000x64 .f32 := broadcastInDim S1000x64 ![] bcast_S_S1000x64 main_cst_4
  let main_v16 : IVec S1000x64 1 := cmpf .olt main_v14 main_v15
  fn_part1 (F := F) main_arg6 main_arg9 main_arg12 main_arg15 main_arg16 main_arg17 main_arg18 main_arg19 main_arg20 main_arg21 main_arg22 main_arg23 main_v13 main_v16
-- ==== Kernel.lean ====
abbrev S16384 : Shape := ⟨1, ![16384]⟩
abbrev S16384x1000 : Shape := ⟨2, ![16384, 1000]⟩
abbrev S100000x64 : Shape := ⟨2, ![100000, 64]⟩
abbrev S30000x64 : Shape := ⟨2, ![30000, 64]⟩
abbrev S1000x64 : Shape := ⟨2, ![1000, 64]⟩
abbrev S1600000 : Shape := ⟨1, ![1600000]⟩
abbrev S480000 : Shape := ⟨1, ![480000]⟩
abbrev S32000 : Shape := ⟨1, ![32000]⟩
abbrev S64x128 : Shape := ⟨2, ![64, 128]⟩
abbrev S128 : Shape := ⟨1, ![128]⟩
abbrev S64x1 : Shape := ⟨2, ![64, 1]⟩
abbrev S1 : Shape := ⟨1, ![1]⟩
abbrev S1600000x1 : Shape := ⟨2, ![1600000, 1]⟩
abbrev S_ : Shape := ⟨0, ![]⟩
abbrev S1600000x64 : Shape := ⟨2, ![1600000, 64]⟩
abbrev S480000x1 : Shape := ⟨2, ![480000, 1]⟩
abbrev S480000x64 : Shape := ⟨2, ![480000, 64]⟩
abbrev S32000x1 : Shape := ⟨2, ![32000, 1]⟩
abbrev S32000x64 : Shape := ⟨2, ![32000, 64]⟩
abbrev S16384x1 : Shape := ⟨2, ![16384, 1]⟩
abbrev S16384x64 : Shape := ⟨2, ![16384, 64]⟩
abbrev S1000x128 : Shape := ⟨2, ![1000, 128]⟩
abbrev S1x128 : Shape := ⟨2, ![1, 128]⟩
abbrev S1024x64 : Shape := ⟨2, ![1024, 64]⟩
abbrev S1024x1000 : Shape := ⟨2, ![1024, 1000]⟩
abbrev S1024x1 : Shape := ⟨2, ![1024, 1]⟩
abbrev S1024x128 : Shape := ⟨2, ![1024, 128]⟩
abbrev S1x1 : Shape := ⟨2, ![1, 1]⟩

abbrev nBuf : Space → Nat
  | .hbm => 253
  | .vmem => 21
  | .smem => 0
  | _ => 0

abbrev hbmTy0_0 (i : Nat) : BufTy := match i % 128 with
  | 0 => ⟨S16384, .i32⟩
  | 1 => ⟨S16384, .i32⟩
  | 2 => ⟨S16384x1000, .f32⟩
  | 3 => ⟨S100000x64, .f32⟩
  | 4 => ⟨S30000x64, .f32⟩
  | 5 => ⟨S1000x64, .f32⟩
  | 6 => ⟨S30000x64, .f32⟩
  | 7 => ⟨S1600000, .i32⟩
  | 8 => ⟨S1600000, .i32⟩
  | 9 => ⟨S1600000, .f32⟩
  | 10 => ⟨S480000, .i32⟩
  | 11 => ⟨S480000, .i32⟩
  | 12 => ⟨S480000, .f32⟩
  | 13 => ⟨S32000, .i32⟩
  | 14 => ⟨S32000, .i32⟩
  | 15 => ⟨S32000, .f32⟩
  | 16 => ⟨S64x128, .f32⟩
  | 17 => ⟨S128, .f32⟩
  | 18 => ⟨S64x128, .f32⟩
  | 19 => ⟨S128, .f32⟩
  | 20 => ⟨S64x128, .f32⟩
  | 21 => ⟨S128, .f32⟩
  | 22 => ⟨S64x1, .f32⟩
  | 23 => ⟨S1, .f32⟩
  | 24 => ⟨S1600000x1, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000x64, .f32⟩
  | 34 => ⟨S1600000x64, .f32⟩
  | 35 => ⟨S1600000x64, .f32⟩
  | 36 => ⟨S_, .f32⟩
  | 37 => ⟨S100000x64, .f32⟩
  | 38 => ⟨S1600000x1, .i32⟩
  | 39 => ⟨S100000x64, .f32⟩
  | 40 => ⟨S_, .f32⟩
  | 41 => ⟨S100000x64, .f32⟩
  | 42 => ⟨S100000x64, .f32⟩
  | 43 => ⟨S100000x64, .f32⟩
  | 44 => ⟨S100000x64, .f32⟩
  | 45 => ⟨S1600000x1, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000x64, .f32⟩
  | 55 => ⟨S1600000x64, .f32⟩
  | 56 => ⟨S1600000x64, .f32⟩
  | 57 => ⟨S_, .f32⟩
  | 58 => ⟨S100000x64, .f32⟩
  | 59 => ⟨S1600000x1, .i32⟩
  | 60 => ⟨S100000x64, .f32⟩
  | 61 => ⟨S_, .f32⟩
  | 62 => ⟨S100000x64, .f32⟩
  | 63 => ⟨S100000x64, .f32⟩
  | 64 => ⟨S100000x64, .f32⟩
  | 65 => ⟨S100000x64, .f32⟩
  | 66 => ⟨S1600000x1, .f32⟩
  | 67 => ⟨S_, .i32⟩
  | 68 => ⟨S1600000, .i32⟩
  | 69 => ⟨S1600000, .i1⟩
  | 70 => ⟨S_, .i32⟩
  | 71 => ⟨S1600000, .i32⟩
  | 72 => ⟨S1600000, .i32⟩
  | 73 => ⟨S1600000, .i32⟩
  | 74 => ⟨S1600000x1, .i32⟩
  | 75 => ⟨S1600000x64, .f32⟩
  | 76 => ⟨S1600000x64, .f32⟩
  | 77 => ⟨S1600000x64, .f32⟩
  | 78 => ⟨S_, .f32⟩
  | 79 => ⟨S100000x64, .f32⟩
  | 80 => ⟨S1600000x1, .i32⟩
  | 81 => ⟨S100000x64, .f32⟩
  | 82 => ⟨S_, .f32⟩
  | 83 => ⟨S100000x64, .f32⟩
  | 84 => ⟨S100000x64, .f32⟩
  | 85 => ⟨S100000x64, .f32⟩
  | 86 => ⟨S100000x64, .f32⟩
  | 87 => ⟨S_, .f32⟩
  | 88 => ⟨S100000x64, .f32⟩
  | 89 => ⟨S100000x64, .f32⟩
  | 90 => ⟨S480000x1, .f32⟩
  | 91 => ⟨S_, .i32⟩
  | 92 => ⟨S480000, .i32⟩
  | 93 => ⟨S480000, .i1⟩
  | 94 => ⟨S_, .i32⟩
  | 95 => ⟨S480000, .i32⟩
  | 96 => ⟨S480000, .i32⟩
  | 97 => ⟨S480000, .i32⟩
  | 98 => ⟨S480000x1, .i32⟩
  | 99 => ⟨S480000x64, .f32⟩
  | 100 => ⟨S480000x64, .f32⟩
  | 101 => ⟨S480000x64, .f32⟩
  | 102 => ⟨S_, .f32⟩
  | 103 => ⟨S30000x64, .f32⟩
  | 104 => ⟨S480000x1, .i32⟩
  | 105 => ⟨S30000x64, .f32⟩
  | 106 => ⟨S_, .f32⟩
  | 107 => ⟨S30000x64, .f32⟩
  | 108 => ⟨S30000x64, .f32⟩
  | 109 => ⟨S30000x64, .f32⟩
  | 110 => ⟨S30000x64, .f32⟩
  | 111 => ⟨S480000x1, .f32⟩
  | 112 => ⟨S_, .i32⟩
  | 113 => ⟨S480000, .i32⟩
  | 114 => ⟨S480000, .i1⟩
  | 115 => ⟨S_, .i32⟩
  | 116 => ⟨S480000, .i32⟩
  | 117 => ⟨S480000, .i32⟩
  | 118 => ⟨S480000, .i32⟩
  | 119 => ⟨S480000x1, .i32⟩
  | 120 => ⟨S480000x64, .f32⟩
  | 121 => ⟨S480000x64, .f32⟩
  | 122 => ⟨S480000x64, .f32⟩
  | 123 => ⟨S_, .f32⟩
  | 124 => ⟨S30000x64, .f32⟩
  | 125 => ⟨S480000x1, .i32⟩
  | 126 => ⟨S30000x64, .f32⟩
  | 127 => ⟨S_, .f32⟩
  | _ => ⟨S16384, .i32⟩

abbrev hbmTy0_1 (i : Nat) : BufTy := match i % 128 with
  | 0 => ⟨S30000x64, .f32⟩
  | 1 => ⟨S30000x64, .f32⟩
  | 2 => ⟨S30000x64, .f32⟩
  | 3 => ⟨S30000x64, .f32⟩
  | 4 => ⟨S480000x1, .f32⟩
  | 5 => ⟨S_, .i32⟩
  | 6 => ⟨S480000, .i32⟩
  | 7 => ⟨S480000, .i1⟩
  | 8 => ⟨S_, .i32⟩
  | 9 => ⟨S480000, .i32⟩
  | 10 => ⟨S480000, .i32⟩
  | 11 => ⟨S480000, .i32⟩
  | 12 => ⟨S480000x1, .i32⟩
  | 13 => ⟨S480000x64, .f32⟩
  | 14 => ⟨S480000x64, .f32⟩
  | 15 => ⟨S480000x64, .f32⟩
  | 16 => ⟨S_, .f32⟩
  | 17 => ⟨S30000x64, .f32⟩
  | 18 => ⟨S480000x1, .i32⟩
  | 19 => ⟨S30000x64, .f32⟩
  | 20 => ⟨S_, .f32⟩
  | 21 => ⟨S30000x64, .f32⟩
  | 22 => ⟨S30000x64, .f32⟩
  | 23 => ⟨S30000x64, .f32⟩
  | 24 => ⟨S30000x64, .f32⟩
  | 25 => ⟨S_, .f32⟩
  | 26 => ⟨S30000x64, .f32⟩
  | 27 => ⟨S30000x64, .f32⟩
  | 28 => ⟨S32000x1, .f32⟩
  | 29 => ⟨S_, .i32⟩
  | 30 => ⟨S32000, .i32⟩
  | 31 => ⟨S32000, .i1⟩
  | 32 => ⟨S_, .i32⟩
  | 33 => ⟨S32000, .i32⟩
  | 34 => ⟨S32000, .i32⟩
  | 35 => ⟨S32000, .i32⟩
  | 36 => ⟨S32000x1, .i32⟩
  | 37 => ⟨S32000x64, .f32⟩
  | 38 => ⟨S32000x64, .f32⟩
  | 39 => ⟨S32000x64, .f32⟩
  | 40 => ⟨S_, .f32⟩
  | 41 => ⟨S1000x64, .f32⟩
  | 42 => ⟨S32000x1, .i32⟩
  | 43 => ⟨S1000x64, .f32⟩
  | 44 => ⟨S_, .f32⟩
  | 45 => ⟨S1000x64, .f32⟩
  | 46 => ⟨S1000x64, .f32⟩
  | 47 => ⟨S1000x64, .f32⟩
  | 48 => ⟨S1000x64, .f32⟩
  | 49 => ⟨S32000x1, .f32⟩
  | 50 => ⟨S_, .i32⟩
  | 51 => ⟨S32000, .i32⟩
  | 52 => ⟨S32000, .i1⟩
  | 53 => ⟨S_, .i32⟩
  | 54 => ⟨S32000, .i32⟩
  | 55 => ⟨S32000, .i32⟩
  | 56 => ⟨S32000, .i32⟩
  | 57 => ⟨S32000x1, .i32⟩
  | 58 => ⟨S32000x64, .f32⟩
  | 59 => ⟨S32000x64, .f32⟩
  | 60 => ⟨S32000x64, .f32⟩
  | 61 => ⟨S_, .f32⟩
  | 62 => ⟨S1000x64, .f32⟩
  | 63 => ⟨S32000x1, .i32⟩
  | 64 => ⟨S1000x64, .f32⟩
  | 65 => ⟨S_, .f32⟩
  | 66 => ⟨S1000x64, .f32⟩
  | 67 => ⟨S1000x64, .f32⟩
  | 68 => ⟨S1000x64, .f32⟩
  | 69 => ⟨S1000x64, .f32⟩
  | 70 => ⟨S32000x1, .f32⟩
  | 71 => ⟨S_, .i32⟩
  | 72 => ⟨S32000, .i32⟩
  | 73 => ⟨S32000, .i1⟩
  | 74 => ⟨S_, .i32⟩
  | 75 => ⟨S32000, .i32⟩
  | 76 => ⟨S32000, .i32⟩
  | 77 => ⟨S32000, .i32⟩
  | 78 => ⟨S32000x1, .i32⟩
  | 79 => ⟨S32000x64, .f32⟩
  | 80 => ⟨S32000x64, .f32⟩
  | 81 => ⟨S32000x64, .f32⟩
  | 82 => ⟨S_, .f32⟩
  | 83 => ⟨S1000x64, .f32⟩
  | 84 => ⟨S32000x1, .i32⟩
  | 85 => ⟨S1000x64, .f32⟩
  | 86 => ⟨S_, .f32⟩
  | 87 => ⟨S1000x64, .f32⟩
  | 88 => ⟨S1000x64, .f32⟩
  | 89 => ⟨S1000x64, .f32⟩
  | 90 => ⟨S1000x64, .f32⟩
  | 91 => ⟨S_, .f32⟩
  | 92 => ⟨S1000x64, .f32⟩
  | 93 => ⟨S1000x64, .f32⟩
  | 94 => ⟨S_, .i32⟩
  | 95 => ⟨S16384, .i32⟩
  | 96 => ⟨S16384, .i1⟩
  | 97 => ⟨S_, .i32⟩
  | 98 => ⟨S16384, .i32⟩
  | 99 => ⟨S16384, .i32⟩
  | 100 => ⟨S16384, .i32⟩
  | 101 => ⟨S16384x1, .i32⟩
  | 102 => ⟨S16384x64, .f32⟩
  | 103 => ⟨S_, .i32⟩
  | 104 => ⟨S16384, .i32⟩
  | 105 => ⟨S16384, .i1⟩
  | 106 => ⟨S_, .i32⟩
  | 107 => ⟨S16384, .i32⟩
  | 108 => ⟨S16384, .i32⟩
  | 109 => ⟨S16384, .i32⟩
  | 110 => ⟨S16384x1, .i32⟩
  | 111 => ⟨S16384x64, .f32⟩
  | 112 => ⟨S_, .i32⟩
  | 113 => ⟨S16384, .i32⟩
  | 114 => ⟨S16384, .i1⟩
  | 115 => ⟨S_, .i32⟩
  | 116 => ⟨S16384, .i32⟩
  | 117 => ⟨S16384, .i32⟩
  | 118 => ⟨S16384, .i32⟩
  | 119 => ⟨S16384x1, .i32⟩
  | 120 => ⟨S16384x64, .f32⟩
  | 121 => ⟨S1000x128, .f32⟩
  | 122 => ⟨S16384x1000, .f32⟩
  | 123 => ⟨S16384x1000, .f32⟩
  | 124 => ⟨S16384x1, .f32⟩
  | _ => ⟨S16384, .i32⟩

abbrev hbmTy (i : Nat) : BufTy := match i / 128 with
  | 0 => hbmTy0_0 i
  | 1 => hbmTy0_1 i
  | _ => ⟨S16384, .i32⟩

abbrev bufTy : (tb : Table) → Fin (tcTables nBuf tb) → BufTy
  | .hbm, ⟨i, _⟩ => hbmTy i
  | .local _ .vmem, ⟨0, _⟩ => ⟨S1000x64, .f32⟩
  | .local _ .vmem, ⟨1, _⟩ => ⟨S64x128, .f32⟩
  | .local _ .vmem, ⟨2, _⟩ => ⟨S128, .f32⟩
  | .local _ .vmem, ⟨3, _⟩ => ⟨S1000x128, .f32⟩
  | .local _ .vmem, ⟨4, _⟩ => ⟨S1024x64, .f32⟩
  | .local _ .vmem, ⟨5, _⟩ => ⟨S1024x64, .f32⟩
  | .local _ .vmem, ⟨6, _⟩ => ⟨S1024x64, .f32⟩
  | .local _ .vmem, ⟨7, _⟩ => ⟨S1024x64, .f32⟩
  | .local _ .vmem, ⟨8, _⟩ => ⟨S64x128, .f32⟩
  | .local _ .vmem, ⟨9, _⟩ => ⟨S128, .f32⟩
  | .local _ .vmem, ⟨10, _⟩ => ⟨S64x128, .f32⟩
  | .local _ .vmem, ⟨11, _⟩ => ⟨S128, .f32⟩
  | .local _ .vmem, ⟨12, _⟩ => ⟨S64x1, .f32⟩
  | .local _ .vmem, ⟨13, _⟩ => ⟨S1, .f32⟩
  | .local _ .vmem, ⟨14, _⟩ => ⟨S1000x128, .f32⟩
  | .local _ .vmem, ⟨15, _⟩ => ⟨S1024x1000, .f32⟩
  | .local _ .vmem, ⟨16, _⟩ => ⟨S1024x1000, .f32⟩
  | .local _ .vmem, ⟨17, _⟩ => ⟨S1024x1000, .f32⟩
  | .local _ .vmem, ⟨18, _⟩ => ⟨S1024x1000, .f32⟩
  | .local _ .vmem, ⟨19, _⟩ => ⟨S1024x1, .f32⟩
  | .local _ .vmem, ⟨20, _⟩ => ⟨S1024x1, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_c : Ref sig .tc := ⟨.hbm, 25, rfl⟩
abbrev main_v1 : Ref sig .tc := ⟨.hbm, 26, rfl⟩
abbrev main_v2 : Ref sig .tc := ⟨.hbm, 27, rfl⟩
abbrev main_c_0 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_cst : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_cst_1 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_c_2 : Ref sig .tc := ⟨.hbm, 46, rfl⟩
abbrev main_v18 : Ref sig .tc := ⟨.hbm, 47, rfl⟩
abbrev main_v19 : Ref sig .tc := ⟨.hbm, 48, rfl⟩
abbrev main_c_3 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_cst_4 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_cst_5 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_c_6 : Ref sig .tc := ⟨.hbm, 67, rfl⟩
abbrev main_v35 : Ref sig .tc := ⟨.hbm, 68, rfl⟩
abbrev main_v36 : Ref sig .tc := ⟨.hbm, 69, rfl⟩
abbrev main_c_7 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_cst_8 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_cst_9 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_cst_10 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_c_11 : Ref sig .tc := ⟨.hbm, 91, rfl⟩
abbrev main_v54 : Ref sig .tc := ⟨.hbm, 92, rfl⟩
abbrev main_v55 : Ref sig .tc := ⟨.hbm, 93, rfl⟩
abbrev main_c_12 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_cst_13 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_cst_14 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_c_15 : Ref sig .tc := ⟨.hbm, 112, rfl⟩
abbrev main_v71 : Ref sig .tc := ⟨.hbm, 113, rfl⟩
abbrev main_v72 : Ref sig .tc := ⟨.hbm, 114, rfl⟩
abbrev main_c_16 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_cst_17 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_cst_18 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_c_19 : Ref sig .tc := ⟨.hbm, 133, rfl⟩
abbrev main_v88 : Ref sig .tc := ⟨.hbm, 134, rfl⟩
abbrev main_v89 : Ref sig .tc := ⟨.hbm, 135, rfl⟩
abbrev main_c_20 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_cst_21 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_cst_22 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_cst_23 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_c_24 : Ref sig .tc := ⟨.hbm, 157, rfl⟩
abbrev main_v107 : Ref sig .tc := ⟨.hbm, 158, rfl⟩
abbrev main_v108 : Ref sig .tc := ⟨.hbm, 159, rfl⟩
abbrev main_c_25 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_cst_26 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_cst_27 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_c_28 : Ref sig .tc := ⟨.hbm, 178, rfl⟩
abbrev main_v124 : Ref sig .tc := ⟨.hbm, 179, rfl⟩
abbrev main_v125 : Ref sig .tc := ⟨.hbm, 180, rfl⟩
abbrev main_c_29 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_cst_30 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_cst_31 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_c_32 : Ref sig .tc := ⟨.hbm, 199, rfl⟩
abbrev main_v141 : Ref sig .tc := ⟨.hbm, 200, rfl⟩
abbrev main_v142 : Ref sig .tc := ⟨.hbm, 201, rfl⟩
abbrev main_c_33 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_cst_34 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_cst_35 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_cst_36 : Ref sig .tc := ⟨.hbm, 219, rfl⟩
abbrev main_v157 : Ref sig .tc := ⟨.hbm, 220, rfl⟩
abbrev main_v158 : Ref sig .tc := ⟨.hbm, 221, rfl⟩
abbrev main_c_37 : Ref sig .tc := ⟨.hbm, 222, rfl⟩
abbrev main_v159 : Ref sig .tc := ⟨.hbm, 223, rfl⟩
abbrev main_v160 : Ref sig .tc := ⟨.hbm, 224, rfl⟩
abbrev main_c_38 : Ref sig .tc := ⟨.hbm, 225, rfl⟩
abbrev main_v161 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_c_39 : Ref sig .tc := ⟨.hbm, 231, rfl⟩
abbrev main_v166 : Ref sig .tc := ⟨.hbm, 232, rfl⟩
abbrev main_v167 : Ref sig .tc := ⟨.hbm, 233, rfl⟩
abbrev main_c_40 : Ref sig .tc := ⟨.hbm, 234, rfl⟩
abbrev main_v168 : Ref sig .tc := ⟨.hbm, 235, rfl⟩
abbrev main_v169 : Ref sig .tc := ⟨.hbm, 236, rfl⟩
abbrev main_v170 : Ref sig .tc := ⟨.hbm, 237, rfl⟩
abbrev main_v171 : Ref sig .tc := ⟨.hbm, 238, rfl⟩
abbrev main_v172 : Ref sig .tc := ⟨.hbm, 239, rfl⟩
abbrev main_c_41 : Ref sig .tc := ⟨.hbm, 240, rfl⟩
abbrev main_v173 : Ref sig .tc := ⟨.hbm, 241, rfl⟩
abbrev main_v174 : Ref sig .tc := ⟨.hbm, 242, rfl⟩
abbrev main_c_42 : Ref sig .tc := ⟨.hbm, 243, rfl⟩
abbrev main_v175 : Ref sig .tc := ⟨.hbm, 244, rfl⟩
abbrev main_v176 : Ref sig .tc := ⟨.hbm, 245, rfl⟩
abbrev main_v177 : Ref sig .tc := ⟨.hbm, 246, rfl⟩
abbrev main_v178 : Ref sig .tc := ⟨.hbm, 247, rfl⟩
abbrev main_v179 : Ref sig .tc := ⟨.hbm, 248, rfl⟩
abbrev main_v180 : Ref sig .tc := ⟨.hbm, 249, rfl⟩
abbrev main_v181_0 : Ref sig .tc := ⟨.hbm, 250, rfl⟩
abbrev main_v181_1 : Ref sig .tc := ⟨.hbm, 251, rfl⟩
abbrev main_v181_2 : Ref sig .tc := ⟨.hbm, 252, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg8_0 : Ref sig .tc := ⟨.vmem, 14, rfl⟩
abbrev cc1_stg9_0 : Ref sig .tc := ⟨.vmem, 15, rfl⟩
abbrev cc1_stg9_1 : Ref sig .tc := ⟨.vmem, 16, rfl⟩
abbrev cc1_stg10_0 : Ref sig .tc := ⟨.vmem, 17, rfl⟩
abbrev cc1_stg10_1 : Ref sig .tc := ⟨.vmem, 18, rfl⟩
abbrev cc1_stg11_0 : Ref sig .tc := ⟨.vmem, 19, rfl⟩
abbrev cc1_stg11_1 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem8_0 : DmaSem sig := 14
abbrev cc1_sem9_0 : DmaSem sig := 15
abbrev cc1_sem9_1 : DmaSem sig := 16
abbrev cc1_sem10_0 : DmaSem sig := 17
abbrev cc1_sem10_1 : DmaSem sig := 18
abbrev cc1_sem11_0 : DmaSem sig := 19
abbrev cc1_sem11_1 : DmaSem sig := 20

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1000x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1000x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1000x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S1024x1000 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1024x1000 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S1024x1 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S480000_S480000x1_0 : S480000.BroadcastsInDim S480000x1 (![0] : Fin 1 → Fin S480000x1.rank)
  bcast_S_S480000 : S_.BroadcastsInDim S480000 (![] : Fin 0 → Fin S480000.rank)
  bcast_S480000x1_S480000x64_0_1 : S480000x1.BroadcastsInDim S480000x64 (![0, 1] : Fin 2 → Fin S480000x64.rank)
  bcast_S_S30000x64 : S_.BroadcastsInDim S30000x64 (![] : Fin 0 → Fin S30000x64.rank)
  bcast_S32000_S32000x1_0 : S32000.BroadcastsInDim S32000x1 (![0] : Fin 1 → Fin S32000x1.rank)
  bcast_S_S32000 : S_.BroadcastsInDim S32000 (![] : Fin 0 → Fin S32000.rank)
  bcast_S32000x1_S32000x64_0_1 : S32000x1.BroadcastsInDim S32000x64 (![0, 1] : Fin 2 → Fin S32000x64.rank)
  bcast_S_S1000x64 : S_.BroadcastsInDim S1000x64 (![] : Fin 0 → Fin S1000x64.rank)
  bcast_S_S16384 : S_.BroadcastsInDim S16384 (![] : Fin 0 → Fin S16384.rank)
  bcast_S16384_S16384x1_0 : S16384.BroadcastsInDim S16384x1 (![0] : Fin 1 → Fin S16384x1.rank)
  inb_S1000x64_S1000x64_0_0 : ∀ a, (![0, 0] : Fin 2 → Nat) a + S1000x64.size a ≤ S1000x64.size a
  h_S1000x64 : 0 < S1000x64.numel
  shapeCasts_S1000x64_S1000x64 : S1000x64.ShapeCasts S1000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S1000x128 : S1x128.Broadcasts S1000x128
  inb_S1000x128_S1000x128_0_0 : ∀ a, (![0, 0] : Fin 2 → Nat) a + S1000x128.size a ≤ S1000x128.size a
  h_S1000x128 : 0 < S1000x128.numel
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S64x1_S64x1_0_0 : ∀ a, (![0, 0] : Fin 2 → Nat) a + S64x1.size a ≤ S64x1.size a
  h_S64x1 : 0 < S64x1.numel
  shapeCasts_S1000x128_S1000x128 : S1000x128.ShapeCasts S1000x128
  broadcasts_S1x128_S1024x128 : S1x128.Broadcasts S1024x128
  inb_S1_S1_0 : ∀ a, (![0] : Fin 1 → Nat) a + S1.size a ≤ S1.size a
  h_S1 : 0 < S1.numel
  shapeCasts_S1_S1x1 : S1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  inb_S1024x1000_S1024x1000_0_0 : ∀ a, (![0, 0] : Fin 2 → Nat) a + S1024x1000.size a ≤ S1024x1000.size a
  h_S1024x1000 : 0 < S1024x1000.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  gather_S30000x64_S480000x1_S480000x64_1_0_n_n_0_1_164_wf : GatherDims.WF S30000x64 S480000x1 S480000x64 [1] [0] [] [0] [] 1 ![1, 64]
  scatter_S30000x64_S480000x1_S480000x64_1_0_0_1_wf : ScatterDims.WF S30000x64 S480000x1 S480000x64 [1] [0] [0] 1
  gather_S1000x64_S32000x1_S32000x64_1_0_n_n_0_1_164_wf : GatherDims.WF S1000x64 S32000x1 S32000x64 [1] [0] [] [0] [] 1 ![1, 64]
  scatter_S1000x64_S32000x1_S32000x64_1_0_0_1_wf : ScatterDims.WF S1000x64 S32000x1 S32000x64 [1] [0] [0] 1
  gather_S100000x64_S16384x1_S16384x64_1_0_n_n_0_1_164_wf : GatherDims.WF S100000x64 S16384x1 S16384x64 [1] [0] [] [0] [] 1 ![1, 64]
  gather_S30000x64_S16384x1_S16384x64_1_0_n_n_0_1_164_wf : GatherDims.WF S30000x64 S16384x1 S16384x64 [1] [0] [] [0] [] 1 ![1, 64]
  dot_S1000x64_S64x128_S1000x128_1_0_0_1_n_n_wf : DotDims.WF S1000x64 S64x128 S1000x128 [1] [0] [0] [1] [] []
  dot_S1024x64_S64x128_S1024x128_1_0_0_1_n_n_wf : DotDims.WF S1024x64 S64x128 S1024x128 [1] [0] [0] [1] [] []
  dot_S1024x64_S64x1_S1024x1_1_0_0_1_n_n_wf : DotDims.WF S1024x64 S64x1 S1024x1 [1] [0] [0] [1] [] []
  dot_S1024x128_S1000x128_S1024x1000_1_1_0_0_n_n_wf : DotDims.WF S1024x128 S1000x128 S1024x1000 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1000x64.size a ≤ S1000x64.size a
  hwx0_0 : ∀ i : grid0.Coords, EltTy.bits .f32 = 32 ∨ (Rect.block (s := S1000x64) S1000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1000x128.size a ≤ S1000x128.size a
  hwx0_3 : ∀ i : grid0.Coords, EltTy.bits .f32 = 32 ∨ (Rect.block (s := S1000x128) S1000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x64.size a ≤ S16384x64.size a
  hwx1_0 : ∀ i : grid1.Coords, EltTy.bits .f32 = 32 ∨ (Rect.block (s := S16384x64) S1024x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x64.size a ≤ S16384x64.size a
  hwx1_1 : ∀ i : grid1.Coords, EltTy.bits .f32 = 32 ∨ (Rect.block (s := S16384x64) S1024x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x128.size a ≤ S64x128.size a
  hwx1_4 : ∀ i : grid1.Coords, EltTy.bits .f32 = 32 ∨ (Rect.block (s := S64x128) S64x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x1.size a ≤ S64x1.size a
  hwx1_6 : ∀ i : grid1.Coords, EltTy.bits .f32 = 32 ∨ (Rect.block (s := S64x1) S64x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1.size a ≤ S1.size a
  hwx1_7 : ∀ i : grid1.Coords, EltTy.bits .f32 = 32 ∨ (Rect.block (s := S1) S1.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1000x128.size a ≤ S1000x128.size a
  hwx1_8 : ∀ i : grid1.Coords, EltTy.bits .f32 = 32 ∨ (Rect.block (s := S1000x128) S1000x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1024x1000.size a ≤ S16384x1000.size a
  hwx1_9 : ∀ i : grid1.Coords, EltTy.bits .f32 = 32 ∨ (Rect.block (s := S16384x1000) S1024x1000.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S1024x1000.size a ≤ S16384x1000.size a
  hwx1_10 : ∀ i : grid1.Coords, EltTy.bits .f32 = 32 ∨ (Rect.block (s := S16384x1000) S1024x1000.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S1024x1.size a ≤ S16384x1.size a
  hwx1_11 : ∀ i : grid1.Coords, EltTy.bits .f32 = 32 ∨ (Rect.block (s := S16384x1) S1024x1.size (cc1_transform_11 i) (hinb1_11 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def gather_S30000x64_S480000x1_S480000x64_1_0_n_n_0_1_164 : GatherDims S30000x64 S480000x1 S480000x64 where
  offsetDims := [1]
  collapsedSliceDims := [0]
  operandBatchingDims := []
  startIndicesBatchingDims := []
  startIndexMap := [0]
  indexVectorDim := 1
  sliceSizes := ![1, 64]
  wf := gather_S30000x64_S480000x1_S480000x64_1_0_n_n_0_1_164_wf
def scatter_S30000x64_S480000x1_S480000x64_1_0_0_1 : ScatterDims S30000x64 S480000x1 S480000x64 where
  updateWindowDims := [1]
  insertedWindowDims := [0]
  scatterDimsToOperandDims := [0]
  indexVectorDim := 1
  wf := scatter_S30000x64_S480000x1_S480000x64_1_0_0_1_wf
def gather_S1000x64_S32000x1_S32000x64_1_0_n_n_0_1_164 : GatherDims S1000x64 S32000x1 S32000x64 where
  offsetDims := [1]
  collapsedSliceDims := [0]
  operandBatchingDims := []
  startIndicesBatchingDims := []
  startIndexMap := [0]
  indexVectorDim := 1
  sliceSizes := ![1, 64]
  wf := gather_S1000x64_S32000x1_S32000x64_1_0_n_n_0_1_164_wf
def scatter_S1000x64_S32000x1_S32000x64_1_0_0_1 : ScatterDims S1000x64 S32000x1 S32000x64 where
  updateWindowDims := [1]
  insertedWindowDims := [0]
  scatterDimsToOperandDims := [0]
  indexVectorDim := 1
  wf := scatter_S1000x64_S32000x1_S32000x64_1_0_0_1_wf
def gather_S100000x64_S16384x1_S16384x64_1_0_n_n_0_1_164 : GatherDims S100000x64 S16384x1 S16384x64 where
  offsetDims := [1]
  collapsedSliceDims := [0]
  operandBatchingDims := []
  startIndicesBatchingDims := []
  startIndexMap := [0]
  indexVectorDim := 1
  sliceSizes := ![1, 64]
  wf := gather_S100000x64_S16384x1_S16384x64_1_0_n_n_0_1_164_wf
def gather_S30000x64_S16384x1_S16384x64_1_0_n_n_0_1_164 : GatherDims S30000x64 S16384x1 S16384x64 where
  offsetDims := [1]
  collapsedSliceDims := [0]
  operandBatchingDims := []
  startIndicesBatchingDims := []
  startIndexMap := [0]
  indexVectorDim := 1
  sliceSizes := ![1, 64]
  wf := gather_S30000x64_S16384x1_S16384x64_1_0_n_n_0_1_164_wf
def dot_S1000x64_S64x128_S1000x128_1_0_0_1_n_n : DotDims S1000x64 S64x128 S1000x128 where
  lhsContracting := [1]
  rhsContracting := [0]
  lhsNonContracting := [0]
  rhsNonContracting := [1]
  lhsBatch := []
  rhsBatch := []
  wf := dot_S1000x64_S64x128_S1000x128_1_0_0_1_n_n_wf
def dot_S1024x64_S64x128_S1024x128_1_0_0_1_n_n : DotDims S1024x64 S64x128 S1024x128 where
  lhsContracting := [1]
  rhsContracting := [0]
  lhsNonContracting := [0]
  rhsNonContracting := [1]
  lhsBatch := []
  rhsBatch := []
  wf := dot_S1024x64_S64x128_S1024x128_1_0_0_1_n_n_wf
def dot_S1024x64_S64x1_S1024x1_1_0_0_1_n_n : DotDims S1024x64 S64x1 S1024x1 where
  lhsContracting := [1]
  rhsContracting := [0]
  lhsNonContracting := [0]
  rhsNonContracting := [1]
  lhsBatch := []
  rhsBatch := []
  wf := dot_S1024x64_S64x1_S1024x1_1_0_0_1_n_n_wf
def dot_S1024x128_S1000x128_S1024x1000_1_1_0_0_n_n : DotDims S1024x128 S1000x128 S1024x1000 where
  lhsContracting := [1]
  rhsContracting := [1]
  lhsNonContracting := [0]
  rhsNonContracting := [0]
  lhsBatch := []
  rhsBatch := []
  wf := dot_S1024x128_S1000x128_S1024x1000_1_1_0_0_n_n_wf

abbrev win0_0 : Pipeline.Window sig grid0 :=
  Pipeline.Window.ofSpec (Memref.whole main_v158) S1000x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg20) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg21) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v180) S1000x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v165) S1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v172) S1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg16) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg17) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg18) S64x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg19) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg22) S64x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg23) S1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v180) S1000x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v181_0) S1024x1000.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v181_1) S1024x1000.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v181_2) S1024x1.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S16384 : Shape := ⟨1, ![16384]⟩
abbrev S16384x1000 : Shape := ⟨2, ![16384, 1000]⟩
abbrev S100000x64 : Shape := ⟨2, ![100000, 64]⟩
abbrev S30000x64 : Shape := ⟨2, ![30000, 64]⟩
abbrev S1000x64 : Shape := ⟨2, ![1000, 64]⟩
abbrev S1600000 : Shape := ⟨1, ![1600000]⟩
abbrev S480000 : Shape := ⟨1, ![480000]⟩
abbrev S32000 : Shape := ⟨1, ![32000]⟩
abbrev S64x128 : Shape := ⟨2, ![64, 128]⟩
abbrev S128 : Shape := ⟨1, ![128]⟩
abbrev S64x1 : Shape := ⟨2, ![64, 1]⟩
abbrev S1 : Shape := ⟨1, ![1]⟩
abbrev S1600000x1 : Shape := ⟨2, ![1600000, 1]⟩
abbrev S_ : Shape := ⟨0, ![]⟩
abbrev S1600000x64 : Shape := ⟨2, ![1600000, 64]⟩
abbrev S480000x1 : Shape := ⟨2, ![480000, 1]⟩
abbrev S480000x64 : Shape := ⟨2, ![480000, 64]⟩
abbrev S32000x1 : Shape := ⟨2, ![32000, 1]⟩
abbrev S32000x64 : Shape := ⟨2, ![32000, 64]⟩
abbrev S16384x1 : Shape := ⟨2, ![16384, 1]⟩
abbrev S16384x64 : Shape := ⟨2, ![16384, 64]⟩
abbrev S16384x128 : Shape := ⟨2, ![16384, 128]⟩
abbrev S1x128 : Shape := ⟨2, ![1, 128]⟩
abbrev S1000x128 : Shape := ⟨2, ![1000, 128]⟩
abbrev S1x1 : Shape := ⟨2, ![1, 1]⟩
abbrev S128x1000 : Shape := ⟨2, ![128, 1000]⟩

abbrev nBuf : Space → Nat
  | .hbm => 301
  | .vmem => 0
  | .smem => 0
  | _ => 0

abbrev hbmTy0_0 (i : Nat) : BufTy := match i % 128 with
  | 0 => ⟨S16384, .i32⟩
  | 1 => ⟨S16384, .i32⟩
  | 2 => ⟨S16384x1000, .f32⟩
  | 3 => ⟨S100000x64, .f32⟩
  | 4 => ⟨S30000x64, .f32⟩
  | 5 => ⟨S1000x64, .f32⟩
  | 6 => ⟨S30000x64, .f32⟩
  | 7 => ⟨S1600000, .i32⟩
  | 8 => ⟨S1600000, .i32⟩
  | 9 => ⟨S1600000, .f32⟩
  | 10 => ⟨S480000, .i32⟩
  | 11 => ⟨S480000, .i32⟩
  | 12 => ⟨S480000, .f32⟩
  | 13 => ⟨S32000, .i32⟩
  | 14 => ⟨S32000, .i32⟩
  | 15 => ⟨S32000, .f32⟩
  | 16 => ⟨S64x128, .f32⟩
  | 17 => ⟨S128, .f32⟩
  | 18 => ⟨S64x128, .f32⟩
  | 19 => ⟨S128, .f32⟩
  | 20 => ⟨S64x128, .f32⟩
  | 21 => ⟨S128, .f32⟩
  | 22 => ⟨S64x1, .f32⟩
  | 23 => ⟨S1, .f32⟩
  | 24 => ⟨S1600000x1, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000x64, .f32⟩
  | 34 => ⟨S1600000x64, .f32⟩
  | 35 => ⟨S1600000x64, .f32⟩
  | 36 => ⟨S_, .f32⟩
  | 37 => ⟨S100000x64, .f32⟩
  | 38 => ⟨S1600000x1, .i32⟩
  | 39 => ⟨S100000x64, .f32⟩
  | 40 => ⟨S_, .f32⟩
  | 41 => ⟨S100000x64, .f32⟩
  | 42 => ⟨S100000x64, .f32⟩
  | 43 => ⟨S100000x64, .f32⟩
  | 44 => ⟨S100000x64, .f32⟩
  | 45 => ⟨S1600000x1, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000x64, .f32⟩
  | 55 => ⟨S1600000x64, .f32⟩
  | 56 => ⟨S1600000x64, .f32⟩
  | 57 => ⟨S_, .f32⟩
  | 58 => ⟨S100000x64, .f32⟩
  | 59 => ⟨S1600000x1, .i32⟩
  | 60 => ⟨S100000x64, .f32⟩
  | 61 => ⟨S_, .f32⟩
  | 62 => ⟨S100000x64, .f32⟩
  | 63 => ⟨S100000x64, .f32⟩
  | 64 => ⟨S100000x64, .f32⟩
  | 65 => ⟨S100000x64, .f32⟩
  | 66 => ⟨S1600000x1, .f32⟩
  | 67 => ⟨S_, .i32⟩
  | 68 => ⟨S1600000, .i32⟩
  | 69 => ⟨S1600000, .i1⟩
  | 70 => ⟨S_, .i32⟩
  | 71 => ⟨S1600000, .i32⟩
  | 72 => ⟨S1600000, .i32⟩
  | 73 => ⟨S1600000, .i32⟩
  | 74 => ⟨S1600000x1, .i32⟩
  | 75 => ⟨S1600000x64, .f32⟩
  | 76 => ⟨S1600000x64, .f32⟩
  | 77 => ⟨S1600000x64, .f32⟩
  | 78 => ⟨S_, .f32⟩
  | 79 => ⟨S100000x64, .f32⟩
  | 80 => ⟨S1600000x1, .i32⟩
  | 81 => ⟨S100000x64, .f32⟩
  | 82 => ⟨S_, .f32⟩
  | 83 => ⟨S100000x64, .f32⟩
  | 84 => ⟨S100000x64, .f32⟩
  | 85 => ⟨S100000x64, .f32⟩
  | 86 => ⟨S100000x64, .f32⟩
  | 87 => ⟨S_, .f32⟩
  | 88 => ⟨S100000x64, .f32⟩
  | 89 => ⟨S100000x64, .f32⟩
  | 90 => ⟨S480000x1, .f32⟩
  | 91 => ⟨S_, .i32⟩
  | 92 => ⟨S480000, .i32⟩
  | 93 => ⟨S480000, .i1⟩
  | 94 => ⟨S_, .i32⟩
  | 95 => ⟨S480000, .i32⟩
  | 96 => ⟨S480000, .i32⟩
  | 97 => ⟨S480000, .i32⟩
  | 98 => ⟨S480000x1, .i32⟩
  | 99 => ⟨S480000x64, .f32⟩
  | 100 => ⟨S480000x64, .f32⟩
  | 101 => ⟨S480000x64, .f32⟩
  | 102 => ⟨S_, .f32⟩
  | 103 => ⟨S30000x64, .f32⟩
  | 104 => ⟨S480000x1, .i32⟩
  | 105 => ⟨S30000x64, .f32⟩
  | 106 => ⟨S_, .f32⟩
  | 107 => ⟨S30000x64, .f32⟩
  | 108 => ⟨S30000x64, .f32⟩
  | 109 => ⟨S30000x64, .f32⟩
  | 110 => ⟨S30000x64, .f32⟩
  | 111 => ⟨S480000x1, .f32⟩
  | 112 => ⟨S_, .i32⟩
  | 113 => ⟨S480000, .i32⟩
  | 114 => ⟨S480000, .i1⟩
  | 115 => ⟨S_, .i32⟩
  | 116 => ⟨S480000, .i32⟩
  | 117 => ⟨S480000, .i32⟩
  | 118 => ⟨S480000, .i32⟩
  | 119 => ⟨S480000x1, .i32⟩
  | 120 => ⟨S480000x64, .f32⟩
  | 121 => ⟨S480000x64, .f32⟩
  | 122 => ⟨S480000x64, .f32⟩
  | 123 => ⟨S_, .f32⟩
  | 124 => ⟨S30000x64, .f32⟩
  | 125 => ⟨S480000x1, .i32⟩
  | 126 => ⟨S30000x64, .f32⟩
  | 127 => ⟨S_, .f32⟩
  | _ => ⟨S16384, .i32⟩

abbrev hbmTy0_1 (i : Nat) : BufTy := match i % 128 with
  | 0 => ⟨S30000x64, .f32⟩
  | 1 => ⟨S30000x64, .f32⟩
  | 2 => ⟨S30000x64, .f32⟩
  | 3 => ⟨S30000x64, .f32⟩
  | 4 => ⟨S480000x1, .f32⟩
  | 5 => ⟨S_, .i32⟩
  | 6 => ⟨S480000, .i32⟩
  | 7 => ⟨S480000, .i1⟩
  | 8 => ⟨S_, .i32⟩
  | 9 => ⟨S480000, .i32⟩
  | 10 => ⟨S480000, .i32⟩
  | 11 => ⟨S480000, .i32⟩
  | 12 => ⟨S480000x1, .i32⟩
  | 13 => ⟨S480000x64, .f32⟩
  | 14 => ⟨S480000x64, .f32⟩
  | 15 => ⟨S480000x64, .f32⟩
  | 16 => ⟨S_, .f32⟩
  | 17 => ⟨S30000x64, .f32⟩
  | 18 => ⟨S480000x1, .i32⟩
  | 19 => ⟨S30000x64, .f32⟩
  | 20 => ⟨S_, .f32⟩
  | 21 => ⟨S30000x64, .f32⟩
  | 22 => ⟨S30000x64, .f32⟩
  | 23 => ⟨S30000x64, .f32⟩
  | 24 => ⟨S30000x64, .f32⟩
  | 25 => ⟨S_, .f32⟩
  | 26 => ⟨S30000x64, .f32⟩
  | 27 => ⟨S30000x64, .f32⟩
  | 28 => ⟨S32000x1, .f32⟩
  | 29 => ⟨S_, .i32⟩
  | 30 => ⟨S32000, .i32⟩
  | 31 => ⟨S32000, .i1⟩
  | 32 => ⟨S_, .i32⟩
  | 33 => ⟨S32000, .i32⟩
  | 34 => ⟨S32000, .i32⟩
  | 35 => ⟨S32000, .i32⟩
  | 36 => ⟨S32000x1, .i32⟩
  | 37 => ⟨S32000x64, .f32⟩
  | 38 => ⟨S32000x64, .f32⟩
  | 39 => ⟨S32000x64, .f32⟩
  | 40 => ⟨S_, .f32⟩
  | 41 => ⟨S1000x64, .f32⟩
  | 42 => ⟨S32000x1, .i32⟩
  | 43 => ⟨S1000x64, .f32⟩
  | 44 => ⟨S_, .f32⟩
  | 45 => ⟨S1000x64, .f32⟩
  | 46 => ⟨S1000x64, .f32⟩
  | 47 => ⟨S1000x64, .f32⟩
  | 48 => ⟨S1000x64, .f32⟩
  | 49 => ⟨S32000x1, .f32⟩
  | 50 => ⟨S_, .i32⟩
  | 51 => ⟨S32000, .i32⟩
  | 52 => ⟨S32000, .i1⟩
  | 53 => ⟨S_, .i32⟩
  | 54 => ⟨S32000, .i32⟩
  | 55 => ⟨S32000, .i32⟩
  | 56 => ⟨S32000, .i32⟩
  | 57 => ⟨S32000x1, .i32⟩
  | 58 => ⟨S32000x64, .f32⟩
  | 59 => ⟨S32000x64, .f32⟩
  | 60 => ⟨S32000x64, .f32⟩
  | 61 => ⟨S_, .f32⟩
  | 62 => ⟨S1000x64, .f32⟩
  | 63 => ⟨S32000x1, .i32⟩
  | 64 => ⟨S1000x64, .f32⟩
  | 65 => ⟨S_, .f32⟩
  | 66 => ⟨S1000x64, .f32⟩
  | 67 => ⟨S1000x64, .f32⟩
  | 68 => ⟨S1000x64, .f32⟩
  | 69 => ⟨S1000x64, .f32⟩
  | 70 => ⟨S32000x1, .f32⟩
  | 71 => ⟨S_, .i32⟩
  | 72 => ⟨S32000, .i32⟩
  | 73 => ⟨S32000, .i1⟩
  | 74 => ⟨S_, .i32⟩
  | 75 => ⟨S32000, .i32⟩
  | 76 => ⟨S32000, .i32⟩
  | 77 => ⟨S32000, .i32⟩
  | 78 => ⟨S32000x1, .i32⟩
  | 79 => ⟨S32000x64, .f32⟩
  | 80 => ⟨S32000x64, .f32⟩
  | 81 => ⟨S32000x64, .f32⟩
  | 82 => ⟨S_, .f32⟩
  | 83 => ⟨S1000x64, .f32⟩
  | 84 => ⟨S32000x1, .i32⟩
  | 85 => ⟨S1000x64, .f32⟩
  | 86 => ⟨S_, .f32⟩
  | 87 => ⟨S1000x64, .f32⟩
  | 88 => ⟨S1000x64, .f32⟩
  | 89 => ⟨S1000x64, .f32⟩
  | 90 => ⟨S1000x64, .f32⟩
  | 91 => ⟨S_, .f32⟩
  | 92 => ⟨S1000x64, .f32⟩
  | 93 => ⟨S1000x64, .f32⟩
  | 94 => ⟨S_, .i32⟩
  | 95 => ⟨S16384, .i32⟩
  | 96 => ⟨S16384, .i1⟩
  | 97 => ⟨S_, .i32⟩
  | 98 => ⟨S16384, .i32⟩
  | 99 => ⟨S16384, .i32⟩
  | 100 => ⟨S16384, .i32⟩
  | 101 => ⟨S16384x1, .i32⟩
  | 102 => ⟨S16384x64, .f32⟩
  | 103 => ⟨S_, .i32⟩
  | 104 => ⟨S16384, .i32⟩
  | 105 => ⟨S16384, .i1⟩
  | 106 => ⟨S_, .i32⟩
  | 107 => ⟨S16384, .i32⟩
  | 108 => ⟨S16384, .i32⟩
  | 109 => ⟨S16384, .i32⟩
  | 110 => ⟨S16384x1, .i32⟩
  | 111 => ⟨S16384x64, .f32⟩
  | 112 => ⟨S16384x128, .f32⟩
  | 113 => ⟨S1x128, .f32⟩
  | 114 => ⟨S16384x128, .f32⟩
  | 115 => ⟨S16384x128, .f32⟩
  | 116 => ⟨S_, .f32⟩
  | 117 => ⟨S_, .f32⟩
  | 118 => ⟨S16384x128, .f32⟩
  | 119 => ⟨S16384x128, .i1⟩
  | 120 => ⟨S_, .f32⟩
  | 121 => ⟨S16384x128, .f32⟩
  | 122 => ⟨S16384x128, .f32⟩
  | 123 => ⟨S16384x128, .f32⟩
  | 124 => ⟨S16384x128, .f32⟩
  | 125 => ⟨S1x128, .f32⟩
  | 126 => ⟨S16384x128, .f32⟩
  | 127 => ⟨S16384x128, .f32⟩
  | _ => ⟨S16384, .i32⟩

abbrev hbmTy0_2 (i : Nat) : BufTy := match i % 128 with
  | 0 => ⟨S_, .f32⟩
  | 1 => ⟨S_, .f32⟩
  | 2 => ⟨S16384x128, .f32⟩
  | 3 => ⟨S16384x128, .i1⟩
  | 4 => ⟨S_, .f32⟩
  | 5 => ⟨S16384x128, .f32⟩
  | 6 => ⟨S16384x128, .f32⟩
  | 7 => ⟨S16384x128, .f32⟩
  | 8 => ⟨S1000x128, .f32⟩
  | 9 => ⟨S1x128, .f32⟩
  | 10 => ⟨S1000x128, .f32⟩
  | 11 => ⟨S1000x128, .f32⟩
  | 12 => ⟨S_, .f32⟩
  | 13 => ⟨S_, .f32⟩
  | 14 => ⟨S1000x128, .f32⟩
  | 15 => ⟨S1000x128, .i1⟩
  | 16 => ⟨S_, .f32⟩
  | 17 => ⟨S1000x128, .f32⟩
  | 18 => ⟨S1000x128, .f32⟩
  | 19 => ⟨S1000x128, .f32⟩
  | 20 => ⟨S16384x1, .f32⟩
  | 21 => ⟨S1x1, .f32⟩
  | 22 => ⟨S16384x1, .f32⟩
  | 23 => ⟨S16384x1, .f32⟩
  | 24 => ⟨S16384x1, .f32⟩
  | 25 => ⟨S16384x1, .f32⟩
  | 26 => ⟨S_, .f32⟩
  | 27 => ⟨S16384x1, .f32⟩
  | 28 => ⟨S16384x1, .f32⟩
  | 29 => ⟨S_, .f32⟩
  | 30 => ⟨S16384x1, .f32⟩
  | 31 => ⟨S16384x1, .f32⟩
  | 32 => ⟨S128x1000, .f32⟩
  | 33 => ⟨S16384x1000, .f32⟩
  | 34 => ⟨S128x1000, .f32⟩
  | 35 => ⟨S16384x1000, .f32⟩
  | 36 => ⟨S_, .i32⟩
  | 37 => ⟨S16384, .i32⟩
  | 38 => ⟨S16384, .i1⟩
  | 39 => ⟨S_, .i32⟩
  | 40 => ⟨S16384, .i32⟩
  | 41 => ⟨S16384, .i32⟩
  | 42 => ⟨S16384, .i32⟩
  | 43 => ⟨S16384x1, .i32⟩
  | 44 => ⟨S16384x64, .f32⟩
  | _ => ⟨S16384, .i32⟩

abbrev hbmTy (i : Nat) : BufTy := match i / 128 with
  | 0 => hbmTy0_0 i
  | 1 => hbmTy0_1 i
  | 2 => hbmTy0_2 i
  | _ => ⟨S16384, .i32⟩

abbrev bufTy : (tb : Table) → Fin (tcTables nBuf tb) → BufTy
  | .hbm, ⟨i, _⟩ => hbmTy i
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_c : Ref sig .tc := ⟨.hbm, 25, rfl⟩
abbrev main_v1 : Ref sig .tc := ⟨.hbm, 26, rfl⟩
abbrev main_v2 : Ref sig .tc := ⟨.hbm, 27, rfl⟩
abbrev main_c_0 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_cst : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_cst_1 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_c_2 : Ref sig .tc := ⟨.hbm, 46, rfl⟩
abbrev main_v18 : Ref sig .tc := ⟨.hbm, 47, rfl⟩
abbrev main_v19 : Ref sig .tc := ⟨.hbm, 48, rfl⟩
abbrev main_c_3 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_cst_4 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_cst_5 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_c_6 : Ref sig .tc := ⟨.hbm, 67, rfl⟩
abbrev main_v35 : Ref sig .tc := ⟨.hbm, 68, rfl⟩
abbrev main_v36 : Ref sig .tc := ⟨.hbm, 69, rfl⟩
abbrev main_c_7 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_cst_8 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_cst_9 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_cst_10 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_c_11 : Ref sig .tc := ⟨.hbm, 91, rfl⟩
abbrev main_v54 : Ref sig .tc := ⟨.hbm, 92, rfl⟩
abbrev main_v55 : Ref sig .tc := ⟨.hbm, 93, rfl⟩
abbrev main_c_12 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_cst_13 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_cst_14 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_c_15 : Ref sig .tc := ⟨.hbm, 112, rfl⟩
abbrev main_v71 : Ref sig .tc := ⟨.hbm, 113, rfl⟩
abbrev main_v72 : Ref sig .tc := ⟨.hbm, 114, rfl⟩
abbrev main_c_16 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_cst_17 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_cst_18 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_c_19 : Ref sig .tc := ⟨.hbm, 133, rfl⟩
abbrev main_v88 : Ref sig .tc := ⟨.hbm, 134, rfl⟩
abbrev main_v89 : Ref sig .tc := ⟨.hbm, 135, rfl⟩
abbrev main_c_20 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_cst_21 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_cst_22 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_cst_23 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_c_24 : Ref sig .tc := ⟨.hbm, 157, rfl⟩
abbrev main_v107 : Ref sig .tc := ⟨.hbm, 158, rfl⟩
abbrev main_v108 : Ref sig .tc := ⟨.hbm, 159, rfl⟩
abbrev main_c_25 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_cst_26 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_cst_27 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_c_28 : Ref sig .tc := ⟨.hbm, 178, rfl⟩
abbrev main_v124 : Ref sig .tc := ⟨.hbm, 179, rfl⟩
abbrev main_v125 : Ref sig .tc := ⟨.hbm, 180, rfl⟩
abbrev main_c_29 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_cst_30 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_cst_31 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_c_32 : Ref sig .tc := ⟨.hbm, 199, rfl⟩
abbrev main_v141 : Ref sig .tc := ⟨.hbm, 200, rfl⟩
abbrev main_v142 : Ref sig .tc := ⟨.hbm, 201, rfl⟩
abbrev main_c_33 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_cst_34 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_cst_35 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_cst_36 : Ref sig .tc := ⟨.hbm, 219, rfl⟩
abbrev main_v157 : Ref sig .tc := ⟨.hbm, 220, rfl⟩
abbrev main_v158 : Ref sig .tc := ⟨.hbm, 221, rfl⟩
abbrev main_c_37 : Ref sig .tc := ⟨.hbm, 222, rfl⟩
abbrev main_v159 : Ref sig .tc := ⟨.hbm, 223, rfl⟩
abbrev main_v160 : Ref sig .tc := ⟨.hbm, 224, rfl⟩
abbrev main_c_38 : Ref sig .tc := ⟨.hbm, 225, rfl⟩
abbrev main_v161 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_c_39 : Ref sig .tc := ⟨.hbm, 231, rfl⟩
abbrev main_v166 : Ref sig .tc := ⟨.hbm, 232, rfl⟩
abbrev main_v167 : Ref sig .tc := ⟨.hbm, 233, rfl⟩
abbrev main_c_40 : Ref sig .tc := ⟨.hbm, 234, rfl⟩
abbrev main_v168 : Ref sig .tc := ⟨.hbm, 235, rfl⟩
abbrev main_v169 : Ref sig .tc := ⟨.hbm, 236, rfl⟩
abbrev main_v170 : Ref sig .tc := ⟨.hbm, 237, rfl⟩
abbrev main_v171 : Ref sig .tc := ⟨.hbm, 238, rfl⟩
abbrev main_v172 : Ref sig .tc := ⟨.hbm, 239, rfl⟩
abbrev main_v173 : Ref sig .tc := ⟨.hbm, 240, rfl⟩
abbrev main_v174 : Ref sig .tc := ⟨.hbm, 241, rfl⟩
abbrev main_v175 : Ref sig .tc := ⟨.hbm, 242, rfl⟩
abbrev main_v176 : Ref sig .tc := ⟨.hbm, 243, rfl⟩
abbrev main_cst_41 : Ref sig .tc := ⟨.hbm, 244, rfl⟩
abbrev main_call0_cst : Ref sig .tc := ⟨.hbm, 245, rfl⟩
abbrev main_call0_v0 : Ref sig .tc := ⟨.hbm, 246, rfl⟩
abbrev main_call0_v1 : Ref sig .tc := ⟨.hbm, 247, rfl⟩
abbrev main_call0_v2 : Ref sig .tc := ⟨.hbm, 248, rfl⟩
abbrev main_call0_v3 : Ref sig .tc := ⟨.hbm, 249, rfl⟩
abbrev main_call0_v4 : Ref sig .tc := ⟨.hbm, 250, rfl⟩
abbrev main_v177 : Ref sig .tc := ⟨.hbm, 251, rfl⟩
abbrev main_v178 : Ref sig .tc := ⟨.hbm, 252, rfl⟩
abbrev main_v179 : Ref sig .tc := ⟨.hbm, 253, rfl⟩
abbrev main_v180 : Ref sig .tc := ⟨.hbm, 254, rfl⟩
abbrev main_v181 : Ref sig .tc := ⟨.hbm, 255, rfl⟩
abbrev main_cst_42 : Ref sig .tc := ⟨.hbm, 256, rfl⟩
abbrev main_call1_cst : Ref sig .tc := ⟨.hbm, 257, rfl⟩
abbrev main_call1_v0 : Ref sig .tc := ⟨.hbm, 258, rfl⟩
abbrev main_call1_v1 : Ref sig .tc := ⟨.hbm, 259, rfl⟩
abbrev main_call1_v2 : Ref sig .tc := ⟨.hbm, 260, rfl⟩
abbrev main_call1_v3 : Ref sig .tc := ⟨.hbm, 261, rfl⟩
abbrev main_call1_v4 : Ref sig .tc := ⟨.hbm, 262, rfl⟩
abbrev main_v182 : Ref sig .tc := ⟨.hbm, 263, rfl⟩
abbrev main_v183 : Ref sig .tc := ⟨.hbm, 264, rfl⟩
abbrev main_v184 : Ref sig .tc := ⟨.hbm, 265, rfl⟩
abbrev main_v185 : Ref sig .tc := ⟨.hbm, 266, rfl⟩
abbrev main_v186 : Ref sig .tc := ⟨.hbm, 267, rfl⟩
abbrev main_cst_43 : Ref sig .tc := ⟨.hbm, 268, rfl⟩
abbrev main_call2_cst : Ref sig .tc := ⟨.hbm, 269, rfl⟩
abbrev main_call2_v0 : Ref sig .tc := ⟨.hbm, 270, rfl⟩
abbrev main_call2_v1 : Ref sig .tc := ⟨.hbm, 271, rfl⟩
abbrev main_call2_v2 : Ref sig .tc := ⟨.hbm, 272, rfl⟩
abbrev main_call2_v3 : Ref sig .tc := ⟨.hbm, 273, rfl⟩
abbrev main_call2_v4 : Ref sig .tc := ⟨.hbm, 274, rfl⟩
abbrev main_v187 : Ref sig .tc := ⟨.hbm, 275, rfl⟩
abbrev main_v188 : Ref sig .tc := ⟨.hbm, 276, rfl⟩
abbrev main_v189 : Ref sig .tc := ⟨.hbm, 277, rfl⟩
abbrev main_v190 : Ref sig .tc := ⟨.hbm, 278, rfl⟩
abbrev main_v191 : Ref sig .tc := ⟨.hbm, 279, rfl⟩
abbrev main_v192 : Ref sig .tc := ⟨.hbm, 280, rfl⟩
abbrev main_v193 : Ref sig .tc := ⟨.hbm, 281, rfl⟩
abbrev main_cst_44 : Ref sig .tc := ⟨.hbm, 282, rfl⟩
abbrev main_v194 : Ref sig .tc := ⟨.hbm, 283, rfl⟩
abbrev main_v195 : Ref sig .tc := ⟨.hbm, 284, rfl⟩
abbrev main_cst_45 : Ref sig .tc := ⟨.hbm, 285, rfl⟩
abbrev main_v196 : Ref sig .tc := ⟨.hbm, 286, rfl⟩
abbrev main_v197 : Ref sig .tc := ⟨.hbm, 287, rfl⟩
abbrev main_v198 : Ref sig .tc := ⟨.hbm, 288, rfl⟩
abbrev main_v199 : Ref sig .tc := ⟨.hbm, 289, rfl⟩
abbrev main_v200 : Ref sig .tc := ⟨.hbm, 290, rfl⟩
abbrev main_v201 : Ref sig .tc := ⟨.hbm, 291, rfl⟩
abbrev main_c_46 : Ref sig .tc := ⟨.hbm, 292, rfl⟩
abbrev main_v202 : Ref sig .tc := ⟨.hbm, 293, rfl⟩
abbrev main_v203 : Ref sig .tc := ⟨.hbm, 294, rfl⟩
abbrev main_c_47 : Ref sig .tc := ⟨.hbm, 295, rfl⟩
abbrev main_v204 : Ref sig .tc := ⟨.hbm, 296, rfl⟩
abbrev main_v205 : Ref sig .tc := ⟨.hbm, 297, rfl⟩
abbrev main_v206 : Ref sig .tc := ⟨.hbm, 298, rfl⟩
abbrev main_v207 : Ref sig .tc := ⟨.hbm, 299, rfl⟩
abbrev main_v208 : Ref sig .tc := ⟨.hbm, 300, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S480000_S480000x1_0 : S480000.BroadcastsInDim S480000x1 (![0] : Fin 1 → Fin S480000x1.rank)
  bcast_S_S480000 : S_.BroadcastsInDim S480000 (![] : Fin 0 → Fin S480000.rank)
  bcast_S480000x1_S480000x64_0_1 : S480000x1.BroadcastsInDim S480000x64 (![0, 1] : Fin 2 → Fin S480000x64.rank)
  bcast_S_S30000x64 : S_.BroadcastsInDim S30000x64 (![] : Fin 0 → Fin S30000x64.rank)
  bcast_S32000_S32000x1_0 : S32000.BroadcastsInDim S32000x1 (![0] : Fin 1 → Fin S32000x1.rank)
  bcast_S_S32000 : S_.BroadcastsInDim S32000 (![] : Fin 0 → Fin S32000.rank)
  bcast_S32000x1_S32000x64_0_1 : S32000x1.BroadcastsInDim S32000x64 (![0, 1] : Fin 2 → Fin S32000x64.rank)
  bcast_S_S1000x64 : S_.BroadcastsInDim S1000x64 (![] : Fin 0 → Fin S1000x64.rank)
  bcast_S_S16384 : S_.BroadcastsInDim S16384 (![] : Fin 0 → Fin S16384.rank)
  bcast_S16384_S16384x1_0 : S16384.BroadcastsInDim S16384x1 (![0] : Fin 1 → Fin S16384x1.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  bcast_S1x128_S1000x128_0_1 : S1x128.BroadcastsInDim S1000x128 (![0, 1] : Fin 2 → Fin S1000x128.rank)
  bcast_S_S1000x128 : S_.BroadcastsInDim S1000x128 (![] : Fin 0 → Fin S1000x128.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S16384x1 : S_.BroadcastsInDim S16384x1 (![] : Fin 0 → Fin S16384x1.rank)
  transposes_S1000x128_S128x1000_1_0 : S1000x128.Transposes [1, 0] S128x1000
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  gather_S30000x64_S480000x1_S480000x64_1_0_n_n_0_1_164_wf : GatherDims.WF S30000x64 S480000x1 S480000x64 [1] [0] [] [0] [] 1 ![1, 64]
  scatter_S30000x64_S480000x1_S480000x64_1_0_0_1_wf : ScatterDims.WF S30000x64 S480000x1 S480000x64 [1] [0] [0] 1
  gather_S1000x64_S32000x1_S32000x64_1_0_n_n_0_1_164_wf : GatherDims.WF S1000x64 S32000x1 S32000x64 [1] [0] [] [0] [] 1 ![1, 64]
  scatter_S1000x64_S32000x1_S32000x64_1_0_0_1_wf : ScatterDims.WF S1000x64 S32000x1 S32000x64 [1] [0] [0] 1
  gather_S100000x64_S16384x1_S16384x64_1_0_n_n_0_1_164_wf : GatherDims.WF S100000x64 S16384x1 S16384x64 [1] [0] [] [0] [] 1 ![1, 64]
  gather_S30000x64_S16384x1_S16384x64_1_0_n_n_0_1_164_wf : GatherDims.WF S30000x64 S16384x1 S16384x64 [1] [0] [] [0] [] 1 ![1, 64]
  dot_S16384x64_S64x128_S16384x128_1_0_0_1_n_n_wf : DotDims.WF S16384x64 S64x128 S16384x128 [1] [0] [0] [1] [] []
  dot_S1000x64_S64x128_S1000x128_1_0_0_1_n_n_wf : DotDims.WF S1000x64 S64x128 S1000x128 [1] [0] [0] [1] [] []
  dot_S16384x64_S64x1_S16384x1_1_0_0_1_n_n_wf : DotDims.WF S16384x64 S64x1 S16384x1 [1] [0] [0] [1] [] []
  dot_S16384x128_S128x1000_S16384x1000_1_0_0_1_n_n_wf : DotDims.WF S16384x128 S128x1000 S16384x1000 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def gather_S30000x64_S480000x1_S480000x64_1_0_n_n_0_1_164 : GatherDims S30000x64 S480000x1 S480000x64 where
  offsetDims := [1]
  collapsedSliceDims := [0]
  operandBatchingDims := []
  startIndicesBatchingDims := []
  startIndexMap := [0]
  indexVectorDim := 1
  sliceSizes := ![1, 64]
  wf := gather_S30000x64_S480000x1_S480000x64_1_0_n_n_0_1_164_wf
def scatter_S30000x64_S480000x1_S480000x64_1_0_0_1 : ScatterDims S30000x64 S480000x1 S480000x64 where
  updateWindowDims := [1]
  insertedWindowDims := [0]
  scatterDimsToOperandDims := [0]
  indexVectorDim := 1
  wf := scatter_S30000x64_S480000x1_S480000x64_1_0_0_1_wf
def gather_S1000x64_S32000x1_S32000x64_1_0_n_n_0_1_164 : GatherDims S1000x64 S32000x1 S32000x64 where
  offsetDims := [1]
  collapsedSliceDims := [0]
  operandBatchingDims := []
  startIndicesBatchingDims := []
  startIndexMap := [0]
  indexVectorDim := 1
  sliceSizes := ![1, 64]
  wf := gather_S1000x64_S32000x1_S32000x64_1_0_n_n_0_1_164_wf
def scatter_S1000x64_S32000x1_S32000x64_1_0_0_1 : ScatterDims S1000x64 S32000x1 S32000x64 where
  updateWindowDims := [1]
  insertedWindowDims := [0]
  scatterDimsToOperandDims := [0]
  indexVectorDim := 1
  wf := scatter_S1000x64_S32000x1_S32000x64_1_0_0_1_wf
def gather_S100000x64_S16384x1_S16384x64_1_0_n_n_0_1_164 : GatherDims S100000x64 S16384x1 S16384x64 where
  offsetDims := [1]
  collapsedSliceDims := [0]
  operandBatchingDims := []
  startIndicesBatchingDims := []
  startIndexMap := [0]
  indexVectorDim := 1
  sliceSizes := ![1, 64]
  wf := gather_S100000x64_S16384x1_S16384x64_1_0_n_n_0_1_164_wf
def gather_S30000x64_S16384x1_S16384x64_1_0_n_n_0_1_164 : GatherDims S30000x64 S16384x1 S16384x64 where
  offsetDims := [1]
  collapsedSliceDims := [0]
  operandBatchingDims := []
  startIndicesBatchingDims := []
  startIndexMap := [0]
  indexVectorDim := 1
  sliceSizes := ![1, 64]
  wf := gather_S30000x64_S16384x1_S16384x64_1_0_n_n_0_1_164_wf
def dot_S16384x64_S64x128_S16384x128_1_0_0_1_n_n : DotDims S16384x64 S64x128 S16384x128 where
  lhsContracting := [1]
  rhsContracting := [0]
  lhsNonContracting := [0]
  rhsNonContracting := [1]
  lhsBatch := []
  rhsBatch := []
  wf := dot_S16384x64_S64x128_S16384x128_1_0_0_1_n_n_wf
def dot_S1000x64_S64x128_S1000x128_1_0_0_1_n_n : DotDims S1000x64 S64x128 S1000x128 where
  lhsContracting := [1]
  rhsContracting := [0]
  lhsNonContracting := [0]
  rhsNonContracting := [1]
  lhsBatch := []
  rhsBatch := []
  wf := dot_S1000x64_S64x128_S1000x128_1_0_0_1_n_n_wf
def dot_S16384x64_S64x1_S16384x1_1_0_0_1_n_n : DotDims S16384x64 S64x1 S16384x1 where
  lhsContracting := [1]
  rhsContracting := [0]
  lhsNonContracting := [0]
  rhsNonContracting := [1]
  lhsBatch := []
  rhsBatch := []
  wf := dot_S16384x64_S64x1_S16384x1_1_0_0_1_n_n_wf
def dot_S16384x128_S128x1000_S16384x1000_1_0_0_1_n_n : DotDims S16384x128 S128x1000 S16384x1000 where
  lhsContracting := [1]
  rhsContracting := [0]
  lhsNonContracting := [0]
  rhsNonContracting := [1]
  lhsBatch := []
  rhsBatch := []
  wf := dot_S16384x128_S128x1000_S16384x1000_1_0_0_1_n_n_wf

class Facts : Prop extends Facts₀ where

variable [Facts]
-- ==== Proof.KRun.lean ====
/-
  The idealized kernel program's run with its final memory NAMED.

  The program is a stretch of host operations, then the knowledge-projection region, then the dense-head region.
  Its buffer contents at the three boundaries are a fold: after the host stretch (`W1`), after the first region
  (`W2`: its output array at what the one grid point wrote back, everything else as entered), after the second
  (`W3`: its three output arrays at what the sixteen points wrote back). Every weakly fair execution ends with each
  unscoped buffer at `W3`; the five results are then read off the fold.
-/
import proofs.«140787_j71700184039602_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every unscoped buffer of every
    core at the last boundary's contents. -/
theorem run_W3 : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

end Cert.KernelIdeal.KRun

end
-- ==== Proof.Spec.lean ====
/-
  The function both programs compute, stated once.

  Three sparse graphs (students, exercises, knowledge concepts) each smooth an embedding table by three rounds of
  "weighted neighbour sum plus 0.9 times the current table" and average the four tables. A batch of student rows and
  exercise rows is then gathered, and a dense head follows: an affine map and a leaky rectifier (slope 0.1) on each
  of the student rows, the exercise rows and the knowledge table; the first two are contracted with the knowledge
  projection over its 128 features; a logistic of an affine map of the exercise rows; and the gathered impact rows.

  The graph stage is written here in the vocabulary of the host operations (it is carried as one function and never
  opened); the dense head is written twice: as the host operations compose it, and index by index as sums over the
  extended reals, which is the form the two programs are compared in.
-/
import proofs.«140787_j71700184039602_1_alg».proof.KernelIdeal
import proofs.«140787_j71700184039602_1_alg».proof.ReferenceIdeal
import Idealize.ShloMosaic.PureOps.Ideal
import Idealize.ShloMosaic.Lib.ValueIdx

noncomputable section

namespace Cert.Spec

open Idealize.ShloMosaic

section Graphs
open Cert.KernelIdeal Cert.KernelIdeal.Facts₀
variable {F : FTy → Type} [FloatOps F] [Cert.KernelIdeal.Facts₀]

/-- One message-passing layer on graph S: the weighted rows gathered at the (wrapped) column indices, summed into
    their row segments, plus the momentum term `0.9 · x`. -/
def layerS (x : FVec F S100000x64 .f32) (rows cols : IVec S1600000 32) (vals : FVec F S1600000 .f32) : FVec F S100000x64 .f32 :=
  addf
    (Host.scatterAdd scatter_S100000x64_S1600000x1_S1600000x64_1_0_0_1
      (broadcastInDim S100000x64 ![] bcast_S_S100000x64 (constant S_ .f32 0x00000000#32))
      (broadcastInDim S1600000x1 ![0] bcast_S1600000_S1600000x1_0 rows)
      (mulf (broadcastInDim S1600000x64 ![0, 1] bcast_S1600000x1_S1600000x64_0_1 (broadcastInDim S1600000x1 ![0] bcast_S1600000_S1600000x1_0 vals))
        (Host.gather gather_S100000x64_S1600000x1_S1600000x64_1_0_n_n_0_1_164 x
          (broadcastInDim S1600000x1 ![0] bcast_S1600000_S1600000x1_0
            (select (cmpi .slt cols (broadcastInDim S1600000 ![] bcast_S_S1600000 (constantI S_ 32 0#32)))
              (addi cols (broadcastInDim S1600000 ![] bcast_S_S1600000 (constantI S_ 32 100000#32))) cols)))))
    (mulf (broadcastInDim S100000x64 ![] bcast_S_S100000x64 (constant S_ .f32 0x3F666666#32)) x)

/-- Three layers on graph S and the mean of the four embeddings `(e + c₁ + c₂ + c₃) / 4`. -/
def convS (emb : FVec F S100000x64 .f32) (rows cols : IVec S1600000 32) (vals : FVec F S1600000 .f32) : FVec F S100000x64 .f32 :=
  Host.divf
    (addf (addf (addf emb (layerS emb rows cols vals))
        (layerS (layerS emb rows cols vals) rows cols vals))
      (layerS (layerS (layerS emb rows cols vals) rows cols vals) rows cols vals))
    (broadcastInDim S100000x64 ![] bcast_S_S100000x64 (constant S_ .f32 0x40800000#32))

/-- One message-passing layer on graph E: the weighted rows gathered at the (wrapped) column indices, summed into
    their row segments, plus the momentum term `0.9 · x`. -/
def layerE (x : FVec F S30000x64 .f32) (rows cols : IVec S480000 32) (vals : FVec F S480000 .f32) : FVec F S30000x64 .f32 :=
  addf
    (Host.scatterAdd scatter_S30000x64_S480000x1_S480000x64_1_0_0_1
      (broadcastInDim S30000x64 ![] bcast_S_S30000x64 (constant S_ .f32 0x00000000#32))
      (broadcastInDim S480000x1 ![0] bcast_S480000_S480000x1_0 rows)
      (mulf (broadcastInDim S480000x64 ![0, 1] bcast_S480000x1_S480000x64_0_1 (broadcastInDim S480000x1 ![0] bcast_S480000_S480000x1_0 vals))
        (Host.gather gather_S30000x64_S480000x1_S480000x64_1_0_n_n_0_1_164 x
          (broadcastInDim S480000x1 ![0] bcast_S480000_S480000x1_0
            (select (cmpi .slt cols (broadcastInDim S480000 ![] bcast_S_S480000 (constantI S_ 32 0#32)))
              (addi cols (broadcastInDim S480000 ![] bcast_S_S480000 (constantI S_ 32 30000#32))) cols)))))
    (mulf (broadcastInDim S30000x64 ![] bcast_S_S30000x64 (constant S_ .f32 0x3F666666#32)) x)

/-- Three layers on graph E and the mean of the four embeddings `(e + c₁ + c₂ + c₃) / 4`. -/
def convE (emb : FVec F S30000x64 .f32) (rows cols : IVec S480000 32) (vals : FVec F S480000 .f32) : FVec F S30000x64 .f32 :=
  Host.divf
    (addf (addf (addf emb (layerE emb rows cols vals))
        (layerE (layerE emb rows cols vals) rows cols vals))
      (layerE (layerE (layerE emb rows cols vals) rows cols vals) rows cols vals))
    (broadcastInDim S30000x64 ![] bcast_S_S30000x64 (constant S_ .f32 0x40800000#32))

/-- One message-passing layer on graph K: the weighted rows gathered at the (wrapped) column indices, summed into
    their row segments, plus the momentum term `0.9 · x`. -/
def layerK (x : FVec F S1000x64 .f32) (rows cols : IVec S32000 32) (vals : FVec F S32000 .f32) : FVec F S1000x64 .f32 :=
  addf
    (Host.scatterAdd scatter_S1000x64_S32000x1_S32000x64_1_0_0_1
      (broadcastInDim S1000x64 ![] bcast_S_S1000x64 (constant S_ .f32 0x00000000#32))
      (broadcastInDim S32000x1 ![0] bcast_S32000_S32000x1_0 rows)
      (mulf (broadcastInDim S32000x64 ![0, 1] bcast_S32000x1_S32000x64_0_1 (broadcastInDim S32000x1 ![0] bcast_S32000_S32000x1_0 vals))
        (Host.gather gather_S1000x64_S32000x1_S32000x64_1_0_n_n_0_1_164 x
          (broadcastInDim S32000x1 ![0] bcast_S32000_S32000x1_0
            (select (cmpi .slt cols (broadcastInDim S32000 ![] bcast_S_S32000 (constantI S_ 32 0#32)))
              (addi cols (broadcastInDim S32000 ![] bcast_S_S32000 (constantI S_ 32 1000#32))) cols)))))
    (mulf (broadcastInDim S1000x64 ![] bcast_S_S1000x64 (constant S_ .f32 0x3F666666#32)) x)

/-- Three layers on graph K and the mean of the four embeddings `(e + c₁ + c₂ + c₃) / 4`. -/
def convK (emb : FVec F S1000x64 .f32) (rows cols : IVec S32000 32) (vals : FVec F S32000 .f32) : FVec F S1000x64 .f32 :=
  Host.divf
    (addf (addf (addf emb (layerK emb rows cols vals))
        (layerK (layerK emb rows cols vals) rows cols vals))
      (layerK (layerK (layerK emb rows cols vals) rows cols vals) rows cols vals))
    (broadcastInDim S1000x64 ![] bcast_S_S1000x64 (constant S_ .f32 0x40800000#32))

/-- Row indices of a batch as the gather takes them: a negative index is wrapped once by the table's height `n`. -/
def batchIdx (n : BitVec 32) (ids : IVec S16384 32) : IVec S16384x1 32 :=
  broadcastInDim S16384x1 ![0] bcast_S16384_S16384x1_0
    (select (cmpi .slt ids (broadcastInDim S16384 ![] bcast_S_S16384 (constantI S_ 32 0#32)))
      (addi ids (broadcastInDim S16384 ![] bcast_S_S16384 (constantI S_ 32 n))) ids)

/-- The batch's student rows of the smoothed student table. -/
def batchStudent (sid : IVec S16384 32) (emb : FVec F S100000x64 .f32) (rows cols : IVec S1600000 32) (vals : FVec F S1600000 .f32) :
    FVec F S16384x64 .f32 :=
  Host.gather gather_S100000x64_S16384x1_S16384x64_1_0_n_n_0_1_164 (convS emb rows cols vals) (batchIdx 100000#32 sid)

/-- The batch's exercise rows of the smoothed exercise table. -/
def batchExercise (eid : IVec S16384 32) (emb : FVec F S30000x64 .f32) (rows cols : IVec S480000 32) (vals : FVec F S480000 .f32) :
    FVec F S16384x64 .f32 :=
  Host.gather gather_S30000x64_S16384x1_S16384x64_1_0_n_n_0_1_164 (convE emb rows cols vals) (batchIdx 30000#32 eid)

/-- The batch's rows of the impact table (no smoothing). -/
def impact (eid : IVec S16384 32) (tab : FVec F S30000x64 .f32) : FVec F S16384x64 .f32 :=
  Host.gather gather_S30000x64_S16384x1_S16384x64_1_0_n_n_0_1_164 tab (batchIdx 30000#32 eid)

end Graphs

/-! ## The dense head as the host operations compose it -/

section HostHead
open Cert.ReferenceIdeal Cert.ReferenceIdeal.Facts₀
variable {F : FTy → Type} [FloatOps F] [Cert.ReferenceIdeal.Facts₀]

/-- The leaky rectifier on a batch-sized array: `y` where `y ≥ 0`, else `0.1 · y`. -/
def leakyB (y : FVec F S16384x128 .f32) : FVec F S16384x128 .f32 :=
  select (cmpf .oge y (broadcastInDim S16384x128 ![] bcast_S_S16384x128 (constant S_ .f32 0x00000000#32))) y
    (mulf (broadcastInDim S16384x128 ![] bcast_S_S16384x128 (constant S_ .f32 0x3DCCCCCD#32)) y)

/-- The same on the knowledge table's shape. -/
def leakyK (y : FVec F S1000x128 .f32) : FVec F S1000x128 .f32 :=
  select (cmpf .oge y (broadcastInDim S1000x128 ![] bcast_S_S1000x128 (constant S_ .f32 0x00000000#32))) y
    (mulf (broadcastInDim S1000x128 ![] bcast_S_S1000x128 (constant S_ .f32 0x3DCCCCCD#32)) y)

/-- Batch rows times a 64×128 weight, plus the bias along the rows, rectified. -/
def hostProjB (x : FVec F S16384x64 .f32) (W : FVec F S64x128 .f32) (b : FVec F S128 .f32) : FVec F S16384x128 .f32 :=
  leakyB (addf (Host.dotGeneral dot_S16384x64_S64x128_S16384x128_1_0_0_1_n_n none x W)
    (broadcastInDim S16384x128 ![0, 1] bcast_S1x128_S16384x128_0_1 (broadcastInDim S1x128 ![1] bcast_S128_S1x128_1 b)))

/-- The knowledge projection: the smoothed knowledge table times its weight, plus bias, rectified. -/
def hostKnowTs (kf : FVec F S1000x64 .f32) (W : FVec F S64x128 .f32) (b : FVec F S128 .f32) : FVec F S1000x128 .f32 :=
  leakyK (addf (Host.dotGeneral dot_S1000x64_S64x128_S1000x128_1_0_0_1_n_n none kf W)
    (broadcastInDim S1000x128 ![0, 1] bcast_S1x128_S1000x128_0_1 (broadcastInDim S1x128 ![1] bcast_S128_S1x128_1 b)))

/-- Projected rows against the transposed knowledge projection. -/
def hostScore (pr : FVec F S16384x128 .f32) (kts : FVec F S1000x128 .f32) : FVec F S16384x1000 .f32 :=
  Host.dotGeneral dot_S16384x128_S128x1000_S16384x1000_1_0_0_1_n_n none pr
    (transpose S128x1000 [1, 0] kts transposes_S1000x128_S128x1000_1_0)

/-- The logistic spelled out: `1 / (1 + exp (−(x·w + b)))`. -/
def hostDisc (be : FVec F S16384x64 .f32) (w : FVec F S64x1 .f32) (b : FVec F S1 .f32) : FVec F S16384x1 .f32 :=
  Host.divf (broadcastInDim S16384x1 ![] bcast_S_S16384x1 (constant S_ .f32 0x3F800000#32))
    (addf (broadcastInDim S16384x1 ![] bcast_S_S16384x1 (constant S_ .f32 0x3F800000#32))
      (Host.exp (Host.negf (addf (Host.dotGeneral dot_S16384x64_S64x1_S16384x1_1_0_0_1_n_n none be w)
        (broadcastInDim S16384x1 ![0, 1] bcast_S1x1_S16384x1_0_1 (broadcastInDim S1x1 ![1] bcast_S1_S1x1_1 b))))))

end HostHead

/-! ## The dense head, index by index, on the extended reals -/

open ValueIdx

/-- The leaky rectifier with the slope the programs share (the f32 nearest to 0.1, read as its exact binary value). -/
def LK (y : EReal) : EReal := if 0 ≤ y then y else Ideal.ofBits .f32 0x3DCCCCCD#32 * y

/-- An affine map of the rows of `x` followed by the leaky rectifier: entry `(p, f)`. -/
def proj {n : Nat} (x : Fin n → Fin 64 → EReal) (W : Fin 64 → Fin 128 → EReal) (b : Fin 128 → EReal) (p : Fin n) (f : Fin 128) : EReal :=
  LK ((∑ k : Fin 64, x p k * W k f) + b f)

/-- Rows projected and contracted with the knowledge projection over the 128 features: entry `(p, q)`. -/
def score {n : Nat} (x : Fin n → Fin 64 → EReal) (W : Fin 64 → Fin 128 → EReal) (b : Fin 128 → EReal)
    (kn : Fin 1000 → Fin 128 → EReal) (p : Fin n) (q : Fin 1000) : EReal :=
  ∑ f : Fin 128, proj x W b p f * kn q f

/-- The discrimination: the logistic of an affine map of an exercise row to one number. -/
def disc {n : Nat} (x : Fin n → Fin 64 → EReal) (w : Fin 64 → EReal) (b : EReal) (p : Fin n) : EReal :=
  Ideal.logistic ((∑ k : Fin 64, x p k * w k) + b)

end Cert.Spec

end
-- ==== Proof.BodyIdx.lean ====
/-
  The kernel bodies' outputs read at an index, at the ideal values (floats are extended reals).

  Each kernel body leaves in its output window one whole-block store of a pure payload of its input blocks. Read
  at an index the payload is a matrix product (a sum over the one contracted coordinate of products of entries: the
  narrowing to bf16 is the identity on extended reals and the accumulator is zero), a bias row added, and then
  either the leaky rectifier (the select on `y ≥ 0` between `y` and the slope times `y`, the slope kept as its
  f32 word) or the logistic function. The two score outputs contract the rectified rows with the rectified
  knowledge table over the table's second axis.
-/
import proofs.«140787_j71700184039602_1_alg».proof.Proof.Gen.KernelIdeal.Frame
import proofs.«140787_j71700184039602_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.BodyIdx

open Idealize.ShloMosaic Idealize.ShloMosaic.ValueIdx
open Cert.KernelIdeal Cert.KernelIdeal.Facts₀
open Cert.Spec (LK)

/-! ## A matrix product read at an index -/

/-- The product of an m×k by a k×n matrix (rows times columns: the left operand's axis 1 contracted with the right
    operand's axis 0) into a zero accumulator, read at `(a, b)`: the sum over the contracted coordinate. -/
theorem matmul_rows_cols_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The product of an m×k matrix by the transpose of an n×k one (rows times rows: both operands' axis 1
    contracted) into a zero accumulator, read at `(a, b)`: the sum over the contracted coordinate. -/
theorem matmul_rows_rows_apply {m k n : Nat} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (⟨[1], [1], [0], [0], [], [], w⟩ : DotDims _ _ _) prec A B
        (constant (F := Ideal) ⟨2, ![m, n]⟩ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-! ## The leaky rectifier as the printed select, and a bias row read at an index -/

/-- The printed select on `y ≥ 0` between `y` and the slope times `y` is `LK y`. -/
theorem select_oge_eq_LK (y : EReal) :
    Scalar.select (Ideal.cmp .oge y (Ideal.ofBits .f32 0x00000000#32)) y (Ideal.ofBits .f32 0x3DCCCCCD#32 * y)
      = LK y := by
  unfold LK Scalar.select Ideal.cmp
  rw [Ideal.ofBits_zero_f32]
  by_cases h : (0 : EReal) ≤ y
  · simp [h]
  · simp [h]

/-- A bias `[b]` cast to one row `[1, b]` and broadcast over `a` rows reads, at `(p, c)`, the bias at `c`. -/
theorem bias_row_apply {a b : Nat} (v : (⟨1, ![b]⟩ : Shape).Idx → EReal)
    (hc : (⟨1, ![b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ v hc) hb (ix2 p c) = v (ix1 c) := by
  rw [broadcastTo_1b_ab_apply, shapeCast_a_1a_apply]

/-! ## Region 0: the knowledge projection -/

/-- The payload of region 0 at `(p, q)`: row `p` of the table times column `q` of the weight, plus the bias at
    `q`, rectified. -/
theorem k0_pay1_apply (v0 : Vec Ideal S1000x64 .f32) (v3 : Vec Ideal S64x128 .f32) (v6 : Vec Ideal S128 .f32)
    (p : Fin 1000) (q : Fin 128) :
    Gen.k0_pay1 (F := Ideal) v0 v3 v6 (ix2 p q)
      = LK ((∑ k : Fin 64, v0 (ix2 p k) * v3 (ix2 k q)) + v6 (ix1 q)) := by
  have hM : matmul dot_S1000x64_S64x128_S1000x128_1_0_0_1_n_n none
      (truncf .bf16 (shapeCast S1000x64 v0 shapeCasts_S1000x64_S1000x64) bitsLt_bf16_f32)
      (truncf .bf16 v3 bitsLt_bf16_f32) (constant (F := Ideal) S1000x128 .f32 0x00000000#32) (ix2 p q)
      = ∑ k : Fin 64, v0 (ix2 p k) * v3 (ix2 k q) := by
    rw [shapeCast_self]
    exact matmul_rows_cols_apply _ none _ _ p q
  have hB : broadcastTo S1000x128 (shapeCast S1x128 v6 shapeCasts_S128_S1x128) broadcasts_S1x128_S1000x128 (ix2 p q)
      = v6 (ix1 q) := bias_row_apply v6 _ _ p q
  unfold Gen.k0_pay1
  simp only [select_apply, cmpf_apply, mulf_apply, addf_apply, broadcast_apply]
  rw [hM, hB]
  exact select_oge_eq_LK _

theorem out0_3_apply (x0 : Vec Ideal S1000x64 .f32) (x1 : Vec Ideal S64x128 .f32) (x2 : Vec Ideal S128 .f32)
    (p : Fin 1000) (q : Fin 128) :
    Gen.out0_3 (F := Ideal) x0 x1 x2 (ix2 p q)
      = LK ((∑ k : Fin 64, x0 (ix2 p k) * x1 (ix2 k q)) + x2 (ix1 q)) := by
  unfold Gen.out0_3
  rw [View.canon_unit_zero (by funext a; match a with | ⟨0, _⟩ => rfl | ⟨1, _⟩ => rfl),
    View.ld_unit_zero (by funext a; match a with | ⟨0, _⟩ => rfl | ⟨1, _⟩ => rfl),
    View.ld_unit_zero (by funext a; match a with | ⟨0, _⟩ => rfl | ⟨1, _⟩ => rfl),
    View.ld_unit_zero (by funext a; match a with | ⟨0, _⟩ => rfl)]
  exact k0_pay1_apply x0 x1 x2 p q

/-! ## Region 1: the dense head -/

/-- The narrowing of the loaded rows to bf16 is the identity on extended reals. -/
theorem k1_pay4_eq (v3 : Vec Ideal S1024x64 .f32) : Gen.k1_pay4 (F := Ideal) v3 = v3 := by
  unfold Gen.k1_pay4
  rw [shapeCast_self]
  rfl

/-- The narrowing of the loaded knowledge table to bf16 is the identity on extended reals. -/
theorem k1_pay5_eq (v12 : Vec Ideal S1000x128 .f32) : Gen.k1_pay5 (F := Ideal) v12 = v12 := by
  unfold Gen.k1_pay5
  rw [shapeCast_self]
  rfl

/-- The first projection at `(p, f)`: row `p` times column `f` of the weight, plus the bias at `f`, rectified. -/
theorem k1_pay6_apply (v0 : Vec Ideal S1024x64 .f32) (v6 : Vec Ideal S64x128 .f32) (v16 : Vec Ideal S128 .f32)
    (p : Fin 1024) (f : Fin 128) :
    Gen.k1_pay6 (F := Ideal) v0 v6 v16 (ix2 p f)
      = LK ((∑ k : Fin 64, v0 (ix2 p k) * v6 (ix2 k f)) + v16 (ix1 f)) := by
  have hM : matmul dot_S1024x64_S64x128_S1024x128_1_0_0_1_n_n none
      (truncf .bf16 (shapeCast S1024x64 v0 shapeCasts_S1024x64_S1024x64) bitsLt_bf16_f32)
      (truncf .bf16 v6 bitsLt_bf16_f32) (constant (F := Ideal) S1024x128 .f32 0x00000000#32) (ix2 p f)
      = ∑ k : Fin 64, v0 (ix2 p k) * v6 (ix2 k f) := by
    rw [shapeCast_self]
    exact matmul_rows_cols_apply _ none _ _ p f
  have hB : broadcastTo S1024x128 (shapeCast S1x128 v16 shapeCasts_S128_S1x128) broadcasts_S1x128_S1024x128 (ix2 p f)
      = v16 (ix1 f) := bias_row_apply v16 _ _ p f
  unfold Gen.k1_pay6
  simp only [select_apply, cmpf_apply, mulf_apply, addf_apply, broadcast_apply]
  rw [hM, hB]
  exact select_oge_eq_LK _

/-- The second projection at `(p, f)`, likewise. -/
theorem k1_pay7_apply (v3 : Vec Ideal S1024x64 .f32) (v8 : Vec Ideal S64x128 .f32) (v26 : Vec Ideal S128 .f32)
    (p : Fin 1024) (f : Fin 128) :
    Gen.k1_pay7 (F := Ideal) v3 v8 v26 (ix2 p f)
      = LK ((∑ k : Fin 64, v3 (ix2 p k) * v8 (ix2 k f)) + v26 (ix1 f)) := by
  have hM : matmul dot_S1024x64_S64x128_S1024x128_1_0_0_1_n_n none (Gen.k1_pay4 (F := Ideal) v3)
      (truncf .bf16 v8 bitsLt_bf16_f32) (constant (F := Ideal) S1024x128 .f32 0x00000000#32) (ix2 p f)
      = ∑ k : Fin 64, v3 (ix2 p k) * v8 (ix2 k f) := by
    rw [k1_pay4_eq]
    exact matmul_rows_cols_apply _ none _ _ p f
  have hB : broadcastTo S1024x128 (shapeCast S1x128 v26 shapeCasts_S128_S1x128) broadcasts_S1x128_S1024x128 (ix2 p f)
      = v26 (ix1 f) := bias_row_apply v26 _ _ p f
  unfold Gen.k1_pay7
  simp only [select_apply, cmpf_apply, mulf_apply, addf_apply, broadcast_apply]
  rw [hM, hB]
  exact select_oge_eq_LK _

/-- The discrimination's product at `(p, 0)`: row `p` times the one column of the weight. -/
theorem k1_pay8_apply (v3 : Vec Ideal S1024x64 .f32) (v10 : Vec Ideal S64x1 .f32) (p : Fin 1024) :
    Gen.k1_pay8 (F := Ideal) v3 v10 (ix2 p (0 : Fin 1)) = ∑ k : Fin 64, v3 (ix2 p k) * v10 (ix2 k (0 : Fin 1)) := by
  unfold Gen.k1_pay8
  rw [k1_pay4_eq]
  exact matmul_rows_cols_apply _ none _ _ p (0 : Fin 1)

/-- The discrimination at `(p, 0)`: the logistic of the product plus the one bias. -/
theorem k1_pay1_apply (v35 : FVec Ideal S1024x1 .f32) (v36 : Vec Ideal S1 .f32) (p : Fin 1024) :
    Gen.k1_pay1 (F := Ideal) v35 v36 (ix2 p (0 : Fin 1))
      = Ideal.logistic (v35 (ix2 p (0 : Fin 1)) + v36 (ix1 (0 : Fin 1))) := by
  have hB : broadcastTo S1024x1 (shapeCast S1x1 v36 shapeCasts_S1_S1x1) broadcasts_S1x1_S1024x1 (ix2 p (0 : Fin 1))
      = v36 (ix1 (0 : Fin 1)) := bias_row_apply v36 _ _ p (0 : Fin 1)
  unfold Gen.k1_pay1
  show Ideal.logistic (v35 (ix2 p (0 : Fin 1)) + broadcastTo S1024x1 (shapeCast S1x1 v36 shapeCasts_S1_S1x1)
    broadcasts_S1x1_S1024x1 (ix2 p (0 : Fin 1))) = _
  rw [hB]

/-- A score at `(p, q)`: row `p` of the rectified rows against row `q` of the (narrowed) knowledge table, over
    the 128 features. -/
theorem k1_pay2_apply (v14 : FVec Ideal S1000x128 .bf16) (v24 : FVec Ideal S1024x128 .f32) (p : Fin 1024) (q : Fin 1000) :
    Gen.k1_pay2 (F := Ideal) v14 v24 (ix2 p q) = ∑ f : Fin 128, v24 (ix2 p f) * v14 (ix2 q f) := by
  unfold Gen.k1_pay2
  exact matmul_rows_rows_apply _ none _ _ p q

theorem k1_pay3_apply (v14 : FVec Ideal S1000x128 .bf16) (v34 : FVec Ideal S1024x128 .f32) (p : Fin 1024) (q : Fin 1000) :
    Gen.k1_pay3 (F := Ideal) v14 v34 (ix2 p q) = ∑ f : Fin 128, v34 (ix2 p f) * v14 (ix2 q f) := by
  unfold Gen.k1_pay3
  exact matmul_rows_rows_apply _ none _ _ p q

section Outputs
variable (x0 x1 : Vec Ideal S1024x64 .f32) (x2 : Vec Ideal S64x128 .f32) (x3 : Vec Ideal S128 .f32)
  (x4 : Vec Ideal S64x128 .f32) (x5 : Vec Ideal S128 .f32) (x6 : Vec Ideal S64x1 .f32) (x7 : Vec Ideal S1 .f32)
  (x8 : Vec Ideal S1000x128 .f32)

theorem out1_9_apply (p : Fin 1024) (q : Fin 1000) :
    Gen.out1_9 (F := Ideal) x0 x1 x2 x3 x4 x5 x6 x7 x8 (ix2 p q)
      = ∑ f : Fin 128, LK ((∑ k : Fin 64, x0 (ix2 p k) * x2 (ix2 k f)) + x3 (ix1 f)) * x8 (ix2 q f) := by
  unfold Gen.out1_9
  rw [View.canon_unit_zero (by funext a; match a with | ⟨0, _⟩ => rfl | ⟨1, _⟩ => rfl),
    View.ld_unit_zero (by funext a; match a with | ⟨0, _⟩ => rfl | ⟨1, _⟩ => rfl),
    View.ld_unit_zero (by funext a; match a with | ⟨0, _⟩ => rfl | ⟨1, _⟩ => rfl),
    View.ld_unit_zero (by funext a; match a with | ⟨0, _⟩ => rfl | ⟨1, _⟩ => rfl),
    View.ld_unit_zero (by funext a; match a with | ⟨0, _⟩ => rfl),
    k1_pay2_apply, k1_pay5_eq]
  exact Finset.sum_congr rfl fun f _ => by rw [k1_pay6_apply]

theorem out1_10_apply (p : Fin 1024) (q : Fin 1000) :
    Gen.out1_10 (F := Ideal) x0 x1 x2 x3 x4 x5 x6 x7 x8 (ix2 p q)
      = ∑ f : Fin 128, LK ((∑ k : Fin 64, x1 (ix2 p k) * x4 (ix2 k f)) + x5 (ix1 f)) * x8 (ix2 q f) := by
  unfold Gen.out1_10
  rw [View.canon_unit_zero (by funext a; match a with | ⟨0, _⟩ => rfl | ⟨1, _⟩ => rfl),
    View.ld_unit_zero (by funext a; match a with | ⟨0, _⟩ => rfl | ⟨1, _⟩ => rfl),
    View.ld_unit_zero (by funext a; match a with | ⟨0, _⟩ => rfl | ⟨1, _⟩ => rfl),
    View.ld_unit_zero (by funext a; match a with | ⟨0, _⟩ => rfl | ⟨1, _⟩ => rfl),
    View.ld_unit_zero (by funext a; match a with | ⟨0, _⟩ => rfl),
    k1_pay3_apply, k1_pay5_eq]
  exact Finset.sum_congr rfl fun f _ => by rw [k1_pay7_apply]

theorem out1_11_apply (p : Fin 1024) :
    Gen.out1_11 (F := Ideal) x0 x1 x2 x3 x4 x5 x6 x7 x8 (ix2 p (0 : Fin 1))
      = Ideal.logistic ((∑ k : Fin 64, x1 (ix2 p k) * x6 (ix2 k (0 : Fin 1))) + x7 (ix1 (0 : Fin 1))) := by
  unfold Gen.out1_11
  rw [View.canon_unit_zero (by funext a; match a with | ⟨0, _⟩ => rfl | ⟨1, _⟩ => rfl),
    View.ld_unit_zero (by funext a; match a with | ⟨0, _⟩ => rfl | ⟨1, _⟩ => rfl),
    View.ld_unit_zero (by funext a; match a with | ⟨0, _⟩ => rfl | ⟨1, _⟩ => rfl),
    View.ld_unit_zero (by funext a; match a with | ⟨0, _⟩ => rfl),
    k1_pay1_apply, k1_pay8_apply]

end Outputs

/-! ## The same, against the index-level targets -/

theorem out0_3_eq_proj (x0 : Vec Ideal S1000x64 .f32) (x1 : Vec Ideal S64x128 .f32) (x2 : Vec Ideal S128 .f32)
    (p : Fin 1000) (q : Fin 128) :
    Gen.out0_3 (F := Ideal) x0 x1 x2 (ix2 p q)
      = Cert.Spec.proj (fun p k => x0 (ix2 p k)) (fun k f => x1 (ix2 k f)) (fun f => x2 (ix1 f)) p q :=
  out0_3_apply x0 x1 x2 p q

section OutputsSpec
variable (x0 x1 : Vec Ideal S1024x64 .f32) (x2 : Vec Ideal S64x128 .f32) (x3 : Vec Ideal S128 .f32)
  (x4 : Vec Ideal S64x128 .f32) (x5 : Vec Ideal S128 .f32) (x6 : Vec Ideal S64x1 .f32) (x7 : Vec Ideal S1 .f32)
  (x8 : Vec Ideal S1000x128 .f32)

theorem out1_9_eq_score (p : Fin 1024) (q : Fin 1000) :
    Gen.out1_9 (F := Ideal) x0 x1 x2 x3 x4 x5 x6 x7 x8 (ix2 p q)
      = Cert.Spec.score (fun p k => x0 (ix2 p k)) (fun k f => x2 (ix2 k f)) (fun f => x3 (ix1 f))
          (fun q f => x8 (ix2 q f)) p q :=
  out1_9_apply x0 x1 x2 x3 x4 x5 x6 x7 x8 p q

theorem out1_10_eq_score (p : Fin 1024) (q : Fin 1000) :
    Gen.out1_10 (F := Ideal) x0 x1 x2 x3 x4 x5 x6 x7 x8 (ix2 p q)
      = Cert.Spec.score (fun p k => x1 (ix2 p k)) (fun k f => x4 (ix2 k f)) (fun f => x5 (ix1 f))
          (fun q f => x8 (ix2 q f)) p q :=
  out1_10_apply x0 x1 x2 x3 x4 x5 x6 x7 x8 p q

theorem out1_11_eq_disc (p : Fin 1024) :
    Gen.out1_11 (F := Ideal) x0 x1 x2 x3 x4 x5 x6 x7 x8 (ix2 p (0 : Fin 1))
      = Cert.Spec.disc (fun p k => x1 (ix2 p k)) (fun k => x6 (ix2 k (0 : Fin 1))) (x7 (ix1 (0 : Fin 1))) p :=
  out1_11_apply x0 x1 x2 x3 x4 x5 x6 x7 x8 p

end OutputsSpec

end Cert.KernelIdeal.BodyIdx

end
-- ==== Proof.KBlocks.lean ====
/-
  From blocks to arrays, for both regions of the idealized kernel program, at any contents `V` the region is entered
  with.

  The knowledge-projection region has one grid point whose blocks are the whole arrays; its output array ends as the
  affine map of the smoothed knowledge table, rectified, entry by entry. The dense-head region has sixteen points;
  point `t` stages rows `1024·t … 1024·t + 1023` of the batch's student rows and exercise rows, the weights, biases and
  the knowledge projection whole, and writes back rows `1024·t …` of the two score arrays and of the discrimination
  column. Every row lies in exactly the block of point `row / 1024`, so each output array ends as ONE function of the
  staged arrays.
-/
import proofs.«140787_j71700184039602_1_alg».proof.Proof.Gen.KernelIdeal.Frame
import proofs.«140787_j71700184039602_1_alg».proof.Proof.Spec
import proofs.«140787_j71700184039602_1_alg».proof.Proof.BodyIdx
import Idealize.ShloMosaic.Lib.ValueIdx
import Idealize.ShloMosaic.Lib.Pipeline.Value

set_option maxRecDepth 16384

noncomputable section

namespace Cert.KernelIdeal.KBlocks

open Cert.KernelIdeal Cert.KernelIdeal.Gen
open Idealize.ShloMosaic Idealize.ShloMosaic.TcCoe Idealize.SL.Sem
open Idealize.ShloMosaic.Pipeline (Dat Cfg Window)
open ValueIdx

variable (V : (c : Dev nD) → (b : Ref sig .tc) → Buf (Elt Ideal) ((c : Thread nD τ).loc b))

/-! ## The three whole-array functions -/

/-- The knowledge projection as one function of the table, the weight and the bias. -/
def K3 (A0 : S1000x64.Idx → EReal) (A1 : S64x128.Idx → EReal) (A2 : S128.Idx → EReal) : S1000x128.Idx → EReal :=
  fun i => Cert.Spec.proj (fun p k => A0 (ix2 p k)) (fun k f => A1 (ix2 k f)) (fun f => A2 (ix1 f)) (i 0) (i 1)

/-- A score array as one function of the batch rows, a weight, a bias and the knowledge projection. -/
def S9 (A0 : S16384x64.Idx → EReal) (A2 : S64x128.Idx → EReal) (A3 : S128.Idx → EReal) (A8 : S1000x128.Idx → EReal) : S16384x1000.Idx → EReal :=
  fun i => Cert.Spec.score (fun P k => A0 (ix2 P k)) (fun k f => A2 (ix2 k f)) (fun f => A3 (ix1 f)) (fun q f => A8 (ix2 q f)) (i 0) (i 1)

/-- The discrimination column as one function of the exercise rows, the weight column and the bias. -/
def D11 (A1 : S16384x64.Idx → EReal) (A6 : S64x1.Idx → EReal) (A7 : S1.Idx → EReal) : S16384x1.Idx → EReal :=
  fun i => Cert.Spec.disc (fun P k => A1 (ix2 P k)) (fun k => A6 (ix2 k (0 : Fin 1))) (A7 (ix1 (0 : Fin 1))) (i 0)

/-! ## The knowledge-projection region -/

/-- Its one point's blocks all start at the origin. -/
theorem idx0 : ∀ t : Fin cfg0.N, win0_0.index t (0 : Fin 2) = 0 ∧ win0_0.index t (1 : Fin 2) = 0
    ∧ win0_1.index t (0 : Fin 2) = 0 ∧ win0_1.index t (1 : Fin 2) = 0 ∧ win0_2.index t (0 : Fin 1) = 0
    ∧ win0_3.index t (0 : Fin 2) = 0 ∧ win0_3.index t (1 : Fin 2) = 0 :=
  (by decide +kernel : ∀ t : Fin grid0.N, _)

/-- What the point writes back is the (whole) block of the knowledge projection of the staged arrays. -/
theorem flushed0_3_eq (c : Dev nD) (t : Fin cfg0.N) :
    (dat0 V c).flushed 3 t = ((cfg0.win 3).blk t).view.read (Elt Ideal) (K3 (V c main_v158) (V c main_arg20) (V c main_arg21)) := by
  show (cfg0.win 3).cut (grid0.coords t) ((dat0 V c).after 3 t) = _
  rw [after0_3]
  obtain ⟨e00, e01, e10, e11, e20, e30, e31⟩ := idx0 t
  funext j
  obtain ⟨p, q, rfl⟩ : ∃ (p : Fin 1000) (q : Fin 128), j = ix2 p q := ⟨j 0, j 1, eq_ix2 j⟩
  show out0_3 (iblk0 V c 0 t) (iblk0 V c 1 t) (iblk0 V c 2 t) (ix2 p q) = K3 (V c main_v158) (V c main_arg20) (V c main_arg21) (((cfg0.win 3).blk t).view.emb (ix2 p q))
  refine (Cert.KernelIdeal.BodyIdx.out0_3_eq_proj _ _ _ p q).trans ?_
  have hemb : ((cfg0.win 3).blk t).view.emb (ix2 p q) = ix2 p q := by
    funext a; apply Fin.ext
    match a with
    | ⟨0, _⟩ => show win0_3.index t (0 : Fin 2) * 1000 + 1 * (p : ℕ) = (p : ℕ); omega
    | ⟨1, _⟩ => show win0_3.index t (1 : Fin 2) * 128 + 1 * (q : ℕ) = (q : ℕ); omega
  have h0 : (fun (p : Fin 1000) (k : Fin 64) => iblk0 V c 0 t (ix2 p k)) = fun p k => V c main_v158 (ix2 p k) := by
    funext p k
    show V c main_v158 (((cfg0.win 0).blk t).view.emb (ix2 p k)) = _
    refine congrArg _ ?_
    funext a; apply Fin.ext
    match a with
    | ⟨0, _⟩ => show win0_0.index t (0 : Fin 2) * 1000 + 1 * (p : ℕ) = (p : ℕ); omega
    | ⟨1, _⟩ => show win0_0.index t (1 : Fin 2) * 64 + 1 * (k : ℕ) = (k : ℕ); omega
  have h1 : (fun (k : Fin 64) (f : Fin 128) => iblk0 V c 1 t (ix2 k f)) = fun k f => V c main_arg20 (ix2 k f) := by
    funext k f
    show V c main_arg20 (((cfg0.win 1).blk t).view.emb (ix2 k f)) = _
    refine congrArg _ ?_
    funext a; apply Fin.ext
    match a with
    | ⟨0, _⟩ => show win0_1.index t (0 : Fin 2) * 64 + 1 * (k : ℕ) = (k : ℕ); omega
    | ⟨1, _⟩ => show win0_1.index t (1 : Fin 2) * 128 + 1 * (f : ℕ) = (f : ℕ); omega
  have h2 : (fun (f : Fin 128) => iblk0 V c 2 t (ix1 f)) = fun f => V c main_arg21 (ix1 f) := by
    funext f
    show V c main_arg21 (((cfg0.win 2).blk t).view.emb (ix1 f)) = _
    refine congrArg _ ?_
    funext a; apply Fin.ext
    match a with
    | ⟨0, _⟩ => show win0_2.index t (0 : Fin 1) * 128 + 1 * (f : ℕ) = (f : ℕ); omega
  rw [h0, h1, h2, hemb]
  rfl

theorem mem_blk0_3 (t : Fin cfg0.N) (i : S1000x128.Idx) :
    i ∈ ((cfg0.win 3).blk t).view.set ↔ ∀ a : Fin 2, win0_3.index t a * S1000x128.size a ≤ (i a).val ∧ (i a).val < win0_3.index t a * S1000x128.size a + S1000x128.size a := by
  show i ∈ ((View.whole main_v180).slice (win0_3.rect t)).set ↔ _
  rw [View.set_slice_whole, Rect.mem_set_unit]
  exact Iff.rfl

/-- The one block is the whole array. -/
theorem tiles0_3 (i : S1000x128.Idx) : ∃ t : Fin cfg0.N, (cfg0.win 3).flush t = true ∧ i ∈ ((cfg0.win 3).blk t).view.set := by
  have hi0 : (i 0).val < 1000 := (i 0).isLt
  have hi1 : (i 1).val < 128 := (i 1).isLt
  let t : Fin cfg0.N := ⟨0, by show 0 < 1; omega⟩
  obtain ⟨e00, e01, e10, e11, e20, e30, e31⟩ := idx0 t
  refine ⟨t, flush0_3 t, ?_⟩
  rw [mem_blk0_3]
  intro a
  match a with
  | ⟨0, _⟩ => show win0_3.index t (0 : Fin 2) * 1000 ≤ (i 0).val ∧ (i 0).val < win0_3.index t (0 : Fin 2) * 1000 + 1000; omega
  | ⟨1, _⟩ => show win0_3.index t (1 : Fin 2) * 128 ≤ (i 1).val ∧ (i 1).val < win0_3.index t (1 : Fin 2) * 128 + 128; omega

/-- The knowledge projection's array after the region. -/
theorem final0_3 (c : Dev nD) :
    (dat0 V c).arrAt 3 cfg0.N = K3 (V c main_v158) (V c main_arg20) (V c main_arg21) :=
  (dat0 V c).arrAt_eq_of_cover 3 _ (fun t _ => flushed0_3_eq V c t) tiles0_3

/-! ## The dense-head region -/

/-- The printed index maps over the sixteen points: the batch windows and the three outputs move with the point along
    the rows, every other window stays at the origin. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0 ∧ win1_3.index t (0 : Fin 1) = 0
    ∧ win1_4.index t (0 : Fin 2) = 0 ∧ win1_4.index t (1 : Fin 2) = 0 ∧ win1_5.index t (0 : Fin 1) = 0
    ∧ win1_6.index t (0 : Fin 2) = 0 ∧ win1_6.index t (1 : Fin 2) = 0 ∧ win1_7.index t (0 : Fin 1) = 0
    ∧ win1_8.index t (0 : Fin 2) = 0 ∧ win1_8.index t (1 : Fin 2) = 0
    ∧ win1_9.index t (0 : Fin 2) = t.val ∧ win1_9.index t (1 : Fin 2) = 0
    ∧ win1_10.index t (0 : Fin 2) = t.val ∧ win1_10.index t (1 : Fin 2) = 0
    ∧ win1_11.index t (0 : Fin 2) = t.val ∧ win1_11.index t (1 : Fin 2) = 0 ∧ t.val < 16 :=
  (by decide +kernel : ∀ t : Fin grid1.N, _)

/-- What grid point `t` writes back to output window 9 is block `t` of the score array: its 1024 rows are rows
    `1024·t …` of the batch, the weight, bias and knowledge projection are read whole at every point. -/
theorem flushed1_9_eq (c : Dev nD) (t : Fin cfg1.N) :
    (dat1 V c).flushed 9 t = ((cfg1.win 9).blk t).view.read (Elt Ideal) (S9 (V c main_v165) (V c main_arg16) (V c main_arg17) (V c main_v180)) := by
  show (cfg1.win 9).cut (grid1.coords t) ((dat1 V c).after 9 t) = _
  rw [after1_9]
  obtain ⟨e00, e01, e10, e11, e20, e21, e30, e40, e41, e50, e60, e61, e70, e80, e81, e90, e91, eA0, eA1, eB0, eB1, ht⟩ := idx1 t
  funext j
  obtain ⟨p, q, rfl⟩ : ∃ (p : Fin 1024) (q : Fin 1000), j = ix2 p q := ⟨j 0, j 1, eq_ix2 j⟩
  show out1_9 (iblk1 V c 0 t) (iblk1 V c 1 t) (iblk1 V c 2 t) (iblk1 V c 3 t) (iblk1 V c 4 t) (iblk1 V c 5 t) (iblk1 V c 6 t) (iblk1 V c 7 t) (iblk1 V c 8 t) (ix2 p q)
    = S9 (V c main_v165) (V c main_arg16) (V c main_arg17) (V c main_v180) (((cfg1.win 9).blk t).view.emb (ix2 p q))
  refine (Cert.KernelIdeal.BodyIdx.out1_9_eq_score _ _ _ _ _ _ _ _ _ p q).trans ?_
  have hp : (p : ℕ) < 1024 := p.isLt
  have hemb : ((cfg1.win 9).blk t).view.emb (ix2 p q) = ix2 (⟨t.val * 1024 + p, by omega⟩ : Fin 16384) q := by
    funext a; apply Fin.ext
    match a with
    | ⟨0, _⟩ => show win1_9.index t (0 : Fin 2) * 1024 + 1 * (p : ℕ) = t.val * 1024 + (p : ℕ); omega
    | ⟨1, _⟩ => show win1_9.index t (1 : Fin 2) * 1000 + 1 * (q : ℕ) = (q : ℕ); omega
  have hrow : ∀ k : Fin 64, iblk1 V c 0 t (ix2 p k) = V c main_v165 (ix2 (⟨t.val * 1024 + p, by omega⟩ : Fin 16384) k) := by
    intro k
    show V c main_v165 (((cfg1.win 0).blk t).view.emb (ix2 p k)) = _
    refine congrArg _ ?_
    funext a; apply Fin.ext
    match a with
    | ⟨0, _⟩ => show win1_0.index t (0 : Fin 2) * 1024 + 1 * (p : ℕ) = t.val * 1024 + (p : ℕ); omega
    | ⟨1, _⟩ => show win1_0.index t (1 : Fin 2) * 64 + 1 * (k : ℕ) = (k : ℕ); omega
  have hw : (fun (k : Fin 64) (f : Fin 128) => iblk1 V c 2 t (ix2 k f)) = fun k f => V c main_arg16 (ix2 k f) := by
    funext k f
    show V c main_arg16 (((cfg1.win 2).blk t).view.emb (ix2 k f)) = _
    refine congrArg _ ?_
    funext a; apply Fin.ext
    match a with
    | ⟨0, _⟩ => show win1_2.index t (0 : Fin 2) * 64 + 1 * (k : ℕ) = (k : ℕ); omega
    | ⟨1, _⟩ => show win1_2.index t (1 : Fin 2) * 128 + 1 * (f : ℕ) = (f : ℕ); omega
  have hb : (fun (f : Fin 128) => iblk1 V c 3 t (ix1 f)) = fun f => V c main_arg17 (ix1 f) := by
    funext f
    show V c main_arg17 (((cfg1.win 3).blk t).view.emb (ix1 f)) = _
    refine congrArg _ ?_
    funext a; apply Fin.ext
    match a with
    | ⟨0, _⟩ => show win1_3.index t (0 : Fin 1) * 128 + 1 * (f : ℕ) = (f : ℕ); omega
  have hk : (fun (q : Fin 1000) (f : Fin 128) => iblk1 V c 8 t (ix2 q f)) = fun q f => V c main_v180 (ix2 q f) := by
    funext q f
    show V c main_v180 (((cfg1.win 8).blk t).view.emb (ix2 q f)) = _
    refine congrArg _ ?_
    funext a; apply Fin.ext
    match a with
    | ⟨0, _⟩ => show win1_8.index t (0 : Fin 2) * 1000 + 1 * (q : ℕ) = (q : ℕ); omega
    | ⟨1, _⟩ => show win1_8.index t (1 : Fin 2) * 128 + 1 * (f : ℕ) = (f : ℕ); omega
  rw [hemb, hw, hb, hk]
  show Cert.Spec.score _ _ _ _ p q = Cert.Spec.score _ _ _ _ (⟨t.val * 1024 + p, by omega⟩ : Fin 16384) q
  unfold Cert.Spec.score Cert.Spec.proj
  simp only [hrow]

theorem mem_blk1_9 (t : Fin cfg1.N) (i : S16384x1000.Idx) :
    i ∈ ((cfg1.win 9).blk t).view.set ↔ ∀ a : Fin 2, win1_9.index t a * S1024x1000.size a ≤ (i a).val ∧ (i a).val < win1_9.index t a * S1024x1000.size a + S1024x1000.size a := by
  show i ∈ ((View.whole main_v181_0).slice (win1_9.rect t)).set ↔ _
  rw [View.set_slice_whole, Rect.mem_set_unit]
  exact Iff.rfl

/-- Row `r` of the array lies in the block of point `r / 1024`. -/
theorem tiles1_9 (i : S16384x1000.Idx) : ∃ t : Fin cfg1.N, (cfg1.win 9).flush t = true ∧ i ∈ ((cfg1.win 9).blk t).view.set := by
  have hi0 : (i 0).val < 16384 := (i 0).isLt
  have hi1 : (i 1).val < 1000 := (i 1).isLt
  let t : Fin cfg1.N := ⟨(i 0).val / 1024, by show _ < 16; omega⟩
  obtain ⟨e00, e01, e10, e11, e20, e21, e30, e40, e41, e50, e60, e61, e70, e80, e81, e90, e91, eA0, eA1, eB0, eB1, ht⟩ := idx1 t
  have htv : t.val = (i 0).val / 1024 := rfl
  refine ⟨t, flush1_9 t, ?_⟩
  rw [mem_blk1_9]
  intro a
  match a with
  | ⟨0, _⟩ => show win1_9.index t (0 : Fin 2) * 1024 ≤ (i 0).val ∧ (i 0).val < win1_9.index t (0 : Fin 2) * 1024 + 1024; omega
  | ⟨1, _⟩ => show win1_9.index t (1 : Fin 2) * 1000 ≤ (i 1).val ∧ (i 1).val < win1_9.index t (1 : Fin 2) * 1000 + 1000; omega

/-- The whole score array after the region. -/
theorem final1_9 (c : Dev nD) :
    (dat1 V c).arrAt 9 cfg1.N = S9 (V c main_v165) (V c main_arg16) (V c main_arg17) (V c main_v180) :=
  (dat1 V c).arrAt_eq_of_cover 9 _ (fun t _ => flushed1_9_eq V c t) tiles1_9

/-- What grid point `t` writes back to output window 10 is block `t` of the score array: its 1024 rows are rows
    `1024·t …` of the batch, the weight, bias and knowledge projection are read whole at every point. -/
theorem flushed1_10_eq (c : Dev nD) (t : Fin cfg1.N) :
    (dat1 V c).flushed 10 t = ((cfg1.win 10).blk t).view.read (Elt Ideal) (S9 (V c main_v172) (V c main_arg18) (V c main_arg19) (V c main_v180)) := by
  show (cfg1.win 10).cut (grid1.coords t) ((dat1 V c).after 10 t) = _
  rw [after1_10]
  obtain ⟨e00, e01, e10, e11, e20, e21, e30, e40, e41, e50, e60, e61, e70, e80, e81, e90, e91, eA0, eA1, eB0, eB1, ht⟩ := idx1 t
  funext j
  obtain ⟨p, q, rfl⟩ : ∃ (p : Fin 1024) (q : Fin 1000), j = ix2 p q := ⟨j 0, j 1, eq_ix2 j⟩
  show out1_10 (iblk1 V c 0 t) (iblk1 V c 1 t) (iblk1 V c 2 t) (iblk1 V c 3 t) (iblk1 V c 4 t) (iblk1 V c 5 t) (iblk1 V c 6 t) (iblk1 V c 7 t) (iblk1 V c 8 t) (ix2 p q)
    = S9 (V c main_v172) (V c main_arg18) (V c main_arg19) (V c main_v180) (((cfg1.win 10).blk t).view.emb (ix2 p q))
  refine (Cert.KernelIdeal.BodyIdx.out1_10_eq_score _ _ _ _ _ _ _ _ _ p q).trans ?_
  have hp : (p : ℕ) < 1024 := p.isLt
  have hemb : ((cfg1.win 10).blk t).view.emb (ix2 p q) = ix2 (⟨t.val * 1024 + p, by omega⟩ : Fin 16384) q := by
    funext a; apply Fin.ext
    match a with
    | ⟨0, _⟩ => show win1_10.index t (0 : Fin 2) * 1024 + 1 * (p : ℕ) = t.val * 1024 + (p : ℕ); omega
    | ⟨1, _⟩ => show win1_10.index t (1 : Fin 2) * 1000 + 1 * (q : ℕ) = (q : ℕ); omega
  have hrow : ∀ k : Fin 64, iblk1 V c 1 t (ix2 p k) = V c main_v172 (ix2 (⟨t.val * 1024 + p, by omega⟩ : Fin 16384) k) := by
    intro k
    show V c main_v172 (((cfg1.win 1).blk t).view.emb (ix2 p k)) = _
    refine congrArg _ ?_
    funext a; apply Fin.ext
    match a with
    | ⟨0, _⟩ => show win1_1.index t (0 : Fin 2) * 1024 + 1 * (p : ℕ) = t.val * 1024 + (p : ℕ); omega
    | ⟨1, _⟩ => show win1_1.index t (1 : Fin 2) * 64 + 1 * (k : ℕ) = (k : ℕ); omega
  have hw : (fun (k : Fin 64) (f : Fin 128) => iblk1 V c 4 t (ix2 k f)) = fun k f => V c main_arg18 (ix2 k f) := by
    funext k f
    show V c main_arg18 (((cfg1.win 4).blk t).view.emb (ix2 k f)) = _
    refine congrArg _ ?_
    funext a; apply Fin.ext
    match a with
    | ⟨0, _⟩ => show win1_4.index t (0 : Fin 2) * 64 + 1 * (k : ℕ) = (k : ℕ); omega
    | ⟨1, _⟩ => show win1_4.index t (1 : Fin 2) * 128 + 1 * (f : ℕ) = (f : ℕ); omega
  have hb : (fun (f : Fin 128) => iblk1 V c 5 t (ix1 f)) = fun f => V c main_arg19 (ix1 f) := by
    funext f
    show V c main_arg19 (((cfg1.win 5).blk t).view.emb (ix1 f)) = _
    refine congrArg _ ?_
    funext a; apply Fin.ext
    match a with
    | ⟨0, _⟩ => show win1_5.index t (0 : Fin 1) * 128 + 1 * (f : ℕ) = (f : ℕ); omega
  have hk : (fun (q : Fin 1000) (f : Fin 128) => iblk1 V c 8 t (ix2 q f)) = fun q f => V c main_v180 (ix2 q f) := by
    funext q f
    show V c main_v180 (((cfg1.win 8).blk t).view.emb (ix2 q f)) = _
    refine congrArg _ ?_
    funext a; apply Fin.ext
    match a with
    | ⟨0, _⟩ => show win1_8.index t (0 : Fin 2) * 1000 + 1 * (q : ℕ) = (q : ℕ); omega
    | ⟨1, _⟩ => show win1_8.index t (1 : Fin 2) * 128 + 1 * (f : ℕ) = (f : ℕ); omega
  rw [hemb, hw, hb, hk]
  show Cert.Spec.score _ _ _ _ p q = Cert.Spec.score _ _ _ _ (⟨t.val * 1024 + p, by omega⟩ : Fin 16384) q
  unfold Cert.Spec.score Cert.Spec.proj
  simp only [hrow]

theorem mem_blk1_10 (t : Fin cfg1.N) (i : S16384x1000.Idx) :
    i ∈ ((cfg1.win 10).blk t).view.set ↔ ∀ a : Fin 2, win1_10.index t a * S1024x1000.size a ≤ (i a).val ∧ (i a).val < win1_10.index t a * S1024x1000.size a + S1024x1000.size a := by
  show i ∈ ((View.whole main_v181_1).slice (win1_10.rect t)).set ↔ _
  rw [View.set_slice_whole, Rect.mem_set_unit]
  exact Iff.rfl

/-- Row `r` of the array lies in the block of point `r / 1024`. -/
theorem tiles1_10 (i : S16384x1000.Idx) : ∃ t : Fin cfg1.N, (cfg1.win 10).flush t = true ∧ i ∈ ((cfg1.win 10).blk t).view.set := by
  have hi0 : (i 0).val < 16384 := (i 0).isLt
  have hi1 : (i 1).val < 1000 := (i 1).isLt
  let t : Fin cfg1.N := ⟨(i 0).val / 1024, by show _ < 16; omega⟩
  obtain ⟨e00, e01, e10, e11, e20, e21, e30, e40, e41, e50, e60, e61, e70, e80, e81, e90, e91, eA0, eA1, eB0, eB1, ht⟩ := idx1 t
  have htv : t.val = (i 0).val / 1024 := rfl
  refine ⟨t, flush1_10 t, ?_⟩
  rw [mem_blk1_10]
  intro a
  match a with
  | ⟨0, _⟩ => show win1_10.index t (0 : Fin 2) * 1024 ≤ (i 0).val ∧ (i 0).val < win1_10.index t (0 : Fin 2) * 1024 + 1024; omega
  | ⟨1, _⟩ => show win1_10.index t (1 : Fin 2) * 1000 ≤ (i 1).val ∧ (i 1).val < win1_10.index t (1 : Fin 2) * 1000 + 1000; omega

/-- The whole score array after the region. -/
theorem final1_10 (c : Dev nD) :
    (dat1 V c).arrAt 10 cfg1.N = S9 (V c main_v172) (V c main_arg18) (V c main_arg19) (V c main_v180) :=
  (dat1 V c).arrAt_eq_of_cover 10 _ (fun t _ => flushed1_10_eq V c t) tiles1_10

/-- What grid point `t` writes back to the discrimination window is block `t` of the column. -/
theorem flushed1_11_eq (c : Dev nD) (t : Fin cfg1.N) :
    (dat1 V c).flushed 11 t = ((cfg1.win 11).blk t).view.read (Elt Ideal) (D11 (V c main_v172) (V c main_arg22) (V c main_arg23)) := by
  show (cfg1.win 11).cut (grid1.coords t) ((dat1 V c).after 11 t) = _
  rw [after1_11]
  obtain ⟨e00, e01, e10, e11, e20, e21, e30, e40, e41, e50, e60, e61, e70, e80, e81, e90, e91, eA0, eA1, eB0, eB1, ht⟩ := idx1 t
  funext j
  obtain ⟨p, q, rfl⟩ : ∃ (p : Fin 1024) (q : Fin 1), j = ix2 p q := ⟨j 0, j 1, eq_ix2 j⟩
  obtain rfl : q = 0 := Subsingleton.elim _ _
  show out1_11 (iblk1 V c 0 t) (iblk1 V c 1 t) (iblk1 V c 2 t) (iblk1 V c 3 t) (iblk1 V c 4 t) (iblk1 V c 5 t) (iblk1 V c 6 t) (iblk1 V c 7 t) (iblk1 V c 8 t) (ix2 p (0 : Fin 1))
    = D11 (V c main_v172) (V c main_arg22) (V c main_arg23) (((cfg1.win 11).blk t).view.emb (ix2 p (0 : Fin 1)))
  refine (Cert.KernelIdeal.BodyIdx.out1_11_eq_disc _ _ _ _ _ _ _ _ _ p).trans ?_
  have hp : (p : ℕ) < 1024 := p.isLt
  have hemb : ((cfg1.win 11).blk t).view.emb (ix2 p (0 : Fin 1)) = ix2 (⟨t.val * 1024 + p, by omega⟩ : Fin 16384) (0 : Fin 1) := by
    funext a; apply Fin.ext
    match a with
    | ⟨0, _⟩ => show win1_11.index t (0 : Fin 2) * 1024 + 1 * (p : ℕ) = t.val * 1024 + (p : ℕ); omega
    | ⟨1, _⟩ => show win1_11.index t (1 : Fin 2) * 1 + 1 * ((0 : Fin 1) : ℕ) = ((0 : Fin 1) : ℕ); omega
  have hrow : ∀ k : Fin 64, iblk1 V c 1 t (ix2 p k) = V c main_v172 (ix2 (⟨t.val * 1024 + p, by omega⟩ : Fin 16384) k) := by
    intro k
    show V c main_v172 (((cfg1.win 1).blk t).view.emb (ix2 p k)) = _
    refine congrArg _ ?_
    funext a; apply Fin.ext
    match a with
    | ⟨0, _⟩ => show win1_1.index t (0 : Fin 2) * 1024 + 1 * (p : ℕ) = t.val * 1024 + (p : ℕ); omega
    | ⟨1, _⟩ => show win1_1.index t (1 : Fin 2) * 64 + 1 * (k : ℕ) = (k : ℕ); omega
  have hw : (fun (k : Fin 64) => iblk1 V c 6 t (ix2 k (0 : Fin 1))) = fun k => V c main_arg22 (ix2 k (0 : Fin 1)) := by
    funext k
    show V c main_arg22 (((cfg1.win 6).blk t).view.emb (ix2 k (0 : Fin 1))) = _
    refine congrArg _ ?_
    funext a; apply Fin.ext
    match a with
    | ⟨0, _⟩ => show win1_6.index t (0 : Fin 2) * 64 + 1 * (k : ℕ) = (k : ℕ); omega
    | ⟨1, _⟩ => show win1_6.index t (1 : Fin 2) * 1 + 1 * ((0 : Fin 1) : ℕ) = ((0 : Fin 1) : ℕ); omega
  have hb : iblk1 V c 7 t (ix1 (0 : Fin 1)) = V c main_arg23 (ix1 (0 : Fin 1)) := by
    show V c main_arg23 (((cfg1.win 7).blk t).view.emb (ix1 (0 : Fin 1))) = _
    refine congrArg _ ?_
    funext a; apply Fin.ext
    match a with
    | ⟨0, _⟩ => show win1_7.index t (0 : Fin 1) * 1 + 1 * ((0 : Fin 1) : ℕ) = ((0 : Fin 1) : ℕ); omega
  rw [hemb, hw, hb]
  show Cert.Spec.disc _ _ _ p = Cert.Spec.disc _ _ _ (⟨t.val * 1024 + p, by omega⟩ : Fin 16384)
  unfold Cert.Spec.disc
  simp only [hrow]

theorem mem_blk1_11 (t : Fin cfg1.N) (i : S16384x1.Idx) :
    i ∈ ((cfg1.win 11).blk t).view.set ↔ ∀ a : Fin 2, win1_11.index t a * S1024x1.size a ≤ (i a).val ∧ (i a).val < win1_11.index t a * S1024x1.size a + S1024x1.size a := by
  show i ∈ ((View.whole main_v181_2).slice (win1_11.rect t)).set ↔ _
  rw [View.set_slice_whole, Rect.mem_set_unit]
  exact Iff.rfl

theorem tiles1_11 (i : S16384x1.Idx) : ∃ t : Fin cfg1.N, (cfg1.win 11).flush t = true ∧ i ∈ ((cfg1.win 11).blk t).view.set := by
  have hi0 : (i 0).val < 16384 := (i 0).isLt
  have hi1 : (i 1).val < 1 := (i 1).isLt
  let t : Fin cfg1.N := ⟨(i 0).val / 1024, by show _ < 16; omega⟩
  obtain ⟨e00, e01, e10, e11, e20, e21, e30, e40, e41, e50, e60, e61, e70, e80, e81, e90, e91, eA0, eA1, eB0, eB1, ht⟩ := idx1 t
  have htv : t.val = (i 0).val / 1024 := rfl
  refine ⟨t, flush1_11 t, ?_⟩
  rw [mem_blk1_11]
  intro a
  match a with
  | ⟨0, _⟩ => show win1_11.index t (0 : Fin 2) * 1024 ≤ (i 0).val ∧ (i 0).val < win1_11.index t (0 : Fin 2) * 1024 + 1024; omega
  | ⟨1, _⟩ => show win1_11.index t (1 : Fin 2) * 1 ≤ (i 1).val ∧ (i 1).val < win1_11.index t (1 : Fin 2) * 1 + 1; omega

/-- The discrimination column after the region. -/
theorem final1_11 (c : Dev nD) :
    (dat1 V c).arrAt 11 cfg1.N = D11 (V c main_v172) (V c main_arg22) (V c main_arg23) :=
  (dat1 V c).arrAt_eq_of_cover 11 _ (fun t _ => flushed1_11_eq V c t) tiles1_11

end Cert.KernelIdeal.KBlocks

end
-- ==== Proof.KPre158.lean ====
/-
  The smoothed knowledge table as the first region finds it.
  The host operations before the first region are read as a fold over the launch memory; the value they leave in one
  buffer is the composed function of the argument arrays that the specification names.
-/
import proofs.«140787_j71700184039602_1_alg».proof.Proof.Gen.KernelIdeal.Frame
import proofs.«140787_j71700184039602_1_alg».proof.Proof.Spec
import Idealize.ShloMosaic.Lib.StableHlo.Run

set_option maxRecDepth 16384

noncomputable section

namespace Cert.KernelIdeal.KPrefix

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

set_option maxHeartbeats 4000000 in
theorem W1_v158 (c : Dev nD) : W1 m ρ c (Proc.devRef .tc main_v158)
    = Cert.Spec.convK (m ((c : Thread nD τ).loc main_arg5)) (m ((c : Thread nD τ).loc main_arg13)) (m ((c : Thread nD τ).loc main_arg14)) (m ((c : Thread nD τ).loc main_arg15)) := by
  show StableHlo.after hostOps0 (W0 m ρ c) (Proc.devRef .tc main_v158) = _
  unfold hostOps0
  after_results_simp
  rfl

end Cert.KernelIdeal.KPrefix

end
-- ==== Proof.KPre165.lean ====
/-
  The batch's student rows as the second region finds them.
  The host operations before the first region are read as a fold over the launch memory; the value they leave in one
  buffer is the composed function of the argument arrays that the specification names.
-/
import proofs.«140787_j71700184039602_1_alg».proof.Proof.Gen.KernelIdeal.Frame
import proofs.«140787_j71700184039602_1_alg».proof.Proof.Spec
import Idealize.ShloMosaic.Lib.StableHlo.Run

set_option maxRecDepth 16384

noncomputable section

namespace Cert.KernelIdeal.KPrefix

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

set_option maxHeartbeats 4000000 in
theorem W1_v165 (c : Dev nD) : W1 m ρ c (Proc.devRef .tc main_v165)
    = Cert.Spec.batchStudent (m ((c : Thread nD τ).loc main_arg0)) (m ((c : Thread nD τ).loc main_arg3)) (m ((c : Thread nD τ).loc main_arg7)) (m ((c : Thread nD τ).loc main_arg8)) (m ((c : Thread nD τ).loc main_arg9)) := by
  show StableHlo.after hostOps0 (W0 m ρ c) (Proc.devRef .tc main_v165) = _
  unfold hostOps0
  after_results_simp
  rfl

end Cert.KernelIdeal.KPrefix

end
-- ==== Proof.KPre172.lean ====
/-
  The batch's exercise rows as the second region finds them.
  The host operations before the first region are read as a fold over the launch memory; the value they leave in one
  buffer is the composed function of the argument arrays that the specification names.
-/
import proofs.«140787_j71700184039602_1_alg».proof.Proof.Gen.KernelIdeal.Frame
import proofs.«140787_j71700184039602_1_alg».proof.Proof.Spec
import Idealize.ShloMosaic.Lib.StableHlo.Run

set_option maxRecDepth 16384

noncomputable section

namespace Cert.KernelIdeal.KPrefix

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

set_option maxHeartbeats 4000000 in
theorem W1_v172 (c : Dev nD) : W1 m ρ c (Proc.devRef .tc main_v172)
    = Cert.Spec.batchExercise (m ((c : Thread nD τ).loc main_arg1)) (m ((c : Thread nD τ).loc main_arg4)) (m ((c : Thread nD τ).loc main_arg10)) (m ((c : Thread nD τ).loc main_arg11)) (m ((c : Thread nD τ).loc main_arg12)) := by
  show StableHlo.after hostOps0 (W0 m ρ c) (Proc.devRef .tc main_v172) = _
  unfold hostOps0
  after_results_simp
  rfl

end Cert.KernelIdeal.KPrefix

end
-- ==== Proof.KPre179.lean ====
/-
  The batch's impact rows, which no region touches.
  The host operations before the first region are read as a fold over the launch memory; the value they leave in one
  buffer is the composed function of the argument arrays that the specification names.
-/
import proofs.«140787_j71700184039602_1_alg».proof.Proof.Gen.KernelIdeal.Frame
import proofs.«140787_j71700184039602_1_alg».proof.Proof.Spec
import Idealize.ShloMosaic.Lib.StableHlo.Run

set_option maxRecDepth 16384

noncomputable section

namespace Cert.KernelIdeal.KPrefix

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

set_option maxHeartbeats 4000000 in
theorem W1_v179 (c : Dev nD) : W1 m ρ c (Proc.devRef .tc main_v179)
    = Cert.Spec.impact (m ((c : Thread nD τ).loc main_arg1)) (m ((c : Thread nD τ).loc main_arg6)) := by
  show StableHlo.after hostOps0 (W0 m ρ c) (Proc.devRef .tc main_v179) = _
  unfold hostOps0
  after_results_simp
  rfl

end Cert.KernelIdeal.KPrefix

end
-- ==== Proof.KValue.lean ====
/-
  The idealized kernel program's five results as functions of its argument arrays.

  The last boundary's contents are walked back through the fold: a region's output array is what its blocks tile; an
  array a region only stages is what the region was entered with; a buffer no region names is what the host stretch left.
  The dense-head region is entered with the knowledge projection the first region wrote, the batch rows the host stretch
  gathered, and the weights and biases as launched.
-/
import proofs.«140787_j71700184039602_1_alg».proof.Proof.KRun
import proofs.«140787_j71700184039602_1_alg».proof.Proof.KBlocks
import proofs.«140787_j71700184039602_1_alg».proof.Proof.KPre158
import proofs.«140787_j71700184039602_1_alg».proof.Proof.KPre165
import proofs.«140787_j71700184039602_1_alg».proof.Proof.KPre172
import proofs.«140787_j71700184039602_1_alg».proof.Proof.KPre179

set_option maxRecDepth 16384

noncomputable section

namespace Cert.KernelIdeal.KValue

open Cert.KernelIdeal Cert.KernelIdeal.Gen Cert.KernelIdeal.KBlocks
open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg)

/-! ## The results, named -/

/-- The knowledge projection of the launch arrays. -/
def knowTs (c : Dev nD) : S1000x128.Idx → EReal :=
  K3 (Cert.Spec.convK (F := Ideal) (m ((c : Thread nD τ).loc main_arg5)) (m ((c : Thread nD τ).loc main_arg13)) (m ((c : Thread nD τ).loc main_arg14)) (m ((c : Thread nD τ).loc main_arg15))) (m ((c : Thread nD τ).loc main_arg20)) (m ((c : Thread nD τ).loc main_arg21))

/-- The student scores. -/
def stuTs (c : Dev nD) : S16384x1000.Idx → EReal :=
  S9 (Cert.Spec.batchStudent (F := Ideal) (m ((c : Thread nD τ).loc main_arg0)) (m ((c : Thread nD τ).loc main_arg3)) (m ((c : Thread nD τ).loc main_arg7)) (m ((c : Thread nD τ).loc main_arg8)) (m ((c : Thread nD τ).loc main_arg9))) (m ((c : Thread nD τ).loc main_arg16)) (m ((c : Thread nD τ).loc main_arg17)) (knowTs m c)

/-- The difficulty scores. -/
def diffTs (c : Dev nD) : S16384x1000.Idx → EReal :=
  S9 (Cert.Spec.batchExercise (F := Ideal) (m ((c : Thread nD τ).loc main_arg1)) (m ((c : Thread nD τ).loc main_arg4)) (m ((c : Thread nD τ).loc main_arg10)) (m ((c : Thread nD τ).loc main_arg11)) (m ((c : Thread nD τ).loc main_arg12))) (m ((c : Thread nD τ).loc main_arg18)) (m ((c : Thread nD τ).loc main_arg19)) (knowTs m c)

/-- The discrimination column. -/
def discTs (c : Dev nD) : S16384x1.Idx → EReal :=
  D11 (Cert.Spec.batchExercise (F := Ideal) (m ((c : Thread nD τ).loc main_arg1)) (m ((c : Thread nD τ).loc main_arg4)) (m ((c : Thread nD τ).loc main_arg10)) (m ((c : Thread nD τ).loc main_arg11)) (m ((c : Thread nD τ).loc main_arg12))) (m ((c : Thread nD τ).loc main_arg22)) (m ((c : Thread nD τ).loc main_arg23))

theorem K3_congr {A0 A0' : S1000x64.Idx → EReal} {A1 A1' : S64x128.Idx → EReal} {A2 A2' : S128.Idx → EReal}
    (h0 : A0 = A0') (h1 : A1 = A1') (h2 : A2 = A2') : K3 A0 A1 A2 = K3 A0' A1' A2' := by subst h0 h1 h2; rfl
theorem S9_congr {A0 A0' : S16384x64.Idx → EReal} {A2 A2' : S64x128.Idx → EReal} {A3 A3' : S128.Idx → EReal} {A8 A8' : S1000x128.Idx → EReal}
    (h0 : A0 = A0') (h2 : A2 = A2') (h3 : A3 = A3') (h8 : A8 = A8') : S9 A0 A2 A3 A8 = S9 A0' A2' A3' A8' := by subst h0 h2 h3 h8; rfl
theorem D11_congr {A1 A1' : S16384x64.Idx → EReal} {A6 A6' : S64x1.Idx → EReal} {A7 A7' : S1.Idx → EReal}
    (h1 : A1 = A1') (h6 : A6 = A6') (h7 : A7 = A7') : D11 A1 A6 A7 = D11 A1' A6' A7' := by subst h1 h6 h7; rfl

/-! ## What the first region is entered with -/

theorem V1_v158 (c : Dev nD) : V1 m ρ c main_v158 = Cert.Spec.convK (F := Ideal) (m ((c : Thread nD τ).loc main_arg5)) (m ((c : Thread nD τ).loc main_arg13)) (m ((c : Thread nD τ).loc main_arg14)) (m ((c : Thread nD τ).loc main_arg15)) :=
  Cert.KernelIdeal.KPrefix.W1_v158 m ρ c
theorem V1_arg20 (c : Dev nD) : V1 m ρ c main_arg20 = m ((c : Thread nD τ).loc main_arg20) :=
  ((W2_arr m ρ c 1).trans (((dat0 (V1 m ρ) c).arrAt_in 1 rfl _).trans (A_eq0 (V1 m ρ) c 1))).symm.trans
    ((W3_of_ne m ρ c main_arg20 (by decide)).symm.trans (W3_main_arg20 m ρ c))
theorem V1_arg21 (c : Dev nD) : V1 m ρ c main_arg21 = m ((c : Thread nD τ).loc main_arg21) :=
  ((W2_arr m ρ c 2).trans (((dat0 (V1 m ρ) c).arrAt_in 2 rfl _).trans (A_eq0 (V1 m ρ) c 2))).symm.trans
    ((W3_of_ne m ρ c main_arg21 (by decide)).symm.trans (W3_main_arg21 m ρ c))

/-! ## What the second region is entered with -/

theorem V2_v180 (c : Dev nD) : V2 m ρ c main_v180 = knowTs m c :=
  (W2_arr m ρ c 3).trans ((final0_3 (V1 m ρ) c).trans (K3_congr (V1_v158 m ρ c) (V1_arg20 m ρ c) (V1_arg21 m ρ c)))
theorem V2_v165 (c : Dev nD) : V2 m ρ c main_v165 = Cert.Spec.batchStudent (F := Ideal) (m ((c : Thread nD τ).loc main_arg0)) (m ((c : Thread nD τ).loc main_arg3)) (m ((c : Thread nD τ).loc main_arg7)) (m ((c : Thread nD τ).loc main_arg8)) (m ((c : Thread nD τ).loc main_arg9)) :=
  (W2_of_ne m ρ c main_v165 (by decide)).trans (Cert.KernelIdeal.KPrefix.W1_v165 m ρ c)
theorem V2_v172 (c : Dev nD) : V2 m ρ c main_v172 = Cert.Spec.batchExercise (F := Ideal) (m ((c : Thread nD τ).loc main_arg1)) (m ((c : Thread nD τ).loc main_arg4)) (m ((c : Thread nD τ).loc main_arg10)) (m ((c : Thread nD τ).loc main_arg11)) (m ((c : Thread nD τ).loc main_arg12)) :=
  (W2_of_ne m ρ c main_v172 (by decide)).trans (Cert.KernelIdeal.KPrefix.W1_v172 m ρ c)
theorem V2_arg16 (c : Dev nD) : V2 m ρ c main_arg16 = m ((c : Thread nD τ).loc main_arg16) :=
  ((W3_arr m ρ c 2).trans (((dat1 (V2 m ρ) c).arrAt_in 2 rfl _).trans (A_eq1 (V2 m ρ) c 2))).symm.trans (W3_main_arg16 m ρ c)
theorem V2_arg17 (c : Dev nD) : V2 m ρ c main_arg17 = m ((c : Thread nD τ).loc main_arg17) :=
  ((W3_arr m ρ c 3).trans (((dat1 (V2 m ρ) c).arrAt_in 3 rfl _).trans (A_eq1 (V2 m ρ) c 3))).symm.trans (W3_main_arg17 m ρ c)
theorem V2_arg18 (c : Dev nD) : V2 m ρ c main_arg18 = m ((c : Thread nD τ).loc main_arg18) :=
  ((W3_arr m ρ c 4).trans (((dat1 (V2 m ρ) c).arrAt_in 4 rfl _).trans (A_eq1 (V2 m ρ) c 4))).symm.trans (W3_main_arg18 m ρ c)
theorem V2_arg19 (c : Dev nD) : V2 m ρ c main_arg19 = m ((c : Thread nD τ).loc main_arg19) :=
  ((W3_arr m ρ c 5).trans (((dat1 (V2 m ρ) c).arrAt_in 5 rfl _).trans (A_eq1 (V2 m ρ) c 5))).symm.trans (W3_main_arg19 m ρ c)
theorem V2_arg22 (c : Dev nD) : V2 m ρ c main_arg22 = m ((c : Thread nD τ).loc main_arg22) :=
  ((W3_arr m ρ c 6).trans (((dat1 (V2 m ρ) c).arrAt_in 6 rfl _).trans (A_eq1 (V2 m ρ) c 6))).symm.trans (W3_main_arg22 m ρ c)
theorem V2_arg23 (c : Dev nD) : V2 m ρ c main_arg23 = m ((c : Thread nD τ).loc main_arg23) :=
  ((W3_arr m ρ c 7).trans (((dat1 (V2 m ρ) c).arrAt_in 7 rfl _).trans (A_eq1 (V2 m ρ) c 7))).symm.trans (W3_main_arg23 m ρ c)

/-! ## The last boundary at the five result buffers -/

theorem W3_v181_0 (c : Dev nD) : W3 m ρ c (Proc.devRef .tc main_v181_0) = stuTs m c :=
  (W3_arr m ρ c 9).trans ((final1_9 (V2 m ρ) c).trans
    (S9_congr (V2_v165 m ρ c) (V2_arg16 m ρ c) (V2_arg17 m ρ c) (V2_v180 m ρ c)))
theorem W3_v181_1 (c : Dev nD) : W3 m ρ c (Proc.devRef .tc main_v181_1) = diffTs m c :=
  (W3_arr m ρ c 10).trans ((final1_10 (V2 m ρ) c).trans
    (S9_congr (V2_v172 m ρ c) (V2_arg18 m ρ c) (V2_arg19 m ρ c) (V2_v180 m ρ c)))
theorem W3_v181_2 (c : Dev nD) : W3 m ρ c (Proc.devRef .tc main_v181_2) = discTs m c :=
  (W3_arr m ρ c 11).trans ((final1_11 (V2 m ρ) c).trans
    (D11_congr (V2_v172 m ρ c) (V2_arg22 m ρ c) (V2_arg23 m ρ c)))
theorem W3_v180 (c : Dev nD) : W3 m ρ c (Proc.devRef .tc main_v180) = knowTs m c :=
  ((W3_arr m ρ c 8).trans (((dat1 (V2 m ρ) c).arrAt_in 8 rfl _).trans (A_eq1 (V2 m ρ) c 8))).trans (V2_v180 m ρ c)
theorem W3_v179 (c : Dev nD) : W3 m ρ c (Proc.devRef .tc main_v179) = Cert.Spec.impact (F := Ideal) (m ((c : Thread nD τ).loc main_arg1)) (m ((c : Thread nD τ).loc main_arg6)) :=
  (W3_of_ne m ρ c main_v179 (by decide)).trans ((W2_of_ne m ρ c main_v179 (by decide)).trans (Cert.KernelIdeal.KPrefix.W1_v179 m ρ c))

/-! ## The run -/

/-- Every weakly fair execution of the idealized kernel program terminates, nothing faulting, with the five results at
    the functions above of the launch arrays and the arguments unchanged. -/
theorem run : θ_run defs (onTc (τ := τ) (main (F := Ideal))) ⟨m, fun _ => 0, ρ⟩ (fun r => ∀ c : Dev nD,
      r.2.mem ((c.tc : Thread nD τ).loc main_v181_0) = stuTs m c
      ∧ r.2.mem ((c.tc : Thread nD τ).loc main_v181_1) = diffTs m c
      ∧ r.2.mem ((c.tc : Thread nD τ).loc main_v181_2) = discTs m c
      ∧ r.2.mem ((c.tc : Thread nD τ).loc main_v180) = knowTs m c
      ∧ r.2.mem ((c.tc : Thread nD τ).loc main_v179) = Cert.Spec.impact (F := Ideal) (m ((c.tc : Thread nD τ).loc main_arg1)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun r h c =>
    ⟨(h c _ (mem_uc main_v181_0 (by decide))).trans (W3_v181_0 m ρ c),
     (h c _ (mem_uc main_v181_1 (by decide))).trans (W3_v181_1 m ρ c),
     (h c _ (mem_uc main_v181_2 (by decide))).trans (W3_v181_2 m ρ c),
     (h c _ (mem_uc main_v180 (by decide))).trans (W3_v180 m ρ c),
     (h c _ (mem_uc main_v179 (by decide))).trans (W3_v179 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c),
     (h c _ (mem_uc main_arg7 (by decide))).trans (W3_main_arg7 m ρ c),
     (h c _ (mem_uc main_arg8 (by decide))).trans (W3_main_arg8 m ρ c),
     (h c _ (mem_uc main_arg9 (by decide))).trans (W3_main_arg9 m ρ c),
     (h c _ (mem_uc main_arg10 (by decide))).trans (W3_main_arg10 m ρ c),
     (h c _ (mem_uc main_arg11 (by decide))).trans (W3_main_arg11 m ρ c),
     (h c _ (mem_uc main_arg12 (by decide))).trans (W3_main_arg12 m ρ c),
     (h c _ (mem_uc main_arg13 (by decide))).trans (W3_main_arg13 m ρ c),
     (h c _ (mem_uc main_arg14 (by decide))).trans (W3_main_arg14 m ρ c),
     (h c _ (mem_uc main_arg15 (by decide))).trans (W3_main_arg15 m ρ c),
     (h c _ (mem_uc main_arg16 (by decide))).trans (W3_main_arg16 m ρ c),
     (h c _ (mem_uc main_arg17 (by decide))).trans (W3_main_arg17 m ρ c),
     (h c _ (mem_uc main_arg18 (by decide))).trans (W3_main_arg18 m ρ c),
     (h c _ (mem_uc main_arg19 (by decide))).trans (W3_main_arg19 m ρ c),
     (h c _ (mem_uc main_arg20 (by decide))).trans (W3_main_arg20 m ρ c),
     (h c _ (mem_uc main_arg21 (by decide))).trans (W3_main_arg21 m ρ c),
     (h c _ (mem_uc main_arg22 (by decide))).trans (W3_main_arg22 m ρ c),
     (h c _ (mem_uc main_arg23 (by decide))).trans (W3_main_arg23 m ρ c)⟩)
    (Cert.KernelIdeal.KRun.run_W3 m ρ)

end Cert.KernelIdeal.KValue

end
-- ==== Proof.RefRun.lean ====
/- The reference program's run, written out: @main as the list of its host operations (the three calls of
   the leaky-relu helpers inlined at their call sites over each call's own buffers), and the statement that every
   weakly fair execution ends with each buffer at the fold of the operations' results over the launch contents. -/
import proofs.«140787_j71700184039602_1_alg».proof.Proof.Gen.ReferenceIdeal
import Idealize.ShloMosaic.Lib.StableHlo.Run
import proofs.«140787_j71700184039602_1_alg».proof.Proof.Spec

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F] [Cert.KernelIdeal.Facts₀] [Cert.ReferenceIdeal.Facts]

/-- The fold over a concatenation is the fold over the second list from the fold over the first. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- @main's statements 1 … 60: 60 operations. -/
abbrev ops0 : List (HloOp τ sig (Elt F)) :=
  [ unary main_arg9 main_v0 (broadcastInDim S1600000x1 ![0] bcast_S1600000_S1600000x1_0 : (⟨S1600000, .f32⟩ : BufTy).Contents (Elt F) → (⟨S1600000x1, .f32⟩ : BufTy).Contents (Elt F)),
    nullary main_c (constantI S_ 32 0#32),
    unary main_c main_v1 (broadcastInDim S1600000 ![] bcast_S_S1600000 : (⟨S_, .i32⟩ : BufTy).Contents (Elt F) → (⟨S1600000, .i32⟩ : BufTy).Contents (Elt F)),
    binary main_arg8 main_v1 main_v2 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v3 (broadcastInDim S1600000 ![] bcast_S_S1600000 : (⟨S_, .i32⟩ : BufTy).Contents (Elt F) → (⟨S1600000, .i32⟩ : BufTy).Contents (Elt F)),
    binary main_arg8 main_v3 main_v4 (addi : (⟨S1600000, .i32⟩ : BufTy).Contents (Elt F) → (⟨S1600000, .i32⟩ : BufTy).Contents (Elt F) → (⟨S1600000, .i32⟩ : BufTy).Contents (Elt F)),
    ternary main_v2 main_v4 main_arg8 main_v5 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v5 main_v6 (broadcastInDim S1600000x1 ![0] bcast_S1600000_S1600000x1_0 : (⟨S1600000, .i32⟩ : BufTy).Contents (Elt F) → (⟨S1600000x1, .i32⟩ : BufTy).Contents (Elt F)),
    binary main_arg3 main_v6 main_v7 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v0 main_v8 (broadcastInDim S1600000x64 ![0, 1] bcast_S1600000x1_S1600000x64_0_1 : (⟨S1600000x1, .f32⟩ : BufTy).Contents (Elt F) → (⟨S1600000x64, .f32⟩ : BufTy).Contents (Elt F)),
    binary main_v8 main_v7 main_v9 (mulf : (⟨S1600000x64, .f32⟩ : BufTy).Contents (Elt F) → (⟨S1600000x64, .f32⟩ : BufTy).Contents (Elt F) → (⟨S1600000x64, .f32⟩ : BufTy).Contents (Elt F)),
    nullary main_cst (constant S_ .f32 0x00000000#32),
    unary main_cst main_v10 (broadcastInDim S100000x64 ![] bcast_S_S100000x64 : (⟨S_, .f32⟩ : BufTy).Contents (Elt F) → (⟨S100000x64, .f32⟩ : BufTy).Contents (Elt F)),
    unary main_arg7 main_v11 (broadcastInDim S1600000x1 ![0] bcast_S1600000_S1600000x1_0 : (⟨S1600000, .i32⟩ : BufTy).Contents (Elt F) → (⟨S1600000x1, .i32⟩ : BufTy).Contents (Elt F)),
    ternary main_v10 main_v11 main_v9 main_v12 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_1 (constant S_ .f32 0x3F666666#32),
    unary main_cst_1 main_v13 (broadcastInDim S100000x64 ![] bcast_S_S100000x64 : (⟨S_, .f32⟩ : BufTy).Contents (Elt F) → (⟨S100000x64, .f32⟩ : BufTy).Contents (Elt F)),
    binary main_v13 main_arg3 main_v14 (mulf : (⟨S100000x64, .f32⟩ : BufTy).Contents (Elt F) → (⟨S100000x64, .f32⟩ : BufTy).Contents (Elt F) → (⟨S100000x64, .f32⟩ : BufTy).Contents (Elt F)),
    binary main_v12 main_v14 main_v15 (addf : (⟨S100000x64, .f32⟩ : BufTy).Contents (Elt F) → (⟨S100000x64, .f32⟩ : BufTy).Contents (Elt F) → (⟨S100000x64, .f32⟩ : BufTy).Contents (Elt F)),
    binary main_arg3 main_v15 main_v16 (addf : (⟨S100000x64, .f32⟩ : BufTy).Contents (Elt F) → (⟨S100000x64, .f32⟩ : BufTy).Contents (Elt F) → (⟨S100000x64, .f32⟩ : BufTy).Contents (Elt F)),
    unary main_arg9 main_v17 (broadcastInDim S1600000x1 ![0] bcast_S1600000_S1600000x1_0 : (⟨S1600000, .f32⟩ : BufTy).Contents (Elt F) → (⟨S1600000x1, .f32⟩ : BufTy).Contents (Elt F)),
    nullary main_c_2 (constantI S_ 32 0#32),
    unary main_c_2 main_v18 (broadcastInDim S1600000 ![] bcast_S_S1600000 : (⟨S_, .i32⟩ : BufTy).Contents (Elt F) → (⟨S1600000, .i32⟩ : BufTy).Contents (Elt F)),
    binary main_arg8 main_v18 main_v19 (cmpi .slt : (⟨S1600000, .i32⟩ : BufTy).Contents (Elt F) → (⟨S1600000, .i32⟩ : BufTy).Contents (Elt F) → (⟨S1600000, .i1⟩ : BufTy).Contents (Elt F)),
    nullary main_c_3 (constantI S_ 32 100000#32),
    unary main_c_3 main_v20 (broadcastInDim S1600000 ![] bcast_S_S1600000 : (⟨S_, .i32⟩ : BufTy).Contents (Elt F) → (⟨S1600000, .i32⟩ : BufTy).Contents (Elt F)),
    binary main_arg8 main_v20 main_v21 (addi : (⟨S1600000, .i32⟩ : BufTy).Contents (Elt F) → (⟨S1600000, .i32⟩ : BufTy).Contents (Elt F) → (⟨S1600000, .i32⟩ : BufTy).Contents (Elt F)),
    ternary main_v19 main_v21 main_arg8 main_v22 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v22 main_v23 (broadcastInDim S1600000x1 ![0] bcast_S1600000_S1600000x1_0 : (⟨S1600000, .i32⟩ : BufTy).Contents (Elt F) → (⟨S1600000x1, .i32⟩ : BufTy).Contents (Elt F)),
    binary main_v15 main_v23 main_v24 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v17 main_v25 (broadcastInDim S1600000x64 ![0, 1] bcast_S1600000x1_S1600000x64_0_1 : (⟨S1600000x1, .f32⟩ : BufTy).Contents (Elt F) → (⟨S1600000x64, .f32⟩ : BufTy).Contents (Elt F)),
    binary main_v25 main_v24 main_v26 (mulf : (⟨S1600000x64, .f32⟩ : BufTy).Contents (Elt F) → (⟨S1600000x64, .f32⟩ : BufTy).Contents (Elt F) → (⟨S1600000x64, .f32⟩ : BufTy).Contents (Elt F)),
    nullary main_cst_4 (constant S_ .f32 0x00000000#32),
    unary main_cst_4 main_v27 (broadcastInDim S100000x64 ![] bcast_S_S100000x64 : (⟨S_, .f32⟩ : BufTy).Contents (Elt F) → (⟨S100000x64, .f32⟩ : BufTy).Contents (Elt F)),
    unary main_arg7 main_v28 (broadcastInDim S1600000x1 ![0] bcast_S1600000_S1600000x1_0 : (⟨S1600000, .i32⟩ : BufTy).Contents (Elt F) → (⟨S1600000x1, .i32⟩ : BufTy).Contents (Elt F)),
    ternary main_v27 main_v28 main_v26 main_v29 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_5 (constant S_ .f32 0x3F666666#32),
    unary main_cst_5 main_v30 (broadcastInDim S100000x64 ![] bcast_S_S100000x64 : (⟨S_, .f32⟩ : BufTy).Contents (Elt F) → (⟨S100000x64, .f32⟩ : BufTy).Contents (Elt F)),
    binary main_v30 main_v15 main_v31 (mulf : (⟨S100000x64, .f32⟩ : BufTy).Contents (Elt F) → (⟨S100000x64, .f32⟩ : BufTy).Contents (Elt F) → (⟨S100000x64, .f32⟩ : BufTy).Contents (Elt F)),
    binary main_v29 main_v31 main_v32 (addf : (⟨S100000x64, .f32⟩ : BufTy).Contents (Elt F) → (⟨S100000x64, .f32⟩ : BufTy).Contents (Elt F) → (⟨S100000x64, .f32⟩ : BufTy).Contents (Elt F)),
    binary main_v16 main_v32 main_v33 (addf : (⟨S100000x64, .f32⟩ : BufTy).Contents (Elt F) → (⟨S100000x64, .f32⟩ : BufTy).Contents (Elt F) → (⟨S100000x64, .f32⟩ : BufTy).Contents (Elt F)),
    unary main_arg9 main_v34 (broadcastInDim S1600000x1 ![0] bcast_S1600000_S1600000x1_0 : (⟨S1600000, .f32⟩ : BufTy).Contents (Elt F) → (⟨S1600000x1, .f32⟩ : BufTy).Contents (Elt F)),
    nullary main_c_6 (constantI S_ 32 0#32),
    unary main_c_6 main_v35 (broadcastInDim S1600000 ![] bcast_S_S1600000 : (⟨S_, .i32⟩ : BufTy).Contents (Elt F) → (⟨S1600000, .i32⟩ : BufTy).Contents (Elt F)),
    binary main_arg8 main_v35 main_v36 (cmpi .slt : (⟨S1600000, .i32⟩ : BufTy).Contents (Elt F) → (⟨S1600000, .i32⟩ : BufTy).Contents (Elt F) → (⟨S1600000, .i1⟩ : BufTy).Contents (Elt F)),
    nullary main_c_7 (constantI S_ 32 100000#32),
    unary main_c_7 main_v37 (broadcastInDim S1600000 ![] bcast_S_S1600000 : (⟨S_, .i32⟩ : BufTy).Contents (Elt F) → (⟨S1600000, .i32⟩ : BufTy).Contents (Elt F)),
    binary main_arg8 main_v37 main_v38 (addi : (⟨S1600000, .i32⟩ : BufTy).Contents (Elt F) → (⟨S1600000, .i32⟩ : BufTy).Contents (Elt F) → (⟨S1600000, .i32⟩ : BufTy).Contents (Elt F)),
    ternary main_v36 main_v38 main_arg8 main_v39 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v39 main_v40 (broadcastInDim S1600000x1 ![0] bcast_S1600000_S1600000x1_0 : (⟨S1600000, .i32⟩ : BufTy).Contents (Elt F) → (⟨S1600000x1, .i32⟩ : BufTy).Contents (Elt F)),
    binary main_v32 main_v40 main_v41 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v34 main_v42 (broadcastInDim S1600000x64 ![0, 1] bcast_S1600000x1_S1600000x64_0_1 : (⟨S1600000x1, .f32⟩ : BufTy).Contents (Elt F) → (⟨S1600000x64, .f32⟩ : BufTy).Contents (Elt F)),
    binary main_v42 main_v41 main_v43 (mulf : (⟨S1600000x64, .f32⟩ : BufTy).Contents (Elt F) → (⟨S1600000x64, .f32⟩ : BufTy).Contents (Elt F) → (⟨S1600000x64, .f32⟩ : BufTy).Contents (Elt F)),
    nullary main_cst_8 (constant S_ .f32 0x00000000#32),
    unary main_cst_8 main_v44 (broadcastInDim S100000x64 ![] bcast_S_S100000x64 : (⟨S_, .f32⟩ : BufTy).Contents (Elt F) → (⟨S100000x64, .f32⟩ : BufTy).Contents (Elt F)),
    unary main_arg7 main_v45 (broadcastInDim S1600000x1 ![0] bcast_S1600000_S1600000x1_0 : (⟨S1600000, .i32⟩ : BufTy).Contents (Elt F) → (⟨S1600000x1, .i32⟩ : BufTy).Contents (Elt F)),
    ternary main_v44 main_v45 main_v43 main_v46 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_9 (constant S_ .f32 0x3F666666#32),
    unary main_cst_9 main_v47 (broadcastInDim S100000x64 ![] bcast_S_S100000x64 : (⟨S_, .f32⟩ : BufTy).Contents (Elt F) → (⟨S100000x64, .f32⟩ : BufTy).Contents (Elt F)) ]

/-- @main's statements 61 … 120: 60 operations. -/
abbrev ops1 : List (HloOp τ sig (Elt F)) :=
  [ binary main_v47 main_v32 main_v48 (mulf : (⟨S100000x64, .f32⟩ : BufTy).Contents (Elt F) → (⟨S100000x64, .f32⟩ : BufTy).Contents (Elt F) → (⟨S100000x64, .f32⟩ : BufTy).Contents (Elt F)),
    binary main_v46 main_v48 main_v49 (addf : (⟨S100000x64, .f32⟩ : BufTy).Contents (Elt F) → (⟨S100000x64, .f32⟩ : BufTy).Contents (Elt F) → (⟨S100000x64, .f32⟩ : BufTy).Contents (Elt F)),
    binary main_v33 main_v49 main_v50 (addf : (⟨S100000x64, .f32⟩ : BufTy).Contents (Elt F) → (⟨S100000x64, .f32⟩ : BufTy).Contents (Elt F) → (⟨S100000x64, .f32⟩ : BufTy).Contents (Elt F)),
    nullary main_cst_10 (constant S_ .f32 0x40800000#32),
    unary main_cst_10 main_v51 (broadcastInDim S100000x64 ![] bcast_S_S100000x64 : (⟨S_, .f32⟩ : BufTy).Contents (Elt F) → (⟨S100000x64, .f32⟩ : BufTy).Contents (Elt F)),
    binary main_v50 main_v51 main_v52 (Host.divf : (⟨S100000x64, .f32⟩ : BufTy).Contents (Elt F) → (⟨S100000x64, .f32⟩ : BufTy).Contents (Elt F) → (⟨S100000x64, .f32⟩ : BufTy).Contents (Elt F)),
    unary main_arg12 main_v53 (broadcastInDim S480000x1 ![0] bcast_S480000_S480000x1_0 : (⟨S480000, .f32⟩ : BufTy).Contents (Elt F) → (⟨S480000x1, .f32⟩ : BufTy).Contents (Elt F)),
    nullary main_c_11 (constantI S_ 32 0#32),
    unary main_c_11 main_v54 (broadcastInDim S480000 ![] bcast_S_S480000 : (⟨S_, .i32⟩ : BufTy).Contents (Elt F) → (⟨S480000, .i32⟩ : BufTy).Contents (Elt F)),
    binary main_arg11 main_v54 main_v55 (cmpi .slt : (⟨S480000, .i32⟩ : BufTy).Contents (Elt F) → (⟨S480000, .i32⟩ : BufTy).Contents (Elt F) → (⟨S480000, .i1⟩ : BufTy).Contents (Elt F)),
    nullary main_c_12 (constantI S_ 32 30000#32),
    unary main_c_12 main_v56 (broadcastInDim S480000 ![] bcast_S_S480000 : (⟨S_, .i32⟩ : BufTy).Contents (Elt F) → (⟨S480000, .i32⟩ : BufTy).Contents (Elt F)),
    binary main_arg11 main_v56 main_v57 (addi : (⟨S480000, .i32⟩ : BufTy).Contents (Elt F) → (⟨S480000, .i32⟩ : BufTy).Contents (Elt F) → (⟨S480000, .i32⟩ : BufTy).Contents (Elt F)),
    ternary main_v55 main_v57 main_arg11 main_v58 (select : (⟨S480000, .i1⟩ : BufTy).Contents (Elt F) → (⟨S480000, .i32⟩ : BufTy).Contents (Elt F) → (⟨S480000, .i32⟩ : BufTy).Contents (Elt F) → (⟨S480000, .i32⟩ : BufTy).Contents (Elt F)),
    unary main_v58 main_v59 (broadcastInDim S480000x1 ![0] bcast_S480000_S480000x1_0 : (⟨S480000, .i32⟩ : BufTy).Contents (Elt F) → (⟨S480000x1, .i32⟩ : BufTy).Contents (Elt F)),
    binary main_arg4 main_v59 main_v60 ((fun x i => Host.gather gather_S30000x64_S480000x1_S480000x64_1_0_n_n_0_1_164 x i) : (⟨S30000x64, .f32⟩ : BufTy).Contents (Elt F) → (⟨S480000x1, .i32⟩ : BufTy).Contents (Elt F) → (⟨S480000x64, .f32⟩ : BufTy).Contents (Elt F)),
    unary main_v53 main_v61 (broadcastInDim S480000x64 ![0, 1] bcast_S480000x1_S480000x64_0_1 : (⟨S480000x1, .f32⟩ : BufTy).Contents (Elt F) → (⟨S480000x64, .f32⟩ : BufTy).Contents (Elt F)),
    binary main_v61 main_v60 main_v62 (mulf : (⟨S480000x64, .f32⟩ : BufTy).Contents (Elt F) → (⟨S480000x64, .f32⟩ : BufTy).Contents (Elt F) → (⟨S480000x64, .f32⟩ : BufTy).Contents (Elt F)),
    nullary main_cst_13 (constant S_ .f32 0x00000000#32),
    unary main_cst_13 main_v63 (broadcastInDim S30000x64 ![] bcast_S_S30000x64 : (⟨S_, .f32⟩ : BufTy).Contents (Elt F) → (⟨S30000x64, .f32⟩ : BufTy).Contents (Elt F)),
    unary main_arg10 main_v64 (broadcastInDim S480000x1 ![0] bcast_S480000_S480000x1_0 : (⟨S480000, .i32⟩ : BufTy).Contents (Elt F) → (⟨S480000x1, .i32⟩ : BufTy).Contents (Elt F)),
    ternary main_v63 main_v64 main_v62 main_v65 ((fun x i u => Host.scatterAdd scatter_S30000x64_S480000x1_S480000x64_1_0_0_1 x i u) : (⟨S30000x64, .f32⟩ : BufTy).Contents (Elt F) → (⟨S480000x1, .i32⟩ : BufTy).Contents (Elt F) → (⟨S480000x64, .f32⟩ : BufTy).Contents (Elt F) → (⟨S30000x64, .f32⟩ : BufTy).Contents (Elt F)),
    nullary main_cst_14 (constant S_ .f32 0x3F666666#32),
    unary main_cst_14 main_v66 (broadcastInDim S30000x64 ![] bcast_S_S30000x64 : (⟨S_, .f32⟩ : BufTy).Contents (Elt F) → (⟨S30000x64, .f32⟩ : BufTy).Contents (Elt F)),
    binary main_v66 main_arg4 main_v67 (mulf : (⟨S30000x64, .f32⟩ : BufTy).Contents (Elt F) → (⟨S30000x64, .f32⟩ : BufTy).Contents (Elt F) → (⟨S30000x64, .f32⟩ : BufTy).Contents (Elt F)),
    binary main_v65 main_v67 main_v68 (addf : (⟨S30000x64, .f32⟩ : BufTy).Contents (Elt F) → (⟨S30000x64, .f32⟩ : BufTy).Contents (Elt F) → (⟨S30000x64, .f32⟩ : BufTy).Contents (Elt F)),
    binary main_arg4 main_v68 main_v69 (addf : (⟨S30000x64, .f32⟩ : BufTy).Contents (Elt F) → (⟨S30000x64, .f32⟩ : BufTy).Contents (Elt F) → (⟨S30000x64, .f32⟩ : BufTy).Contents (Elt F)),
    unary main_arg12 main_v70 (broadcastInDim S480000x1 ![0] bcast_S480000_S480000x1_0 : (⟨S480000, .f32⟩ : BufTy).Contents (Elt F) → (⟨S480000x1, .f32⟩ : BufTy).Contents (Elt F)),
    nullary main_c_15 (constantI S_ 32 0#32),
    unary main_c_15 main_v71 (broadcastInDim S480000 ![] bcast_S_S480000 : (⟨S_, .i32⟩ : BufTy).Contents (Elt F) → (⟨S480000, .i32⟩ : BufTy).Contents (Elt F)),
    binary main_arg11 main_v71 main_v72 (cmpi .slt : (⟨S480000, .i32⟩ : BufTy).Contents (Elt F) → (⟨S480000, .i32⟩ : BufTy).Contents (Elt F) → (⟨S480000, .i1⟩ : BufTy).Contents (Elt F)),
    nullary main_c_16 (constantI S_ 32 30000#32),
    unary main_c_16 main_v73 (broadcastInDim S480000 ![] bcast_S_S480000 : (⟨S_, .i32⟩ : BufTy).Contents (Elt F) → (⟨S480000, .i32⟩ : BufTy).Contents (Elt F)),
    binary main_arg11 main_v73 main_v74 (addi : (⟨S480000, .i32⟩ : BufTy).Contents (Elt F) → (⟨S480000, .i32⟩ : BufTy).Contents (Elt F) → (⟨S480000, .i32⟩ : BufTy).Contents (Elt F)),
    ternary main_v72 main_v74 main_arg11 main_v75 (select : (⟨S480000, .i1⟩ : BufTy).Contents (Elt F) → (⟨S480000, .i32⟩ : BufTy).Contents (Elt F) → (⟨S480000, .i32⟩ : BufTy).Contents (Elt F) → (⟨S480000, .i32⟩ : BufTy).Contents (Elt F)),
    unary main_v75 main_v76 (broadcastInDim S480000x1 ![0] bcast_S480000_S480000x1_0 : (⟨S480000, .i32⟩ : BufTy).Contents (Elt F) → (⟨S480000x1, .i32⟩ : BufTy).Contents (Elt F)),
    binary main_v68 main_v76 main_v77 ((fun x i => Host.gather gather_S30000x64_S480000x1_S480000x64_1_0_n_n_0_1_164 x i) : (⟨S30000x64, .f32⟩ : BufTy).Contents (Elt F) → (⟨S480000x1, .i32⟩ : BufTy).Contents (Elt F) → (⟨S480000x64, .f32⟩ : BufTy).Contents (Elt F)),
    unary main_v70 main_v78 (broadcastInDim S480000x64 ![0, 1] bcast_S480000x1_S480000x64_0_1 : (⟨S480000x1, .f32⟩ : BufTy).Contents (Elt F) → (⟨S480000x64, .f32⟩ : BufTy).Contents (Elt F)),
    binary main_v78 main_v77 main_v79 (mulf : (⟨S480000x64, .f32⟩ : BufTy).Contents (Elt F) → (⟨S480000x64, .f32⟩ : BufTy).Contents (Elt F) → (⟨S480000x64, .f32⟩ : BufTy).Contents (Elt F)),
    nullary main_cst_17 (constant S_ .f32 0x00000000#32),
    unary main_cst_17 main_v80 (broadcastInDim S30000x64 ![] bcast_S_S30000x64 : (⟨S_, .f32⟩ : BufTy).Contents (Elt F) → (⟨S30000x64, .f32⟩ : BufTy).Contents (Elt F)),
    unary main_arg10 main_v81 (broadcastInDim S480000x1 ![0] bcast_S480000_S480000x1_0 : (⟨S480000, .i32⟩ : BufTy).Contents (Elt F) → (⟨S480000x1, .i32⟩ : BufTy).Contents (Elt F)),
    ternary main_v80 main_v81 main_v79 main_v82 ((fun x i u => Host.scatterAdd scatter_S30000x64_S480000x1_S480000x64_1_0_0_1 x i u) : (⟨S30000x64, .f32⟩ : BufTy).Contents (Elt F) → (⟨S480000x1, .i32⟩ : BufTy).Contents (Elt F) → (⟨S480000x64, .f32⟩ : BufTy).Contents (Elt F) → (⟨S30000x64, .f32⟩ : BufTy).Contents (Elt F)),
    nullary main_cst_18 (constant S_ .f32 0x3F666666#32),
    unary main_cst_18 main_v83 (broadcastInDim S30000x64 ![] bcast_S_S30000x64 : (⟨S_, .f32⟩ : BufTy).Contents (Elt F) → (⟨S30000x64, .f32⟩ : BufTy).Contents (Elt F)),
    binary main_v83 main_v68 main_v84 (mulf : (⟨S30000x64, .f32⟩ : BufTy).Contents (Elt F) → (⟨S30000x64, .f32⟩ : BufTy).Contents (Elt F) → (⟨S30000x64, .f32⟩ : BufTy).Contents (Elt F)),
    binary main_v82 main_v84 main_v85 (addf : (⟨S30000x64, .f32⟩ : BufTy).Contents (Elt F) → (⟨S30000x64, .f32⟩ : BufTy).Contents (Elt F) → (⟨S30000x64, .f32⟩ : BufTy).Contents (Elt F)),
    binary main_v69 main_v85 main_v86 (addf : (⟨S30000x64, .f32⟩ : BufTy).Contents (Elt F) → (⟨S30000x64, .f32⟩ : BufTy).Contents (Elt F) → (⟨S30000x64, .f32⟩ : BufTy).Contents (Elt F)),
    unary main_arg12 main_v87 (broadcastInDim S480000x1 ![0] bcast_S480000_S480000x1_0 : (⟨S480000, .f32⟩ : BufTy).Contents (Elt F) → (⟨S480000x1, .f32⟩ : BufTy).Contents (Elt F)),
    nullary main_c_19 (constantI S_ 32 0#32),
    unary main_c_19 main_v88 (broadcastInDim S480000 ![] bcast_S_S480000 : (⟨S_, .i32⟩ : BufTy).Contents (Elt F) → (⟨S480000, .i32⟩ : BufTy).Contents (Elt F)),
    binary main_arg11 main_v88 main_v89 (cmpi .slt : (⟨S480000, .i32⟩ : BufTy).Contents (Elt F) → (⟨S480000, .i32⟩ : BufTy).Contents (Elt F) → (⟨S480000, .i1⟩ : BufTy).Contents (Elt F)),
    nullary main_c_20 (constantI S_ 32 30000#32),
    unary main_c_20 main_v90 (broadcastInDim S480000 ![] bcast_S_S480000 : (⟨S_, .i32⟩ : BufTy).Contents (Elt F) → (⟨S480000, .i32⟩ : BufTy).Contents (Elt F)),
    binary main_arg11 main_v90 main_v91 (addi : (⟨S480000, .i32⟩ : BufTy).Contents (Elt F) → (⟨S480000, .i32⟩ : BufTy).Contents (Elt F) → (⟨S480000, .i32⟩ : BufTy).Contents (Elt F)),
    ternary main_v89 main_v91 main_arg11 main_v92 (select : (⟨S480000, .i1⟩ : BufTy).Contents (Elt F) → (⟨S480000, .i32⟩ : BufTy).Contents (Elt F) → (⟨S480000, .i32⟩ : BufTy).Contents (Elt F) → (⟨S480000, .i32⟩ : BufTy).Contents (Elt F)),
    unary main_v92 main_v93 (broadcastInDim S480000x1 ![0] bcast_S480000_S480000x1_0 : (⟨S480000, .i32⟩ : BufTy).Contents (Elt F) → (⟨S480000x1, .i32⟩ : BufTy).Contents (Elt F)),
    binary main_v85 main_v93 main_v94 ((fun x i => Host.gather gather_S30000x64_S480000x1_S480000x64_1_0_n_n_0_1_164 x i) : (⟨S30000x64, .f32⟩ : BufTy).Contents (Elt F) → (⟨S480000x1, .i32⟩ : BufTy).Contents (Elt F) → (⟨S480000x64, .f32⟩ : BufTy).Contents (Elt F)),
    unary main_v87 main_v95 (broadcastInDim S480000x64 ![0, 1] bcast_S480000x1_S480000x64_0_1 : (⟨S480000x1, .f32⟩ : BufTy).Contents (Elt F) → (⟨S480000x64, .f32⟩ : BufTy).Contents (Elt F)),
    binary main_v95 main_v94 main_v96 (mulf : (⟨S480000x64, .f32⟩ : BufTy).Contents (Elt F) → (⟨S480000x64, .f32⟩ : BufTy).Contents (Elt F) → (⟨S480000x64, .f32⟩ : BufTy).Contents (Elt F)) ]

/-- @main's statements 121 … 180: 60 operations. -/
abbrev ops2 : List (HloOp τ sig (Elt F)) :=
  [ nullary main_cst_21 (constant S_ .f32 0x00000000#32),
    unary main_cst_21 main_v97 (broadcastInDim S30000x64 ![] bcast_S_S30000x64 : (⟨S_, .f32⟩ : BufTy).Contents (Elt F) → (⟨S30000x64, .f32⟩ : BufTy).Contents (Elt F)),
    unary main_arg10 main_v98 (broadcastInDim S480000x1 ![0] bcast_S480000_S480000x1_0 : (⟨S480000, .i32⟩ : BufTy).Contents (Elt F) → (⟨S480000x1, .i32⟩ : BufTy).Contents (Elt F)),
    ternary main_v97 main_v98 main_v96 main_v99 ((fun x i u => Host.scatterAdd scatter_S30000x64_S480000x1_S480000x64_1_0_0_1 x i u) : (⟨S30000x64, .f32⟩ : BufTy).Contents (Elt F) → (⟨S480000x1, .i32⟩ : BufTy).Contents (Elt F) → (⟨S480000x64, .f32⟩ : BufTy).Contents (Elt F) → (⟨S30000x64, .f32⟩ : BufTy).Contents (Elt F)),
    nullary main_cst_22 (constant S_ .f32 0x3F666666#32),
    unary main_cst_22 main_v100 (broadcastInDim S30000x64 ![] bcast_S_S30000x64 : (⟨S_, .f32⟩ : BufTy).Contents (Elt F) → (⟨S30000x64, .f32⟩ : BufTy).Contents (Elt F)),
    binary main_v100 main_v85 main_v101 (mulf : (⟨S30000x64, .f32⟩ : BufTy).Contents (Elt F) → (⟨S30000x64, .f32⟩ : BufTy).Contents (Elt F) → (⟨S30000x64, .f32⟩ : BufTy).Contents (Elt F)),
    binary main_v99 main_v101 main_v102 (addf : (⟨S30000x64, .f32⟩ : BufTy).Contents (Elt F) → (⟨S30000x64, .f32⟩ : BufTy).Contents (Elt F) → (⟨S30000x64, .f32⟩ : BufTy).Contents (Elt F)),
    binary main_v86 main_v102 main_v103 (addf : (⟨S30000x64, .f32⟩ : BufTy).Contents (Elt F) → (⟨S30000x64, .f32⟩ : BufTy).Contents (Elt F) → (⟨S30000x64, .f32⟩ : BufTy).Contents (Elt F)),
    nullary main_cst_23 (constant S_ .f32 0x40800000#32),
    unary main_cst_23 main_v104 (broadcastInDim S30000x64 ![] bcast_S_S30000x64 : (⟨S_, .f32⟩ : BufTy).Contents (Elt F) → (⟨S30000x64, .f32⟩ : BufTy).Contents (Elt F)),
    binary main_v103 main_v104 main_v105 (Host.divf : (⟨S30000x64, .f32⟩ : BufTy).Contents (Elt F) → (⟨S30000x64, .f32⟩ : BufTy).Contents (Elt F) → (⟨S30000x64, .f32⟩ : BufTy).Contents (Elt F)),
    unary main_arg15 main_v106 (broadcastInDim S32000x1 ![0] bcast_S32000_S32000x1_0 : (⟨S32000, .f32⟩ : BufTy).Contents (Elt F) → (⟨S32000x1, .f32⟩ : BufTy).Contents (Elt F)),
    nullary main_c_24 (constantI S_ 32 0#32),
    unary main_c_24 main_v107 (broadcastInDim S32000 ![] bcast_S_S32000 : (⟨S_, .i32⟩ : BufTy).Contents (Elt F) → (⟨S32000, .i32⟩ : BufTy).Contents (Elt F)),
    binary main_arg14 main_v107 main_v108 (cmpi .slt : (⟨S32000, .i32⟩ : BufTy).Contents (Elt F) → (⟨S32000, .i32⟩ : BufTy).Contents (Elt F) → (⟨S32000, .i1⟩ : BufTy).Contents (Elt F)),
    nullary main_c_25 (constantI S_ 32 1000#32),
    unary main_c_25 main_v109 (broadcastInDim S32000 ![] bcast_S_S32000 : (⟨S_, .i32⟩ : BufTy).Contents (Elt F) → (⟨S32000, .i32⟩ : BufTy).Contents (Elt F)),
    binary main_arg14 main_v109 main_v110 (addi : (⟨S32000, .i32⟩ : BufTy).Contents (Elt F) → (⟨S32000, .i32⟩ : BufTy).Contents (Elt F) → (⟨S32000, .i32⟩ : BufTy).Contents (Elt F)),
    ternary main_v108 main_v110 main_arg14 main_v111 (select : (⟨S32000, .i1⟩ : BufTy).Contents (Elt F) → (⟨S32000, .i32⟩ : BufTy).Contents (Elt F) → (⟨S32000, .i32⟩ : BufTy).Contents (Elt F) → (⟨S32000, .i32⟩ : BufTy).Contents (Elt F)),
    unary main_v111 main_v112 (broadcastInDim S32000x1 ![0] bcast_S32000_S32000x1_0 : (⟨S32000, .i32⟩ : BufTy).Contents (Elt F) → (⟨S32000x1, .i32⟩ : BufTy).Contents (Elt F)),
    binary main_arg5 main_v112 main_v113 ((fun x i => Host.gather gather_S1000x64_S32000x1_S32000x64_1_0_n_n_0_1_164 x i) : (⟨S1000x64, .f32⟩ : BufTy).Contents (Elt F) → (⟨S32000x1, .i32⟩ : BufTy).Contents (Elt F) → (⟨S32000x64, .f32⟩ : BufTy).Contents (Elt F)),
    unary main_v106 main_v114 (broadcastInDim S32000x64 ![0, 1] bcast_S32000x1_S32000x64_0_1 : (⟨S32000x1, .f32⟩ : BufTy).Contents (Elt F) → (⟨S32000x64, .f32⟩ : BufTy).Contents (Elt F)),
    binary main_v114 main_v113 main_v115 (mulf : (⟨S32000x64, .f32⟩ : BufTy).Contents (Elt F) → (⟨S32000x64, .f32⟩ : BufTy).Contents (Elt F) → (⟨S32000x64, .f32⟩ : BufTy).Contents (Elt F)),
    nullary main_cst_26 (constant S_ .f32 0x00000000#32),
    unary main_cst_26 main_v116 (broadcastInDim S1000x64 ![] bcast_S_S1000x64 : (⟨S_, .f32⟩ : BufTy).Contents (Elt F) → (⟨S1000x64, .f32⟩ : BufTy).Contents (Elt F)),
    unary main_arg13 main_v117 (broadcastInDim S32000x1 ![0] bcast_S32000_S32000x1_0 : (⟨S32000, .i32⟩ : BufTy).Contents (Elt F) → (⟨S32000x1, .i32⟩ : BufTy).Contents (Elt F)),
    ternary main_v116 main_v117 main_v115 main_v118 ((fun x i u => Host.scatterAdd scatter_S1000x64_S32000x1_S32000x64_1_0_0_1 x i u) : (⟨S1000x64, .f32⟩ : BufTy).Contents (Elt F) → (⟨S32000x1, .i32⟩ : BufTy).Contents (Elt F) → (⟨S32000x64, .f32⟩ : BufTy).Contents (Elt F) → (⟨S1000x64, .f32⟩ : BufTy).Contents (Elt F)),
    nullary main_cst_27 (constant S_ .f32 0x3F666666#32),
    unary main_cst_27 main_v119 (broadcastInDim S1000x64 ![] bcast_S_S1000x64 : (⟨S_, .f32⟩ : BufTy).Contents (Elt F) → (⟨S1000x64, .f32⟩ : BufTy).Contents (Elt F)),
    binary main_v119 main_arg5 main_v120 (mulf : (⟨S1000x64, .f32⟩ : BufTy).Contents (Elt F) → (⟨S1000x64, .f32⟩ : BufTy).Contents (Elt F) → (⟨S1000x64, .f32⟩ : BufTy).Contents (Elt F)),
    binary main_v118 main_v120 main_v121 (addf : (⟨S1000x64, .f32⟩ : BufTy).Contents (Elt F) → (⟨S1000x64, .f32⟩ : BufTy).Contents (Elt F) → (⟨S1000x64, .f32⟩ : BufTy).Contents (Elt F)),
    binary main_arg5 main_v121 main_v122 (addf : (⟨S1000x64, .f32⟩ : BufTy).Contents (Elt F) → (⟨S1000x64, .f32⟩ : BufTy).Contents (Elt F) → (⟨S1000x64, .f32⟩ : BufTy).Contents (Elt F)),
    unary main_arg15 main_v123 (broadcastInDim S32000x1 ![0] bcast_S32000_S32000x1_0 : (⟨S32000, .f32⟩ : BufTy).Contents (Elt F) → (⟨S32000x1, .f32⟩ : BufTy).Contents (Elt F)),
    nullary main_c_28 (constantI S_ 32 0#32),
    unary main_c_28 main_v124 (broadcastInDim S32000 ![] bcast_S_S32000 : (⟨S_, .i32⟩ : BufTy).Contents (Elt F) → (⟨S32000, .i32⟩ : BufTy).Contents (Elt F)),
    binary main_arg14 main_v124 main_v125 (cmpi .slt : (⟨S32000, .i32⟩ : BufTy).Contents (Elt F) → (⟨S32000, .i32⟩ : BufTy).Contents (Elt F) → (⟨S32000, .i1⟩ : BufTy).Contents (Elt F)),
    nullary main_c_29 (constantI S_ 32 1000#32),
    unary main_c_29 main_v126 (broadcastInDim S32000 ![] bcast_S_S32000 : (⟨S_, .i32⟩ : BufTy).Contents (Elt F) → (⟨S32000, .i32⟩ : BufTy).Contents (Elt F)),
    binary main_arg14 main_v126 main_v127 (addi : (⟨S32000, .i32⟩ : BufTy).Contents (Elt F) → (⟨S32000, .i32⟩ : BufTy).Contents (Elt F) → (⟨S32000, .i32⟩ : BufTy).Contents (Elt F)),
    ternary main_v125 main_v127 main_arg14 main_v128 (select : (⟨S32000, .i1⟩ : BufTy).Contents (Elt F) → (⟨S32000, .i32⟩ : BufTy).Contents (Elt F) → (⟨S32000, .i32⟩ : BufTy).Contents (Elt F) → (⟨S32000, .i32⟩ : BufTy).Contents (Elt F)),
    unary main_v128 main_v129 (broadcastInDim S32000x1 ![0] bcast_S32000_S32000x1_0 : (⟨S32000, .i32⟩ : BufTy).Contents (Elt F) → (⟨S32000x1, .i32⟩ : BufTy).Contents (Elt F)),
    binary main_v121 main_v129 main_v130 ((fun x i => Host.gather gather_S1000x64_S32000x1_S32000x64_1_0_n_n_0_1_164 x i) : (⟨S1000x64, .f32⟩ : BufTy).Contents (Elt F) → (⟨S32000x1, .i32⟩ : BufTy).Contents (Elt F) → (⟨S32000x64, .f32⟩ : BufTy).Contents (Elt F)),
    unary main_v123 main_v131 (broadcastInDim S32000x64 ![0, 1] bcast_S32000x1_S32000x64_0_1 : (⟨S32000x1, .f32⟩ : BufTy).Contents (Elt F) → (⟨S32000x64, .f32⟩ : BufTy).Contents (Elt F)),
    binary main_v131 main_v130 main_v132 (mulf : (⟨S32000x64, .f32⟩ : BufTy).Contents (Elt F) → (⟨S32000x64, .f32⟩ : BufTy).Contents (Elt F) → (⟨S32000x64, .f32⟩ : BufTy).Contents (Elt F)),
    nullary main_cst_30 (constant S_ .f32 0x00000000#32),
    unary main_cst_30 main_v133 (broadcastInDim S1000x64 ![] bcast_S_S1000x64 : (⟨S_, .f32⟩ : BufTy).Contents (Elt F) → (⟨S1000x64, .f32⟩ : BufTy).Contents (Elt F)),
    unary main_arg13 main_v134 (broadcastInDim S32000x1 ![0] bcast_S32000_S32000x1_0 : (⟨S32000, .i32⟩ : BufTy).Contents (Elt F) → (⟨S32000x1, .i32⟩ : BufTy).Contents (Elt F)),
    ternary main_v133 main_v134 main_v132 main_v135 ((fun x i u => Host.scatterAdd scatter_S1000x64_S32000x1_S32000x64_1_0_0_1 x i u) : (⟨S1000x64, .f32⟩ : BufTy).Contents (Elt F) → (⟨S32000x1, .i32⟩ : BufTy).Contents (Elt F) → (⟨S32000x64, .f32⟩ : BufTy).Contents (Elt F) → (⟨S1000x64, .f32⟩ : BufTy).Contents (Elt F)),
    nullary main_cst_31 (constant S_ .f32 0x3F666666#32),
    unary main_cst_31 main_v136 (broadcastInDim S1000x64 ![] bcast_S_S1000x64 : (⟨S_, .f32⟩ : BufTy).Contents (Elt F) → (⟨S1000x64, .f32⟩ : BufTy).Contents (Elt F)),
    binary main_v136 main_v121 main_v137 (mulf : (⟨S1000x64, .f32⟩ : BufTy).Contents (Elt F) → (⟨S1000x64, .f32⟩ : BufTy).Contents (Elt F) → (⟨S1000x64, .f32⟩ : BufTy).Contents (Elt F)),
    binary main_v135 main_v137 main_v138 (addf : (⟨S1000x64, .f32⟩ : BufTy).Contents (Elt F) → (⟨S1000x64, .f32⟩ : BufTy).Contents (Elt F) → (⟨S1000x64, .f32⟩ : BufTy).Contents (Elt F)),
    binary main_v122 main_v138 main_v139 (addf : (⟨S1000x64, .f32⟩ : BufTy).Contents (Elt F) → (⟨S1000x64, .f32⟩ : BufTy).Contents (Elt F) → (⟨S1000x64, .f32⟩ : BufTy).Contents (Elt F)),
    unary main_arg15 main_v140 (broadcastInDim S32000x1 ![0] bcast_S32000_S32000x1_0 : (⟨S32000, .f32⟩ : BufTy).Contents (Elt F) → (⟨S32000x1, .f32⟩ : BufTy).Contents (Elt F)),
    nullary main_c_32 (constantI S_ 32 0#32),
    unary main_c_32 main_v141 (broadcastInDim S32000 ![] bcast_S_S32000 : (⟨S_, .i32⟩ : BufTy).Contents (Elt F) → (⟨S32000, .i32⟩ : BufTy).Contents (Elt F)),
    binary main_arg14 main_v141 main_v142 (cmpi .slt : (⟨S32000, .i32⟩ : BufTy).Contents (Elt F) → (⟨S32000, .i32⟩ : BufTy).Contents (Elt F) → (⟨S32000, .i1⟩ : BufTy).Contents (Elt F)),
    nullary main_c_33 (constantI S_ 32 1000#32),
    unary main_c_33 main_v143 (broadcastInDim S32000 ![] bcast_S_S32000 : (⟨S_, .i32⟩ : BufTy).Contents (Elt F) → (⟨S32000, .i32⟩ : BufTy).Contents (Elt F)) ]

/-- @main's statements 181 … 240, the three calls' bodies in place: 78 operations. -/
abbrev ops3 : List (HloOp τ sig (Elt F)) :=
  [ binary main_arg14 main_v143 main_v144 (addi : (⟨S32000, .i32⟩ : BufTy).Contents (Elt F) → (⟨S32000, .i32⟩ : BufTy).Contents (Elt F) → (⟨S32000, .i32⟩ : BufTy).Contents (Elt F)),
    ternary main_v142 main_v144 main_arg14 main_v145 (select : (⟨S32000, .i1⟩ : BufTy).Contents (Elt F) → (⟨S32000, .i32⟩ : BufTy).Contents (Elt F) → (⟨S32000, .i32⟩ : BufTy).Contents (Elt F) → (⟨S32000, .i32⟩ : BufTy).Contents (Elt F)),
    unary main_v145 main_v146 (broadcastInDim S32000x1 ![0] bcast_S32000_S32000x1_0 : (⟨S32000, .i32⟩ : BufTy).Contents (Elt F) → (⟨S32000x1, .i32⟩ : BufTy).Contents (Elt F)),
    binary main_v138 main_v146 main_v147 ((fun x i => Host.gather gather_S1000x64_S32000x1_S32000x64_1_0_n_n_0_1_164 x i) : (⟨S1000x64, .f32⟩ : BufTy).Contents (Elt F) → (⟨S32000x1, .i32⟩ : BufTy).Contents (Elt F) → (⟨S32000x64, .f32⟩ : BufTy).Contents (Elt F)),
    unary main_v140 main_v148 (broadcastInDim S32000x64 ![0, 1] bcast_S32000x1_S32000x64_0_1 : (⟨S32000x1, .f32⟩ : BufTy).Contents (Elt F) → (⟨S32000x64, .f32⟩ : BufTy).Contents (Elt F)),
    binary main_v148 main_v147 main_v149 (mulf : (⟨S32000x64, .f32⟩ : BufTy).Contents (Elt F) → (⟨S32000x64, .f32⟩ : BufTy).Contents (Elt F) → (⟨S32000x64, .f32⟩ : BufTy).Contents (Elt F)),
    nullary main_cst_34 (constant S_ .f32 0x00000000#32),
    unary main_cst_34 main_v150 (broadcastInDim S1000x64 ![] bcast_S_S1000x64 : (⟨S_, .f32⟩ : BufTy).Contents (Elt F) → (⟨S1000x64, .f32⟩ : BufTy).Contents (Elt F)),
    unary main_arg13 main_v151 (broadcastInDim S32000x1 ![0] bcast_S32000_S32000x1_0 : (⟨S32000, .i32⟩ : BufTy).Contents (Elt F) → (⟨S32000x1, .i32⟩ : BufTy).Contents (Elt F)),
    ternary main_v150 main_v151 main_v149 main_v152 ((fun x i u => Host.scatterAdd scatter_S1000x64_S32000x1_S32000x64_1_0_0_1 x i u) : (⟨S1000x64, .f32⟩ : BufTy).Contents (Elt F) → (⟨S32000x1, .i32⟩ : BufTy).Contents (Elt F) → (⟨S32000x64, .f32⟩ : BufTy).Contents (Elt F) → (⟨S1000x64, .f32⟩ : BufTy).Contents (Elt F)),
    nullary main_cst_35 (constant S_ .f32 0x3F666666#32),
    unary main_cst_35 main_v153 (broadcastInDim S1000x64 ![] bcast_S_S1000x64 : (⟨S_, .f32⟩ : BufTy).Contents (Elt F) → (⟨S1000x64, .f32⟩ : BufTy).Contents (Elt F)),
    binary main_v153 main_v138 main_v154 (mulf : (⟨S1000x64, .f32⟩ : BufTy).Contents (Elt F) → (⟨S1000x64, .f32⟩ : BufTy).Contents (Elt F) → (⟨S1000x64, .f32⟩ : BufTy).Contents (Elt F)),
    binary main_v152 main_v154 main_v155 (addf : (⟨S1000x64, .f32⟩ : BufTy).Contents (Elt F) → (⟨S1000x64, .f32⟩ : BufTy).Contents (Elt F) → (⟨S1000x64, .f32⟩ : BufTy).Contents (Elt F)),
    binary main_v139 main_v155 main_v156 (addf : (⟨S1000x64, .f32⟩ : BufTy).Contents (Elt F) → (⟨S1000x64, .f32⟩ : BufTy).Contents (Elt F) → (⟨S1000x64, .f32⟩ : BufTy).Contents (Elt F)),
    nullary main_cst_36 (constant S_ .f32 0x40800000#32),
    unary main_cst_36 main_v157 (broadcastInDim S1000x64 ![] bcast_S_S1000x64 : (⟨S_, .f32⟩ : BufTy).Contents (Elt F) → (⟨S1000x64, .f32⟩ : BufTy).Contents (Elt F)),
    binary main_v156 main_v157 main_v158 (Host.divf : (⟨S1000x64, .f32⟩ : BufTy).Contents (Elt F) → (⟨S1000x64, .f32⟩ : BufTy).Contents (Elt F) → (⟨S1000x64, .f32⟩ : BufTy).Contents (Elt F)),
    nullary main_c_37 (constantI S_ 32 0#32),
    unary main_c_37 main_v159 (broadcastInDim S16384 ![] bcast_S_S16384 : (⟨S_, .i32⟩ : BufTy).Contents (Elt F) → (⟨S16384, .i32⟩ : BufTy).Contents (Elt F)),
    binary main_arg0 main_v159 main_v160 (cmpi .slt : (⟨S16384, .i32⟩ : BufTy).Contents (Elt F) → (⟨S16384, .i32⟩ : BufTy).Contents (Elt F) → (⟨S16384, .i1⟩ : BufTy).Contents (Elt F)),
    nullary main_c_38 (constantI S_ 32 100000#32),
    unary main_c_38 main_v161 (broadcastInDim S16384 ![] bcast_S_S16384 : (⟨S_, .i32⟩ : BufTy).Contents (Elt F) → (⟨S16384, .i32⟩ : BufTy).Contents (Elt F)),
    binary main_arg0 main_v161 main_v162 (addi : (⟨S16384, .i32⟩ : BufTy).Contents (Elt F) → (⟨S16384, .i32⟩ : BufTy).Contents (Elt F) → (⟨S16384, .i32⟩ : BufTy).Contents (Elt F)),
    ternary main_v160 main_v162 main_arg0 main_v163 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v163 main_v164 (broadcastInDim S16384x1 ![0] bcast_S16384_S16384x1_0 : (⟨S16384, .i32⟩ : BufTy).Contents (Elt F) → (⟨S16384x1, .i32⟩ : BufTy).Contents (Elt F)),
    binary main_v52 main_v164 main_v165 ((fun x i => Host.gather gather_S100000x64_S16384x1_S16384x64_1_0_n_n_0_1_164 x i) : (⟨S100000x64, .f32⟩ : BufTy).Contents (Elt F) → (⟨S16384x1, .i32⟩ : BufTy).Contents (Elt F) → (⟨S16384x64, .f32⟩ : BufTy).Contents (Elt F)),
    nullary main_c_39 (constantI S_ 32 0#32),
    unary main_c_39 main_v166 (broadcastInDim S16384 ![] bcast_S_S16384 : (⟨S_, .i32⟩ : BufTy).Contents (Elt F) → (⟨S16384, .i32⟩ : BufTy).Contents (Elt F)),
    binary main_arg1 main_v166 main_v167 (cmpi .slt : (⟨S16384, .i32⟩ : BufTy).Contents (Elt F) → (⟨S16384, .i32⟩ : BufTy).Contents (Elt F) → (⟨S16384, .i1⟩ : BufTy).Contents (Elt F)),
    nullary main_c_40 (constantI S_ 32 30000#32),
    unary main_c_40 main_v168 (broadcastInDim S16384 ![] bcast_S_S16384 : (⟨S_, .i32⟩ : BufTy).Contents (Elt F) → (⟨S16384, .i32⟩ : BufTy).Contents (Elt F)),
    binary main_arg1 main_v168 main_v169 (addi : (⟨S16384, .i32⟩ : BufTy).Contents (Elt F) → (⟨S16384, .i32⟩ : BufTy).Contents (Elt F) → (⟨S16384, .i32⟩ : BufTy).Contents (Elt F)),
    ternary main_v167 main_v169 main_arg1 main_v170 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v170 main_v171 (broadcastInDim S16384x1 ![0] bcast_S16384_S16384x1_0 : (⟨S16384, .i32⟩ : BufTy).Contents (Elt F) → (⟨S16384x1, .i32⟩ : BufTy).Contents (Elt F)),
    binary main_v105 main_v171 main_v172 ((fun x i => Host.gather gather_S30000x64_S16384x1_S16384x64_1_0_n_n_0_1_164 x i) : (⟨S30000x64, .f32⟩ : BufTy).Contents (Elt F) → (⟨S16384x1, .i32⟩ : BufTy).Contents (Elt F) → (⟨S16384x64, .f32⟩ : BufTy).Contents (Elt F)),
    binary main_v165 main_arg16 main_v173 ((fun l r => Host.dotGeneral dot_S16384x64_S64x128_S16384x128_1_0_0_1_n_n none l r) : (⟨S16384x64, .f32⟩ : BufTy).Contents (Elt F) → (⟨S64x128, .f32⟩ : BufTy).Contents (Elt F) → (⟨S16384x128, .f32⟩ : BufTy).Contents (Elt F)),
    unary main_arg17 main_v174 (broadcastInDim S1x128 ![1] bcast_S128_S1x128_1 : (⟨S128, .f32⟩ : BufTy).Contents (Elt F) → (⟨S1x128, .f32⟩ : BufTy).Contents (Elt F)),
    unary main_v174 main_v175 (broadcastInDim S16384x128 ![0, 1] bcast_S1x128_S16384x128_0_1 : (⟨S1x128, .f32⟩ : BufTy).Contents (Elt F) → (⟨S16384x128, .f32⟩ : BufTy).Contents (Elt F)),
    binary main_v173 main_v175 main_v176 (addf : (⟨S16384x128, .f32⟩ : BufTy).Contents (Elt F) → (⟨S16384x128, .f32⟩ : BufTy).Contents (Elt F) → (⟨S16384x128, .f32⟩ : BufTy).Contents (Elt F)),
    nullary main_cst_41 (constant S_ .f32 0x3DCCCCCD#32),
    TRef.nullary main_call0.cst (constant S_ .f32 0x00000000#32),
    TRef.unary main_call0.cst main_call0.v0 (broadcastInDim S16384x128 ![] bcast_S_S16384x128),
    TRef.binary (.of main_v176 : TRef sig ⟨S16384x128, .f32⟩) main_call0.v0 main_call0.v1 (cmpf .oge),
    TRef.unary (.of main_cst_41 : TRef sig ⟨S_, .f32⟩) main_call0.v2 id,
    TRef.unary main_call0.v2 main_call0.v3 (broadcastInDim S16384x128 ![] bcast_S_S16384x128),
    TRef.binary main_call0.v3 (.of main_v176 : TRef sig ⟨S16384x128, .f32⟩) main_call0.v4 mulf,
    TRef.ternary main_call0.v1 (.of main_v176 : TRef sig ⟨S16384x128, .f32⟩) main_call0.v4 main_call0.call0.v0 select,
    binary main_v172 main_arg18 main_v178 ((fun l r => Host.dotGeneral dot_S16384x64_S64x128_S16384x128_1_0_0_1_n_n none l r) : (⟨S16384x64, .f32⟩ : BufTy).Contents (Elt F) → (⟨S64x128, .f32⟩ : BufTy).Contents (Elt F) → (⟨S16384x128, .f32⟩ : BufTy).Contents (Elt F)),
    unary main_arg19 main_v179 (broadcastInDim S1x128 ![1] bcast_S128_S1x128_1 : (⟨S128, .f32⟩ : BufTy).Contents (Elt F) → (⟨S1x128, .f32⟩ : BufTy).Contents (Elt F)),
    unary main_v179 main_v180 (broadcastInDim S16384x128 ![0, 1] bcast_S1x128_S16384x128_0_1 : (⟨S1x128, .f32⟩ : BufTy).Contents (Elt F) → (⟨S16384x128, .f32⟩ : BufTy).Contents (Elt F)),
    binary main_v178 main_v180 main_v181 (addf : (⟨S16384x128, .f32⟩ : BufTy).Contents (Elt F) → (⟨S16384x128, .f32⟩ : BufTy).Contents (Elt F) → (⟨S16384x128, .f32⟩ : BufTy).Contents (Elt F)),
    nullary main_cst_42 (constant S_ .f32 0x3DCCCCCD#32),
    TRef.nullary main_call1.cst (constant S_ .f32 0x00000000#32),
    TRef.unary main_call1.cst main_call1.v0 (broadcastInDim S16384x128 ![] bcast_S_S16384x128),
    TRef.binary (.of main_v181 : TRef sig ⟨S16384x128, .f32⟩) main_call1.v0 main_call1.v1 (cmpf .oge),
    TRef.unary (.of main_cst_42 : TRef sig ⟨S_, .f32⟩) main_call1.v2 id,
    TRef.unary main_call1.v2 main_call1.v3 (broadcastInDim S16384x128 ![] bcast_S_S16384x128),
    TRef.binary main_call1.v3 (.of main_v181 : TRef sig ⟨S16384x128, .f32⟩) main_call1.v4 mulf,
    TRef.ternary main_call1.v1 (.of main_v181 : TRef sig ⟨S16384x128, .f32⟩) main_call1.v4 main_call1.call0.v0 select,
    binary main_v158 main_arg20 main_v183 ((fun l r => Host.dotGeneral dot_S1000x64_S64x128_S1000x128_1_0_0_1_n_n none l r) : (⟨S1000x64, .f32⟩ : BufTy).Contents (Elt F) → (⟨S64x128, .f32⟩ : BufTy).Contents (Elt F) → (⟨S1000x128, .f32⟩ : BufTy).Contents (Elt F)),
    unary main_arg21 main_v184 (broadcastInDim S1x128 ![1] bcast_S128_S1x128_1 : (⟨S128, .f32⟩ : BufTy).Contents (Elt F) → (⟨S1x128, .f32⟩ : BufTy).Contents (Elt F)),
    unary main_v184 main_v185 (broadcastInDim S1000x128 ![0, 1] bcast_S1x128_S1000x128_0_1 : (⟨S1x128, .f32⟩ : BufTy).Contents (Elt F) → (⟨S1000x128, .f32⟩ : BufTy).Contents (Elt F)),
    binary main_v183 main_v185 main_v186 (addf : (⟨S1000x128, .f32⟩ : BufTy).Contents (Elt F) → (⟨S1000x128, .f32⟩ : BufTy).Contents (Elt F) → (⟨S1000x128, .f32⟩ : BufTy).Contents (Elt F)),
    nullary main_cst_43 (constant S_ .f32 0x3DCCCCCD#32),
    TRef.nullary main_call2.cst (constant S_ .f32 0x00000000#32),
    TRef.unary main_call2.cst main_call2.v0 (broadcastInDim S1000x128 ![] bcast_S_S1000x128),
    TRef.binary (.of main_v186 : TRef sig ⟨S1000x128, .f32⟩) main_call2.v0 main_call2.v1 (cmpf .oge),
    TRef.unary (.of main_cst_43 : TRef sig ⟨S_, .f32⟩) main_call2.v2 id,
    TRef.unary main_call2.v2 main_call2.v3 (broadcastInDim S1000x128 ![] bcast_S_S1000x128),
    TRef.binary main_call2.v3 (.of main_v186 : TRef sig ⟨S1000x128, .f32⟩) main_call2.v4 mulf,
    TRef.ternary main_call2.v1 (.of main_v186 : TRef sig ⟨S1000x128, .f32⟩) main_call2.v4 main_call2.call0.v0 select,
    binary main_v172 main_arg22 main_v188 ((fun l r => Host.dotGeneral dot_S16384x64_S64x1_S16384x1_1_0_0_1_n_n none l r) : (⟨S16384x64, .f32⟩ : BufTy).Contents (Elt F) → (⟨S64x1, .f32⟩ : BufTy).Contents (Elt F) → (⟨S16384x1, .f32⟩ : BufTy).Contents (Elt F)),
    unary main_arg23 main_v189 (broadcastInDim S1x1 ![1] bcast_S1_S1x1_1 : (⟨S1, .f32⟩ : BufTy).Contents (Elt F) → (⟨S1x1, .f32⟩ : BufTy).Contents (Elt F)),
    unary main_v189 main_v190 (broadcastInDim S16384x1 ![0, 1] bcast_S1x1_S16384x1_0_1 : (⟨S1x1, .f32⟩ : BufTy).Contents (Elt F) → (⟨S16384x1, .f32⟩ : BufTy).Contents (Elt F)),
    binary main_v188 main_v190 main_v191 (addf : (⟨S16384x1, .f32⟩ : BufTy).Contents (Elt F) → (⟨S16384x1, .f32⟩ : BufTy).Contents (Elt F) → (⟨S16384x1, .f32⟩ : BufTy).Contents (Elt F)),
    unary main_v191 main_v192 (Host.negf : (⟨S16384x1, .f32⟩ : BufTy).Contents (Elt F) → (⟨S16384x1, .f32⟩ : BufTy).Contents (Elt F)),
    unary main_v192 main_v193 (Host.exp : (⟨S16384x1, .f32⟩ : BufTy).Contents (Elt F) → (⟨S16384x1, .f32⟩ : BufTy).Contents (Elt F)) ]

/-- @main's statements 241 … 260: 19 operations. -/
abbrev ops4 : List (HloOp τ sig (Elt F)) :=
  [ nullary main_cst_44 (constant S_ .f32 0x3F800000#32),
    unary main_cst_44 main_v194 (broadcastInDim S16384x1 ![] bcast_S_S16384x1 : (⟨S_, .f32⟩ : BufTy).Contents (Elt F) → (⟨S16384x1, .f32⟩ : BufTy).Contents (Elt F)),
    binary main_v194 main_v193 main_v195 (addf : (⟨S16384x1, .f32⟩ : BufTy).Contents (Elt F) → (⟨S16384x1, .f32⟩ : BufTy).Contents (Elt F) → (⟨S16384x1, .f32⟩ : BufTy).Contents (Elt F)),
    nullary main_cst_45 (constant S_ .f32 0x3F800000#32),
    unary main_cst_45 main_v196 (broadcastInDim S16384x1 ![] bcast_S_S16384x1 : (⟨S_, .f32⟩ : BufTy).Contents (Elt F) → (⟨S16384x1, .f32⟩ : BufTy).Contents (Elt F)),
    binary main_v196 main_v195 main_v197 (Host.divf : (⟨S16384x1, .f32⟩ : BufTy).Contents (Elt F) → (⟨S16384x1, .f32⟩ : BufTy).Contents (Elt F) → (⟨S16384x1, .f32⟩ : BufTy).Contents (Elt F)),
    unary main_v187 main_v198 ((transpose S128x1000 [1, 0] · transposes_S1000x128_S128x1000_1_0) : (⟨S1000x128, .f32⟩ : BufTy).Contents (Elt F) → (⟨S128x1000, .f32⟩ : BufTy).Contents (Elt F)),
    binary main_v177 main_v198 main_v199 ((fun l r => Host.dotGeneral dot_S16384x128_S128x1000_S16384x1000_1_0_0_1_n_n none l r) : (⟨S16384x128, .f32⟩ : BufTy).Contents (Elt F) → (⟨S128x1000, .f32⟩ : BufTy).Contents (Elt F) → (⟨S16384x1000, .f32⟩ : BufTy).Contents (Elt F)),
    unary main_v187 main_v200 ((transpose S128x1000 [1, 0] · transposes_S1000x128_S128x1000_1_0) : (⟨S1000x128, .f32⟩ : BufTy).Contents (Elt F) → (⟨S128x1000, .f32⟩ : BufTy).Contents (Elt F)),
    binary main_v182 main_v200 main_v201 ((fun l r => Host.dotGeneral dot_S16384x128_S128x1000_S16384x1000_1_0_0_1_n_n none l r) : (⟨S16384x128, .f32⟩ : BufTy).Contents (Elt F) → (⟨S128x1000, .f32⟩ : BufTy).Contents (Elt F) → (⟨S16384x1000, .f32⟩ : BufTy).Contents (Elt F)),
    nullary main_c_46 (constantI S_ 32 0#32),
    unary main_c_46 main_v202 (broadcastInDim S16384 ![] bcast_S_S16384 : (⟨S_, .i32⟩ : BufTy).Contents (Elt F) → (⟨S16384, .i32⟩ : BufTy).Contents (Elt F)),
    binary main_arg1 main_v202 main_v203 (cmpi .slt : (⟨S16384, .i32⟩ : BufTy).Contents (Elt F) → (⟨S16384, .i32⟩ : BufTy).Contents (Elt F) → (⟨S16384, .i1⟩ : BufTy).Contents (Elt F)),
    nullary main_c_47 (constantI S_ 32 30000#32),
    unary main_c_47 main_v204 (broadcastInDim S16384 ![] bcast_S_S16384 : (⟨S_, .i32⟩ : BufTy).Contents (Elt F) → (⟨S16384, .i32⟩ : BufTy).Contents (Elt F)),
    binary main_arg1 main_v204 main_v205 (addi : (⟨S16384, .i32⟩ : BufTy).Contents (Elt F) → (⟨S16384, .i32⟩ : BufTy).Contents (Elt F) → (⟨S16384, .i32⟩ : BufTy).Contents (Elt F)),
    ternary main_v203 main_v205 main_arg1 main_v206 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v206 main_v207 (broadcastInDim S16384x1 ![0] bcast_S16384_S16384x1_0 : (⟨S16384, .i32⟩ : BufTy).Contents (Elt F) → (⟨S16384x1, .i32⟩ : BufTy).Contents (Elt F)),
    binary main_arg6 main_v207 main_v208 ((fun x i => Host.gather gather_S30000x64_S16384x1_S16384x64_1_0_n_n_0_1_164 x i) : (⟨S30000x64, .f32⟩ : BufTy).Contents (Elt F) → (⟨S16384x1, .i32⟩ : BufTy).Contents (Elt F) → (⟨S16384x64, .f32⟩ : BufTy).Contents (Elt F)) ]

/-- @main's operations, in order. -/
abbrev ops : List (HloOp τ sig (Elt F)) := ops0 ++ (ops1 ++ (ops2 ++ (ops3 ++ ops4)))

set_option maxRecDepth 8192 in
set_option maxHeartbeats 4000000 in
theorem part0_eq (c : Dev nD) : main_part0 (F := F) c = seq ops0 := rfl

set_option maxRecDepth 8192 in
set_option maxHeartbeats 4000000 in
theorem part1_eq (c : Dev nD) : main_part1 (F := F) c = seq ops1 := rfl

set_option maxRecDepth 8192 in
set_option maxHeartbeats 4000000 in
theorem part2_eq (c : Dev nD) : main_part2 (F := F) c = seq ops2 := rfl

set_option maxRecDepth 8192 in
set_option maxHeartbeats 4000000 in
theorem part3_eq (c : Dev nD) : main_part3 (F := F) c = seq ops3 := rfl

set_option maxRecDepth 8192 in
set_option maxHeartbeats 4000000 in
theorem part4_eq (c : Dev nD) : main_part4 (F := F) c = seq ops4 := rfl

/-- @main is that straight line: each window is its operations' line, and lines run one after the other are
    their concatenation run as one. -/
theorem main_eq (c : Dev nD) : main (F := F) c = seq ops := by
  show (main_part0 c >>= fun _ => main_part1 c >>= fun _ => main_part2 c >>= fun _ => main_part3 c >>= fun _ => main_part4 c) = _
  rw [part0_eq, part1_eq, part2_eq, part3_eq, part4_eq, seq_append, seq_append, seq_append, seq_append]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub ..⟩

set_option maxRecDepth 8192 in
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops1_sub : (ops1 : List (HloOp τ sig (Elt F))).Forall fun op => op.bufs ⊆ tcRefs τ sig :=
  ⟨binary_bufs_sub .., binary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub ..⟩

set_option maxRecDepth 8192 in
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops2_sub : (ops2 : List (HloOp τ sig (Elt F))).Forall fun op => op.bufs ⊆ tcRefs τ sig :=
  ⟨nullary_bufs_sub .., unary_bufs_sub .., unary_bufs_sub .., ternary_bufs_sub .., nullary_bufs_sub .., unary_bufs_sub .., binary_bufs_sub .., binary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., binary_bufs_sub .., unary_bufs_sub .., nullary_bufs_sub .., unary_bufs_sub .., binary_bufs_sub .., nullary_bufs_sub .., unary_bufs_sub ..⟩

set_option maxRecDepth 8192 in
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops3_sub : (ops3 : List (HloOp τ sig (Elt F))).Forall fun op => op.bufs ⊆ tcRefs τ sig :=
  ⟨binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., unary_bufs_sub .., unary_bufs_sub ..⟩

set_option maxRecDepth 8192 in
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops4_sub : (ops4 : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

set_option maxRecDepth 8192 in
theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl⟩

/-- Every operation touches TensorCore references only. -/
theorem ops_sub : (ops : List (HloOp τ sig (Elt F))).Forall fun op => op.bufs ⊆ tcRefs τ sig :=
  List.forall_append.2 ⟨ops0_sub, List.forall_append.2 ⟨ops1_sub, List.forall_append.2 ⟨ops2_sub, List.forall_append.2 ⟨ops3_sub, ops4_sub⟩⟩⟩⟩

/-- Every operation determines what it writes. -/
theorem ops_fresh : ∀ op ∈ (ops : List (HloOp τ sig (Elt F))), op.fresh = ∅ :=
  List.forall_iff_forall_mem.1
    (List.forall_append.2 ⟨ops0_fresh, List.forall_append.2 ⟨ops1_fresh, List.forall_append.2 ⟨ops2_fresh, List.forall_append.2 ⟨ops3_fresh, ops4_fresh⟩⟩⟩⟩)

/-- On every device, for any float values, from any memory with zero counters: every weakly fair execution of @main
    terminates, and every final state has each TensorCore buffer at the operations' fold over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

/-! ## The same line in four stretches

The three graph stages (66 operations each) and the dense head (79): every buffer is written by exactly one
operation and no argument is written at all, so a stretch's results are read within the stretch and carried
unchanged through the later ones. -/

/-- A reference the line does not write keeps its contents: the written references listed, the test decided. -/
theorem writes_sub {W : List (Ref sig .tc)} {op : HloOp τ sig (Elt F)} {y : Ref sig .tc}
    (hw : op.writes = {Proc.devRef .tc y}) (hy : y ∈ W) :
    op.writes ⊆ (W.map (Proc.devRef (τ := τ) .tc)).toFinset := by
  rw [hw]; exact Finset.singleton_subset_iff.2 (List.mem_toFinset.2 (List.mem_map_of_mem hy))

/-- The student graph's stage: operations 1 … 66. -/
abbrev cS : List (HloOp τ sig (Elt F)) :=
  [ unary main_arg9 main_v0 (broadcastInDim S1600000x1 ![0] bcast_S1600000_S1600000x1_0 : (⟨S1600000, .f32⟩ : BufTy).Contents (Elt F) → (⟨S1600000x1, .f32⟩ : BufTy).Contents (Elt F)),
    nullary main_c (constantI S_ 32 0#32),
    unary main_c main_v1 (broadcastInDim S1600000 ![] bcast_S_S1600000 : (⟨S_, .i32⟩ : BufTy).Contents (Elt F) → (⟨S1600000, .i32⟩ : BufTy).Contents (Elt F)),
    binary main_arg8 main_v1 main_v2 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v3 (broadcastInDim S1600000 ![] bcast_S_S1600000 : (⟨S_, .i32⟩ : BufTy).Contents (Elt F) → (⟨S1600000, .i32⟩ : BufTy).Contents (Elt F)),
    binary main_arg8 main_v3 main_v4 (addi : (⟨S1600000, .i32⟩ : BufTy).Contents (Elt F) → (⟨S1600000, .i32⟩ : BufTy).Contents (Elt F) → (⟨S1600000, .i32⟩ : BufTy).Contents (Elt F)),
    ternary main_v2 main_v4 main_arg8 main_v5 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v5 main_v6 (broadcastInDim S1600000x1 ![0] bcast_S1600000_S1600000x1_0 : (⟨S1600000, .i32⟩ : BufTy).Contents (Elt F) → (⟨S1600000x1, .i32⟩ : BufTy).Contents (Elt F)),
    binary main_arg3 main_v6 main_v7 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v0 main_v8 (broadcastInDim S1600000x64 ![0, 1] bcast_S1600000x1_S1600000x64_0_1 : (⟨S1600000x1, .f32⟩ : BufTy).Contents (Elt F) → (⟨S1600000x64, .f32⟩ : BufTy).Contents (Elt F)),
    binary main_v8 main_v7 main_v9 (mulf : (⟨S1600000x64, .f32⟩ : BufTy).Contents (Elt F) → (⟨S1600000x64, .f32⟩ : BufTy).Contents (Elt F) → (⟨S1600000x64, .f32⟩ : BufTy).Contents (Elt F)),
    nullary main_cst (constant S_ .f32 0x00000000#32),
    unary main_cst main_v10 (broadcastInDim S100000x64 ![] bcast_S_S100000x64 : (⟨S_, .f32⟩ : BufTy).Contents (Elt F) → (⟨S100000x64, .f32⟩ : BufTy).Contents (Elt F)),
    unary main_arg7 main_v11 (broadcastInDim S1600000x1 ![0] bcast_S1600000_S1600000x1_0 : (⟨S1600000, .i32⟩ : BufTy).Contents (Elt F) → (⟨S1600000x1, .i32⟩ : BufTy).Contents (Elt F)),
    ternary main_v10 main_v11 main_v9 main_v12 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_1 (constant S_ .f32 0x3F666666#32),
    unary main_cst_1 main_v13 (broadcastInDim S100000x64 ![] bcast_S_S100000x64 : (⟨S_, .f32⟩ : BufTy).Contents (Elt F) → (⟨S100000x64, .f32⟩ : BufTy).Contents (Elt F)),
    binary main_v13 main_arg3 main_v14 (mulf : (⟨S100000x64, .f32⟩ : BufTy).Contents (Elt F) → (⟨S100000x64, .f32⟩ : BufTy).Contents (Elt F) → (⟨S100000x64, .f32⟩ : BufTy).Contents (Elt F)),
    binary main_v12 main_v14 main_v15 (addf : (⟨S100000x64, .f32⟩ : BufTy).Contents (Elt F) → (⟨S100000x64, .f32⟩ : BufTy).Contents (Elt F) → (⟨S100000x64, .f32⟩ : BufTy).Contents (Elt F)),
    binary main_arg3 main_v15 main_v16 (addf : (⟨S100000x64, .f32⟩ : BufTy).Contents (Elt F) → (⟨S100000x64, .f32⟩ : BufTy).Contents (Elt F) → (⟨S100000x64, .f32⟩ : BufTy).Contents (Elt F)),
    unary main_arg9 main_v17 (broadcastInDim S1600000x1 ![0] bcast_S1600000_S1600000x1_0 : (⟨S1600000, .f32⟩ : BufTy).Contents (Elt F) → (⟨S1600000x1, .f32⟩ : BufTy).Contents (Elt F)),
    nullary main_c_2 (constantI S_ 32 0#32),
    unary main_c_2 main_v18 (broadcastInDim S1600000 ![] bcast_S_S1600000 : (⟨S_, .i32⟩ : BufTy).Contents (Elt F) → (⟨S1600000, .i32⟩ : BufTy).Contents (Elt F)),
    binary main_arg8 main_v18 main_v19 (cmpi .slt : (⟨S1600000, .i32⟩ : BufTy).Contents (Elt F) → (⟨S1600000, .i32⟩ : BufTy).Contents (Elt F) → (⟨S1600000, .i1⟩ : BufTy).Contents (Elt F)),
    nullary main_c_3 (constantI S_ 32 100000#32),
    unary main_c_3 main_v20 (broadcastInDim S1600000 ![] bcast_S_S1600000 : (⟨S_, .i32⟩ : BufTy).Contents (Elt F) → (⟨S1600000, .i32⟩ : BufTy).Contents (Elt F)),
    binary main_arg8 main_v20 main_v21 (addi : (⟨S1600000, .i32⟩ : BufTy).Contents (Elt F) → (⟨S1600000, .i32⟩ : BufTy).Contents (Elt F) → (⟨S1600000, .i32⟩ : BufTy).Contents (Elt F)),
    ternary main_v19 main_v21 main_arg8 main_v22 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v22 main_v23 (broadcastInDim S1600000x1 ![0] bcast_S1600000_S1600000x1_0 : (⟨S1600000, .i32⟩ : BufTy).Contents (Elt F) → (⟨S1600000x1, .i32⟩ : BufTy).Contents (Elt F)),
    binary main_v15 main_v23 main_v24 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v17 main_v25 (broadcastInDim S1600000x64 ![0, 1] bcast_S1600000x1_S1600000x64_0_1 : (⟨S1600000x1, .f32⟩ : BufTy).Contents (Elt F) → (⟨S1600000x64, .f32⟩ : BufTy).Contents (Elt F)),
    binary main_v25 main_v24 main_v26 (mulf : (⟨S1600000x64, .f32⟩ : BufTy).Contents (Elt F) → (⟨S1600000x64, .f32⟩ : BufTy).Contents (Elt F) → (⟨S1600000x64, .f32⟩ : BufTy).Contents (Elt F)),
    nullary main_cst_4 (constant S_ .f32 0x00000000#32),
    unary main_cst_4 main_v27 (broadcastInDim S100000x64 ![] bcast_S_S100000x64 : (⟨S_, .f32⟩ : BufTy).Contents (Elt F) → (⟨S100000x64, .f32⟩ : BufTy).Contents (Elt F)),
    unary main_arg7 main_v28 (broadcastInDim S1600000x1 ![0] bcast_S1600000_S1600000x1_0 : (⟨S1600000, .i32⟩ : BufTy).Contents (Elt F) → (⟨S1600000x1, .i32⟩ : BufTy).Contents (Elt F)),
    ternary main_v27 main_v28 main_v26 main_v29 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_5 (constant S_ .f32 0x3F666666#32),
    unary main_cst_5 main_v30 (broadcastInDim S100000x64 ![] bcast_S_S100000x64 : (⟨S_, .f32⟩ : BufTy).Contents (Elt F) → (⟨S100000x64, .f32⟩ : BufTy).Contents (Elt F)),
    binary main_v30 main_v15 main_v31 (mulf : (⟨S100000x64, .f32⟩ : BufTy).Contents (Elt F) → (⟨S100000x64, .f32⟩ : BufTy).Contents (Elt F) → (⟨S100000x64, .f32⟩ : BufTy).Contents (Elt F)),
    binary main_v29 main_v31 main_v32 (addf : (⟨S100000x64, .f32⟩ : BufTy).Contents (Elt F) → (⟨S100000x64, .f32⟩ : BufTy).Contents (Elt F) → (⟨S100000x64, .f32⟩ : BufTy).Contents (Elt F)),
    binary main_v16 main_v32 main_v33 (addf : (⟨S100000x64, .f32⟩ : BufTy).Contents (Elt F) → (⟨S100000x64, .f32⟩ : BufTy).Contents (Elt F) → (⟨S100000x64, .f32⟩ : BufTy).Contents (Elt F)),
    unary main_arg9 main_v34 (broadcastInDim S1600000x1 ![0] bcast_S1600000_S1600000x1_0 : (⟨S1600000, .f32⟩ : BufTy).Contents (Elt F) → (⟨S1600000x1, .f32⟩ : BufTy).Contents (Elt F)),
    nullary main_c_6 (constantI S_ 32 0#32),
    unary main_c_6 main_v35 (broadcastInDim S1600000 ![] bcast_S_S1600000 : (⟨S_, .i32⟩ : BufTy).Contents (Elt F) → (⟨S1600000, .i32⟩ : BufTy).Contents (Elt F)),
    binary main_arg8 main_v35 main_v36 (cmpi .slt : (⟨S1600000, .i32⟩ : BufTy).Contents (Elt F) → (⟨S1600000, .i32⟩ : BufTy).Contents (Elt F) → (⟨S1600000, .i1⟩ : BufTy).Contents (Elt F)),
    nullary main_c_7 (constantI S_ 32 100000#32),
    unary main_c_7 main_v37 (broadcastInDim S1600000 ![] bcast_S_S1600000 : (⟨S_, .i32⟩ : BufTy).Contents (Elt F) → (⟨S1600000, .i32⟩ : BufTy).Contents (Elt F)),
    binary main_arg8 main_v37 main_v38 (addi : (⟨S1600000, .i32⟩ : BufTy).Contents (Elt F) → (⟨S1600000, .i32⟩ : BufTy).Contents (Elt F) → (⟨S1600000, .i32⟩ : BufTy).Contents (Elt F)),
    ternary main_v36 main_v38 main_arg8 main_v39 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v39 main_v40 (broadcastInDim S1600000x1 ![0] bcast_S1600000_S1600000x1_0 : (⟨S1600000, .i32⟩ : BufTy).Contents (Elt F) → (⟨S1600000x1, .i32⟩ : BufTy).Contents (Elt F)),
    binary main_v32 main_v40 main_v41 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v34 main_v42 (broadcastInDim S1600000x64 ![0, 1] bcast_S1600000x1_S1600000x64_0_1 : (⟨S1600000x1, .f32⟩ : BufTy).Contents (Elt F) → (⟨S1600000x64, .f32⟩ : BufTy).Contents (Elt F)),
    binary main_v42 main_v41 main_v43 (mulf : (⟨S1600000x64, .f32⟩ : BufTy).Contents (Elt F) → (⟨S1600000x64, .f32⟩ : BufTy).Contents (Elt F) → (⟨S1600000x64, .f32⟩ : BufTy).Contents (Elt F)),
    nullary main_cst_8 (constant S_ .f32 0x00000000#32),
    unary main_cst_8 main_v44 (broadcastInDim S100000x64 ![] bcast_S_S100000x64 : (⟨S_, .f32⟩ : BufTy).Contents (Elt F) → (⟨S100000x64, .f32⟩ : BufTy).Contents (Elt F)),
    unary main_arg7 main_v45 (broadcastInDim S1600000x1 ![0] bcast_S1600000_S1600000x1_0 : (⟨S1600000, .i32⟩ : BufTy).Contents (Elt F) → (⟨S1600000x1, .i32⟩ : BufTy).Contents (Elt F)),
    ternary main_v44 main_v45 main_v43 main_v46 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_9 (constant S_ .f32 0x3F666666#32),
    unary main_cst_9 main_v47 (broadcastInDim S100000x64 ![] bcast_S_S100000x64 : (⟨S_, .f32⟩ : BufTy).Contents (Elt F) → (⟨S100000x64, .f32⟩ : BufTy).Contents (Elt F)),
    binary main_v47 main_v32 main_v48 (mulf : (⟨S100000x64, .f32⟩ : BufTy).Contents (Elt F) → (⟨S100000x64, .f32⟩ : BufTy).Contents (Elt F) → (⟨S100000x64, .f32⟩ : BufTy).Contents (Elt F)),
    binary main_v46 main_v48 main_v49 (addf : (⟨S100000x64, .f32⟩ : BufTy).Contents (Elt F) → (⟨S100000x64, .f32⟩ : BufTy).Contents (Elt F) → (⟨S100000x64, .f32⟩ : BufTy).Contents (Elt F)),
    binary main_v33 main_v49 main_v50 (addf : (⟨S100000x64, .f32⟩ : BufTy).Contents (Elt F) → (⟨S100000x64, .f32⟩ : BufTy).Contents (Elt F) → (⟨S100000x64, .f32⟩ : BufTy).Contents (Elt F)),
    nullary main_cst_10 (constant S_ .f32 0x40800000#32),
    unary main_cst_10 main_v51 (broadcastInDim S100000x64 ![] bcast_S_S100000x64 : (⟨S_, .f32⟩ : BufTy).Contents (Elt F) → (⟨S100000x64, .f32⟩ : BufTy).Contents (Elt F)),
    binary main_v50 main_v51 main_v52 (Host.divf : (⟨S100000x64, .f32⟩ : BufTy).Contents (Elt F) → (⟨S100000x64, .f32⟩ : BufTy).Contents (Elt F) → (⟨S100000x64, .f32⟩ : BufTy).Contents (Elt F)) ]

/-- The references that stretch writes. -/
abbrev WcS : List (Ref sig .tc) :=
  [main_v0, main_c, main_v1, main_v2, main_c_0, main_v3, main_v4, main_v5, main_v6, main_v7, main_v8, main_v9, main_cst, main_v10, main_v11, main_v12, main_cst_1, main_v13, main_v14, main_v15, main_v16, main_v17, main_c_2, main_v18, main_v19, main_c_3, main_v20, main_v21, main_v22, main_v23, main_v24, main_v25, main_v26, main_cst_4, main_v27, main_v28, main_v29, main_cst_5, main_v30, main_v31, main_v32, main_v33, main_v34, main_c_6, main_v35, main_v36, main_c_7, main_v37, main_v38, main_v39, main_v40, main_v41, main_v42, main_v43, main_cst_8, main_v44, main_v45, main_v46, main_cst_9, main_v47, main_v48, main_v49, main_v50, main_cst_10, main_v51, main_v52]

set_option maxRecDepth 8192 in
theorem cS_writes : (cS : List (HloOp τ sig (Elt F))).Forall fun op => op.writes ⊆ ((WcS).map (Proc.devRef (τ := τ) .tc)).toFinset :=
  ⟨writes_sub (unary_writes ..) (by decide),
   writes_sub (nullary_writes ..) (by decide),
   writes_sub (unary_writes ..) (by decide),
   writes_sub (binary_writes ..) (by decide),
   writes_sub (nullary_writes ..) (by decide),
   writes_sub (unary_writes ..) (by decide),
   writes_sub (binary_writes ..) (by decide),
   writes_sub (ternary_writes ..) (by decide),
   writes_sub (unary_writes ..) (by decide),
   writes_sub (binary_writes ..) (by decide),
   writes_sub (unary_writes ..) (by decide),
   writes_sub (binary_writes ..) (by decide),
   writes_sub (nullary_writes ..) (by decide),
   writes_sub (unary_writes ..) (by decide),
   writes_sub (unary_writes ..) (by decide),
   writes_sub (ternary_writes ..) (by decide),
   writes_sub (nullary_writes ..) (by decide),
   writes_sub (unary_writes ..) (by decide),
   writes_sub (binary_writes ..) (by decide),
   writes_sub (binary_writes ..) (by decide),
   writes_sub (binary_writes ..) (by decide),
   writes_sub (unary_writes ..) (by decide),
   writes_sub (nullary_writes ..) (by decide),
   writes_sub (unary_writes ..) (by decide),
   writes_sub (binary_writes ..) (by decide),
   writes_sub (nullary_writes ..) (by decide),
   writes_sub (unary_writes ..) (by decide),
   writes_sub (binary_writes ..) (by decide),
   writes_sub (ternary_writes ..) (by decide),
   writes_sub (unary_writes ..) (by decide),
   writes_sub (binary_writes ..) (by decide),
   writes_sub (unary_writes ..) (by decide),
   writes_sub (binary_writes ..) (by decide),
   writes_sub (nullary_writes ..) (by decide),
   writes_sub (unary_writes ..) (by decide),
   writes_sub (unary_writes ..) (by decide),
   writes_sub (ternary_writes ..) (by decide),
   writes_sub (nullary_writes ..) (by decide),
   writes_sub (unary_writes ..) (by decide),
   writes_sub (binary_writes ..) (by decide),
   writes_sub (binary_writes ..) (by decide),
   writes_sub (binary_writes ..) (by decide),
   writes_sub (unary_writes ..) (by decide),
   writes_sub (nullary_writes ..) (by decide),
   writes_sub (unary_writes ..) (by decide),
   writes_sub (binary_writes ..) (by decide),
   writes_sub (nullary_writes ..) (by decide),
   writes_sub (unary_writes ..) (by decide),
   writes_sub (binary_writes ..) (by decide),
   writes_sub (ternary_writes ..) (by decide),
   writes_sub (unary_writes ..) (by decide),
   writes_sub (binary_writes ..) (by decide),
   writes_sub (unary_writes ..) (by decide),
   writes_sub (binary_writes ..) (by decide),
   writes_sub (nullary_writes ..) (by decide),
   writes_sub (unary_writes ..) (by decide),
   writes_sub (unary_writes ..) (by decide),
   writes_sub (ternary_writes ..) (by decide),
   writes_sub (nullary_writes ..) (by decide),
   writes_sub (unary_writes ..) (by decide),
   writes_sub (binary_writes ..) (by decide),
   writes_sub (binary_writes ..) (by decide),
   writes_sub (binary_writes ..) (by decide),
   writes_sub (nullary_writes ..) (by decide),
   writes_sub (unary_writes ..) (by decide),
   writes_sub (binary_writes ..) (by decide)⟩

theorem cS_frame {r : Ref sig .tc} (hr : r ∉ WcS) (V : Valuation τ sig (Elt F)) :
    after (cS (F := F)) V (Proc.devRef .tc r) = V (Proc.devRef .tc r) :=
  after_of_writes_sub cS V cS_writes hr

/-- The exercise graph's stage: operations 67 … 132. -/
abbrev cE : List (HloOp τ sig (Elt F)) :=
  [ unary main_arg12 main_v53 (broadcastInDim S480000x1 ![0] bcast_S480000_S480000x1_0 : (⟨S480000, .f32⟩ : BufTy).Contents (Elt F) → (⟨S480000x1, .f32⟩ : BufTy).Contents (Elt F)),
    nullary main_c_11 (constantI S_ 32 0#32),
    unary main_c_11 main_v54 (broadcastInDim S480000 ![] bcast_S_S480000 : (⟨S_, .i32⟩ : BufTy).Contents (Elt F) → (⟨S480000, .i32⟩ : BufTy).Contents (Elt F)),
    binary main_arg11 main_v54 main_v55 (cmpi .slt : (⟨S480000, .i32⟩ : BufTy).Contents (Elt F) → (⟨S480000, .i32⟩ : BufTy).Contents (Elt F) → (⟨S480000, .i1⟩ : BufTy).Contents (Elt F)),
    nullary main_c_12 (constantI S_ 32 30000#32),
    unary main_c_12 main_v56 (broadcastInDim S480000 ![] bcast_S_S480000 : (⟨S_, .i32⟩ : BufTy).Contents (Elt F) → (⟨S480000, .i32⟩ : BufTy).Contents (Elt F)),
    binary main_arg11 main_v56 main_v57 (addi : (⟨S480000, .i32⟩ : BufTy).Contents (Elt F) → (⟨S480000, .i32⟩ : BufTy).Contents (Elt F) → (⟨S480000, .i32⟩ : BufTy).Contents (Elt F)),
    ternary main_v55 main_v57 main_arg11 main_v58 (select : (⟨S480000, .i1⟩ : BufTy).Contents (Elt F) → (⟨S480000, .i32⟩ : BufTy).Contents (Elt F) → (⟨S480000, .i32⟩ : BufTy).Contents (Elt F) → (⟨S480000, .i32⟩ : BufTy).Contents (Elt F)),
    unary main_v58 main_v59 (broadcastInDim S480000x1 ![0] bcast_S480000_S480000x1_0 : (⟨S480000, .i32⟩ : BufTy).Contents (Elt F) → (⟨S480000x1, .i32⟩ : BufTy).Contents (Elt F)),
    binary main_arg4 main_v59 main_v60 ((fun x i => Host.gather gather_S30000x64_S480000x1_S480000x64_1_0_n_n_0_1_164 x i) : (⟨S30000x64, .f32⟩ : BufTy).Contents (Elt F) → (⟨S480000x1, .i32⟩ : BufTy).Contents (Elt F) → (⟨S480000x64, .f32⟩ : BufTy).Contents (Elt F)),
    unary main_v53 main_v61 (broadcastInDim S480000x64 ![0, 1] bcast_S480000x1_S480000x64_0_1 : (⟨S480000x1, .f32⟩ : BufTy).Contents (Elt F) → (⟨S480000x64, .f32⟩ : BufTy).Contents (Elt F)),
    binary main_v61 main_v60 main_v62 (mulf : (⟨S480000x64, .f32⟩ : BufTy).Contents (Elt F) → (⟨S480000x64, .f32⟩ : BufTy).Contents (Elt F) → (⟨S480000x64, .f32⟩ : BufTy).Contents (Elt F)),
    nullary main_cst_13 (constant S_ .f32 0x00000000#32),
    unary main_cst_13 main_v63 (broadcastInDim S30000x64 ![] bcast_S_S30000x64 : (⟨S_, .f32⟩ : BufTy).Contents (Elt F) → (⟨S30000x64, .f32⟩ : BufTy).Contents (Elt F)),
    unary main_arg10 main_v64 (broadcastInDim S480000x1 ![0] bcast_S480000_S480000x1_0 : (⟨S480000, .i32⟩ : BufTy).Contents (Elt F) → (⟨S480000x1, .i32⟩ : BufTy).Contents (Elt F)),
    ternary main_v63 main_v64 main_v62 main_v65 ((fun x i u => Host.scatterAdd scatter_S30000x64_S480000x1_S480000x64_1_0_0_1 x i u) : (⟨S30000x64, .f32⟩ : BufTy).Contents (Elt F) → (⟨S480000x1, .i32⟩ : BufTy).Contents (Elt F) → (⟨S480000x64, .f32⟩ : BufTy).Contents (Elt F) → (⟨S30000x64, .f32⟩ : BufTy).Contents (Elt F)),
    nullary main_cst_14 (constant S_ .f32 0x3F666666#32),
    unary main_cst_14 main_v66 (broadcastInDim S30000x64 ![] bcast_S_S30000x64 : (⟨S_, .f32⟩ : BufTy).Contents (Elt F) → (⟨S30000x64, .f32⟩ : BufTy).Contents (Elt F)),
    binary main_v66 main_arg4 main_v67 (mulf : (⟨S30000x64, .f32⟩ : BufTy).Contents (Elt F) → (⟨S30000x64, .f32⟩ : BufTy).Contents (Elt F) → (⟨S30000x64, .f32⟩ : BufTy).Contents (Elt F)),
    binary main_v65 main_v67 main_v68 (addf : (⟨S30000x64, .f32⟩ : BufTy).Contents (Elt F) → (⟨S30000x64, .f32⟩ : BufTy).Contents (Elt F) → (⟨S30000x64, .f32⟩ : BufTy).Contents (Elt F)),
    binary main_arg4 main_v68 main_v69 (addf : (⟨S30000x64, .f32⟩ : BufTy).Contents (Elt F) → (⟨S30000x64, .f32⟩ : BufTy).Contents (Elt F) → (⟨S30000x64, .f32⟩ : BufTy).Contents (Elt F)),
    unary main_arg12 main_v70 (broadcastInDim S480000x1 ![0] bcast_S480000_S480000x1_0 : (⟨S480000, .f32⟩ : BufTy).Contents (Elt F) → (⟨S480000x1, .f32⟩ : BufTy).Contents (Elt F)),
    nullary main_c_15 (constantI S_ 32 0#32),
    unary main_c_15 main_v71 (broadcastInDim S480000 ![] bcast_S_S480000 : (⟨S_, .i32⟩ : BufTy).Contents (Elt F) → (⟨S480000, .i32⟩ : BufTy).Contents (Elt F)),
    binary main_arg11 main_v71 main_v72 (cmpi .slt : (⟨S480000, .i32⟩ : BufTy).Contents (Elt F) → (⟨S480000, .i32⟩ : BufTy).Contents (Elt F) → (⟨S480000, .i1⟩ : BufTy).Contents (Elt F)),
    nullary main_c_16 (constantI S_ 32 30000#32),
    unary main_c_16 main_v73 (broadcastInDim S480000 ![] bcast_S_S480000 : (⟨S_, .i32⟩ : BufTy).Contents (Elt F) → (⟨S480000, .i32⟩ : BufTy).Contents (Elt F)),
    binary main_arg11 main_v73 main_v74 (addi : (⟨S480000, .i32⟩ : BufTy).Contents (Elt F) → (⟨S480000, .i32⟩ : BufTy).Contents (Elt F) → (⟨S480000, .i32⟩ : BufTy).Contents (Elt F)),
    ternary main_v72 main_v74 main_arg11 main_v75 (select : (⟨S480000, .i1⟩ : BufTy).Contents (Elt F) → (⟨S480000, .i32⟩ : BufTy).Contents (Elt F) → (⟨S480000, .i32⟩ : BufTy).Contents (Elt F) → (⟨S480000, .i32⟩ : BufTy).Contents (Elt F)),
    unary main_v75 main_v76 (broadcastInDim S480000x1 ![0] bcast_S480000_S480000x1_0 : (⟨S480000, .i32⟩ : BufTy).Contents (Elt F) → (⟨S480000x1, .i32⟩ : BufTy).Contents (Elt F)),
    binary main_v68 main_v76 main_v77 ((fun x i => Host.gather gather_S30000x64_S480000x1_S480000x64_1_0_n_n_0_1_164 x i) : (⟨S30000x64, .f32⟩ : BufTy).Contents (Elt F) → (⟨S480000x1, .i32⟩ : BufTy).Contents (Elt F) → (⟨S480000x64, .f32⟩ : BufTy).Contents (Elt F)),
    unary main_v70 main_v78 (broadcastInDim S480000x64 ![0, 1] bcast_S480000x1_S480000x64_0_1 : (⟨S480000x1, .f32⟩ : BufTy).Contents (Elt F) → (⟨S480000x64, .f32⟩ : BufTy).Contents (Elt F)),
    binary main_v78 main_v77 main_v79 (mulf : (⟨S480000x64, .f32⟩ : BufTy).Contents (Elt F) → (⟨S480000x64, .f32⟩ : BufTy).Contents (Elt F) → (⟨S480000x64, .f32⟩ : BufTy).Contents (Elt F)),
    nullary main_cst_17 (constant S_ .f32 0x00000000#32),
    unary main_cst_17 main_v80 (broadcastInDim S30000x64 ![] bcast_S_S30000x64 : (⟨S_, .f32⟩ : BufTy).Contents (Elt F) → (⟨S30000x64, .f32⟩ : BufTy).Contents (Elt F)),
    unary main_arg10 main_v81 (broadcastInDim S480000x1 ![0] bcast_S480000_S480000x1_0 : (⟨S480000, .i32⟩ : BufTy).Contents (Elt F) → (⟨S480000x1, .i32⟩ : BufTy).Contents (Elt F)),
    ternary main_v80 main_v81 main_v79 main_v82 ((fun x i u => Host.scatterAdd scatter_S30000x64_S480000x1_S480000x64_1_0_0_1 x i u) : (⟨S30000x64, .f32⟩ : BufTy).Contents (Elt F) → (⟨S480000x1, .i32⟩ : BufTy).Contents (Elt F) → (⟨S480000x64, .f32⟩ : BufTy).Contents (Elt F) → (⟨S30000x64, .f32⟩ : BufTy).Contents (Elt F)),
    nullary main_cst_18 (constant S_ .f32 0x3F666666#32),
    unary main_cst_18 main_v83 (broadcastInDim S30000x64 ![] bcast_S_S30000x64 : (⟨S_, .f32⟩ : BufTy).Contents (Elt F) → (⟨S30000x64, .f32⟩ : BufTy).Contents (Elt F)),
    binary main_v83 main_v68 main_v84 (mulf : (⟨S30000x64, .f32⟩ : BufTy).Contents (Elt F) → (⟨S30000x64, .f32⟩ : BufTy).Contents (Elt F) → (⟨S30000x64, .f32⟩ : BufTy).Contents (Elt F)),
    binary main_v82 main_v84 main_v85 (addf : (⟨S30000x64, .f32⟩ : BufTy).Contents (Elt F) → (⟨S30000x64, .f32⟩ : BufTy).Contents (Elt F) → (⟨S30000x64, .f32⟩ : BufTy).Contents (Elt F)),
    binary main_v69 main_v85 main_v86 (addf : (⟨S30000x64, .f32⟩ : BufTy).Contents (Elt F) → (⟨S30000x64, .f32⟩ : BufTy).Contents (Elt F) → (⟨S30000x64, .f32⟩ : BufTy).Contents (Elt F)),
    unary main_arg12 main_v87 (broadcastInDim S480000x1 ![0] bcast_S480000_S480000x1_0 : (⟨S480000, .f32⟩ : BufTy).Contents (Elt F) → (⟨S480000x1, .f32⟩ : BufTy).Contents (Elt F)),
    nullary main_c_19 (constantI S_ 32 0#32),
    unary main_c_19 main_v88 (broadcastInDim S480000 ![] bcast_S_S480000 : (⟨S_, .i32⟩ : BufTy).Contents (Elt F) → (⟨S480000, .i32⟩ : BufTy).Contents (Elt F)),
    binary main_arg11 main_v88 main_v89 (cmpi .slt : (⟨S480000, .i32⟩ : BufTy).Contents (Elt F) → (⟨S480000, .i32⟩ : BufTy).Contents (Elt F) → (⟨S480000, .i1⟩ : BufTy).Contents (Elt F)),
    nullary main_c_20 (constantI S_ 32 30000#32),
    unary main_c_20 main_v90 (broadcastInDim S480000 ![] bcast_S_S480000 : (⟨S_, .i32⟩ : BufTy).Contents (Elt F) → (⟨S480000, .i32⟩ : BufTy).Contents (Elt F)),
    binary main_arg11 main_v90 main_v91 (addi : (⟨S480000, .i32⟩ : BufTy).Contents (Elt F) → (⟨S480000, .i32⟩ : BufTy).Contents (Elt F) → (⟨S480000, .i32⟩ : BufTy).Contents (Elt F)),
    ternary main_v89 main_v91 main_arg11 main_v92 (select : (⟨S480000, .i1⟩ : BufTy).Contents (Elt F) → (⟨S480000, .i32⟩ : BufTy).Contents (Elt F) → (⟨S480000, .i32⟩ : BufTy).Contents (Elt F) → (⟨S480000, .i32⟩ : BufTy).Contents (Elt F)),
    unary main_v92 main_v93 (broadcastInDim S480000x1 ![0] bcast_S480000_S480000x1_0 : (⟨S480000, .i32⟩ : BufTy).Contents (Elt F) → (⟨S480000x1, .i32⟩ : BufTy).Contents (Elt F)),
    binary main_v85 main_v93 main_v94 ((fun x i => Host.gather gather_S30000x64_S480000x1_S480000x64_1_0_n_n_0_1_164 x i) : (⟨S30000x64, .f32⟩ : BufTy).Contents (Elt F) → (⟨S480000x1, .i32⟩ : BufTy).Contents (Elt F) → (⟨S480000x64, .f32⟩ : BufTy).Contents (Elt F)),
    unary main_v87 main_v95 (broadcastInDim S480000x64 ![0, 1] bcast_S480000x1_S480000x64_0_1 : (⟨S480000x1, .f32⟩ : BufTy).Contents (Elt F) → (⟨S480000x64, .f32⟩ : BufTy).Contents (Elt F)),
    binary main_v95 main_v94 main_v96 (mulf : (⟨S480000x64, .f32⟩ : BufTy).Contents (Elt F) → (⟨S480000x64, .f32⟩ : BufTy).Contents (Elt F) → (⟨S480000x64, .f32⟩ : BufTy).Contents (Elt F)),
    nullary main_cst_21 (constant S_ .f32 0x00000000#32),
    unary main_cst_21 main_v97 (broadcastInDim S30000x64 ![] bcast_S_S30000x64 : (⟨S_, .f32⟩ : BufTy).Contents (Elt F) → (⟨S30000x64, .f32⟩ : BufTy).Contents (Elt F)),
    unary main_arg10 main_v98 (broadcastInDim S480000x1 ![0] bcast_S480000_S480000x1_0 : (⟨S480000, .i32⟩ : BufTy).Contents (Elt F) → (⟨S480000x1, .i32⟩ : BufTy).Contents (Elt F)),
    ternary main_v97 main_v98 main_v96 main_v99 ((fun x i u => Host.scatterAdd scatter_S30000x64_S480000x1_S480000x64_1_0_0_1 x i u) : (⟨S30000x64, .f32⟩ : BufTy).Contents (Elt F) → (⟨S480000x1, .i32⟩ : BufTy).Contents (Elt F) → (⟨S480000x64, .f32⟩ : BufTy).Contents (Elt F) → (⟨S30000x64, .f32⟩ : BufTy).Contents (Elt F)),
    nullary main_cst_22 (constant S_ .f32 0x3F666666#32),
    unary main_cst_22 main_v100 (broadcastInDim S30000x64 ![] bcast_S_S30000x64 : (⟨S_, .f32⟩ : BufTy).Contents (Elt F) → (⟨S30000x64, .f32⟩ : BufTy).Contents (Elt F)),
    binary main_v100 main_v85 main_v101 (mulf : (⟨S30000x64, .f32⟩ : BufTy).Contents (Elt F) → (⟨S30000x64, .f32⟩ : BufTy).Contents (Elt F) → (⟨S30000x64, .f32⟩ : BufTy).Contents (Elt F)),
    binary main_v99 main_v101 main_v102 (addf : (⟨S30000x64, .f32⟩ : BufTy).Contents (Elt F) → (⟨S30000x64, .f32⟩ : BufTy).Contents (Elt F) → (⟨S30000x64, .f32⟩ : BufTy).Contents (Elt F)),
    binary main_v86 main_v102 main_v103 (addf : (⟨S30000x64, .f32⟩ : BufTy).Contents (Elt F) → (⟨S30000x64, .f32⟩ : BufTy).Contents (Elt F) → (⟨S30000x64, .f32⟩ : BufTy).Contents (Elt F)),
    nullary main_cst_23 (constant S_ .f32 0x40800000#32),
    unary main_cst_23 main_v104 (broadcastInDim S30000x64 ![] bcast_S_S30000x64 : (⟨S_, .f32⟩ : BufTy).Contents (Elt F) → (⟨S30000x64, .f32⟩ : BufTy).Contents (Elt F)),
    binary main_v103 main_v104 main_v105 (Host.divf : (⟨S30000x64, .f32⟩ : BufTy).Contents (Elt F) → (⟨S30000x64, .f32⟩ : BufTy).Contents (Elt F) → (⟨S30000x64, .f32⟩ : BufTy).Contents (Elt F)) ]

/-- The references that stretch writes. -/
abbrev WcE : List (Ref sig .tc) :=
  [main_v53, main_c_11, main_v54, main_v55, main_c_12, main_v56, main_v57, main_v58, main_v59, main_v60, main_v61, main_v62, main_cst_13, main_v63, main_v64, main_v65, main_cst_14, main_v66, main_v67, main_v68, main_v69, main_v70, main_c_15, main_v71, main_v72, main_c_16, main_v73, main_v74, main_v75, main_v76, main_v77, main_v78, main_v79, main_cst_17, main_v80, main_v81, main_v82, main_cst_18, main_v83, main_v84, main_v85, main_v86, main_v87, main_c_19, main_v88, main_v89, main_c_20, main_v90, main_v91, main_v92, main_v93, main_v94, main_v95, main_v96, main_cst_21, main_v97, main_v98, main_v99, main_cst_22, main_v100, main_v101, main_v102, main_v103, main_cst_23, main_v104, main_v105]

set_option maxRecDepth 8192 in
theorem cE_writes : (cE : List (HloOp τ sig (Elt F))).Forall fun op => op.writes ⊆ ((WcE).map (Proc.devRef (τ := τ) .tc)).toFinset :=
  ⟨writes_sub (unary_writes ..) (by decide),
   writes_sub (nullary_writes ..) (by decide),
   writes_sub (unary_writes ..) (by decide),
   writes_sub (binary_writes ..) (by decide),
   writes_sub (nullary_writes ..) (by decide),
   writes_sub (unary_writes ..) (by decide),
   writes_sub (binary_writes ..) (by decide),
   writes_sub (ternary_writes ..) (by decide),
   writes_sub (unary_writes ..) (by decide),
   writes_sub (binary_writes ..) (by decide),
   writes_sub (unary_writes ..) (by decide),
   writes_sub (binary_writes ..) (by decide),
   writes_sub (nullary_writes ..) (by decide),
   writes_sub (unary_writes ..) (by decide),
   writes_sub (unary_writes ..) (by decide),
   writes_sub (ternary_writes ..) (by decide),
   writes_sub (nullary_writes ..) (by decide),
   writes_sub (unary_writes ..) (by decide),
   writes_sub (binary_writes ..) (by decide),
   writes_sub (binary_writes ..) (by decide),
   writes_sub (binary_writes ..) (by decide),
   writes_sub (unary_writes ..) (by decide),
   writes_sub (nullary_writes ..) (by decide),
   writes_sub (unary_writes ..) (by decide),
   writes_sub (binary_writes ..) (by decide),
   writes_sub (nullary_writes ..) (by decide),
   writes_sub (unary_writes ..) (by decide),
   writes_sub (binary_writes ..) (by decide),
   writes_sub (ternary_writes ..) (by decide),
   writes_sub (unary_writes ..) (by decide),
   writes_sub (binary_writes ..) (by decide),
   writes_sub (unary_writes ..) (by decide),
   writes_sub (binary_writes ..) (by decide),
   writes_sub (nullary_writes ..) (by decide),
   writes_sub (unary_writes ..) (by decide),
   writes_sub (unary_writes ..) (by decide),
   writes_sub (ternary_writes ..) (by decide),
   writes_sub (nullary_writes ..) (by decide),
   writes_sub (unary_writes ..) (by decide),
   writes_sub (binary_writes ..) (by decide),
   writes_sub (binary_writes ..) (by decide),
   writes_sub (binary_writes ..) (by decide),
   writes_sub (unary_writes ..) (by decide),
   writes_sub (nullary_writes ..) (by decide),
   writes_sub (unary_writes ..) (by decide),
   writes_sub (binary_writes ..) (by decide),
   writes_sub (nullary_writes ..) (by decide),
   writes_sub (unary_writes ..) (by decide),
   writes_sub (binary_writes ..) (by decide),
   writes_sub (ternary_writes ..) (by decide),
   writes_sub (unary_writes ..) (by decide),
   writes_sub (binary_writes ..) (by decide),
   writes_sub (unary_writes ..) (by decide),
   writes_sub (binary_writes ..) (by decide),
   writes_sub (nullary_writes ..) (by decide),
   writes_sub (unary_writes ..) (by decide),
   writes_sub (unary_writes ..) (by decide),
   writes_sub (ternary_writes ..) (by decide),
   writes_sub (nullary_writes ..) (by decide),
   writes_sub (unary_writes ..) (by decide),
   writes_sub (binary_writes ..) (by decide),
   writes_sub (binary_writes ..) (by decide),
   writes_sub (binary_writes ..) (by decide),
   writes_sub (nullary_writes ..) (by decide),
   writes_sub (unary_writes ..) (by decide),
   writes_sub (binary_writes ..) (by decide)⟩

theorem cE_frame {r : Ref sig .tc} (hr : r ∉ WcE) (V : Valuation τ sig (Elt F)) :
    after (cE (F := F)) V (Proc.devRef .tc r) = V (Proc.devRef .tc r) :=
  after_of_writes_sub cE V cE_writes hr

/-- The knowledge graph's stage: operations 133 … 198. -/
abbrev cK : List (HloOp τ sig (Elt F)) :=
  [ unary main_arg15 main_v106 (broadcastInDim S32000x1 ![0] bcast_S32000_S32000x1_0 : (⟨S32000, .f32⟩ : BufTy).Contents (Elt F) → (⟨S32000x1, .f32⟩ : BufTy).Contents (Elt F)),
    nullary main_c_24 (constantI S_ 32 0#32),
    unary main_c_24 main_v107 (broadcastInDim S32000 ![] bcast_S_S32000 : (⟨S_, .i32⟩ : BufTy).Contents (Elt F) → (⟨S32000, .i32⟩ : BufTy).Contents (Elt F)),
    binary main_arg14 main_v107 main_v108 (cmpi .slt : (⟨S32000, .i32⟩ : BufTy).Contents (Elt F) → (⟨S32000, .i32⟩ : BufTy).Contents (Elt F) → (⟨S32000, .i1⟩ : BufTy).Contents (Elt F)),
    nullary main_c_25 (constantI S_ 32 1000#32),
    unary main_c_25 main_v109 (broadcastInDim S32000 ![] bcast_S_S32000 : (⟨S_, .i32⟩ : BufTy).Contents (Elt F) → (⟨S32000, .i32⟩ : BufTy).Contents (Elt F)),
    binary main_arg14 main_v109 main_v110 (addi : (⟨S32000, .i32⟩ : BufTy).Contents (Elt F) → (⟨S32000, .i32⟩ : BufTy).Contents (Elt F) → (⟨S32000, .i32⟩ : BufTy).Contents (Elt F)),
    ternary main_v108 main_v110 main_arg14 main_v111 (select : (⟨S32000, .i1⟩ : BufTy).Contents (Elt F) → (⟨S32000, .i32⟩ : BufTy).Contents (Elt F) → (⟨S32000, .i32⟩ : BufTy).Contents (Elt F) → (⟨S32000, .i32⟩ : BufTy).Contents (Elt F)),
    unary main_v111 main_v112 (broadcastInDim S32000x1 ![0] bcast_S32000_S32000x1_0 : (⟨S32000, .i32⟩ : BufTy).Contents (Elt F) → (⟨S32000x1, .i32⟩ : BufTy).Contents (Elt F)),
    binary main_arg5 main_v112 main_v113 ((fun x i => Host.gather gather_S1000x64_S32000x1_S32000x64_1_0_n_n_0_1_164 x i) : (⟨S1000x64, .f32⟩ : BufTy).Contents (Elt F) → (⟨S32000x1, .i32⟩ : BufTy).Contents (Elt F) → (⟨S32000x64, .f32⟩ : BufTy).Contents (Elt F)),
    unary main_v106 main_v114 (broadcastInDim S32000x64 ![0, 1] bcast_S32000x1_S32000x64_0_1 : (⟨S32000x1, .f32⟩ : BufTy).Contents (Elt F) → (⟨S32000x64, .f32⟩ : BufTy).Contents (Elt F)),
    binary main_v114 main_v113 main_v115 (mulf : (⟨S32000x64, .f32⟩ : BufTy).Contents (Elt F) → (⟨S32000x64, .f32⟩ : BufTy).Contents (Elt F) → (⟨S32000x64, .f32⟩ : BufTy).Contents (Elt F)),
    nullary main_cst_26 (constant S_ .f32 0x00000000#32),
    unary main_cst_26 main_v116 (broadcastInDim S1000x64 ![] bcast_S_S1000x64 : (⟨S_, .f32⟩ : BufTy).Contents (Elt F) → (⟨S1000x64, .f32⟩ : BufTy).Contents (Elt F)),
    unary main_arg13 main_v117 (broadcastInDim S32000x1 ![0] bcast_S32000_S32000x1_0 : (⟨S32000, .i32⟩ : BufTy).Contents (Elt F) → (⟨S32000x1, .i32⟩ : BufTy).Contents (Elt F)),
    ternary main_v116 main_v117 main_v115 main_v118 ((fun x i u => Host.scatterAdd scatter_S1000x64_S32000x1_S32000x64_1_0_0_1 x i u) : (⟨S1000x64, .f32⟩ : BufTy).Contents (Elt F) → (⟨S32000x1, .i32⟩ : BufTy).Contents (Elt F) → (⟨S32000x64, .f32⟩ : BufTy).Contents (Elt F) → (⟨S1000x64, .f32⟩ : BufTy).Contents (Elt F)),
    nullary main_cst_27 (constant S_ .f32 0x3F666666#32),
    unary main_cst_27 main_v119 (broadcastInDim S1000x64 ![] bcast_S_S1000x64 : (⟨S_, .f32⟩ : BufTy).Contents (Elt F) → (⟨S1000x64, .f32⟩ : BufTy).Contents (Elt F)),
    binary main_v119 main_arg5 main_v120 (mulf : (⟨S1000x64, .f32⟩ : BufTy).Contents (Elt F) → (⟨S1000x64, .f32⟩ : BufTy).Contents (Elt F) → (⟨S1000x64, .f32⟩ : BufTy).Contents (Elt F)),
    binary main_v118 main_v120 main_v121 (addf : (⟨S1000x64, .f32⟩ : BufTy).Contents (Elt F) → (⟨S1000x64, .f32⟩ : BufTy).Contents (Elt F) → (⟨S1000x64, .f32⟩ : BufTy).Contents (Elt F)),
    binary main_arg5 main_v121 main_v122 (addf : (⟨S1000x64, .f32⟩ : BufTy).Contents (Elt F) → (⟨S1000x64, .f32⟩ : BufTy).Contents (Elt F) → (⟨S1000x64, .f32⟩ : BufTy).Contents (Elt F)),
    unary main_arg15 main_v123 (broadcastInDim S32000x1 ![0] bcast_S32000_S32000x1_0 : (⟨S32000, .f32⟩ : BufTy).Contents (Elt F) → (⟨S32000x1, .f32⟩ : BufTy).Contents (Elt F)),
    nullary main_c_28 (constantI S_ 32 0#32),
    unary main_c_28 main_v124 (broadcastInDim S32000 ![] bcast_S_S32000 : (⟨S_, .i32⟩ : BufTy).Contents (Elt F) → (⟨S32000, .i32⟩ : BufTy).Contents (Elt F)),
    binary main_arg14 main_v124 main_v125 (cmpi .slt : (⟨S32000, .i32⟩ : BufTy).Contents (Elt F) → (⟨S32000, .i32⟩ : BufTy).Contents (Elt F) → (⟨S32000, .i1⟩ : BufTy).Contents (Elt F)),
    nullary main_c_29 (constantI S_ 32 1000#32),
    unary main_c_29 main_v126 (broadcastInDim S32000 ![] bcast_S_S32000 : (⟨S_, .i32⟩ : BufTy).Contents (Elt F) → (⟨S32000, .i32⟩ : BufTy).Contents (Elt F)),
    binary main_arg14 main_v126 main_v127 (addi : (⟨S32000, .i32⟩ : BufTy).Contents (Elt F) → (⟨S32000, .i32⟩ : BufTy).Contents (Elt F) → (⟨S32000, .i32⟩ : BufTy).Contents (Elt F)),
    ternary main_v125 main_v127 main_arg14 main_v128 (select : (⟨S32000, .i1⟩ : BufTy).Contents (Elt F) → (⟨S32000, .i32⟩ : BufTy).Contents (Elt F) → (⟨S32000, .i32⟩ : BufTy).Contents (Elt F) → (⟨S32000, .i32⟩ : BufTy).Contents (Elt F)),
    unary main_v128 main_v129 (broadcastInDim S32000x1 ![0] bcast_S32000_S32000x1_0 : (⟨S32000, .i32⟩ : BufTy).Contents (Elt F) → (⟨S32000x1, .i32⟩ : BufTy).Contents (Elt F)),
    binary main_v121 main_v129 main_v130 ((fun x i => Host.gather gather_S1000x64_S32000x1_S32000x64_1_0_n_n_0_1_164 x i) : (⟨S1000x64, .f32⟩ : BufTy).Contents (Elt F) → (⟨S32000x1, .i32⟩ : BufTy).Contents (Elt F) → (⟨S32000x64, .f32⟩ : BufTy).Contents (Elt F)),
    unary main_v123 main_v131 (broadcastInDim S32000x64 ![0, 1] bcast_S32000x1_S32000x64_0_1 : (⟨S32000x1, .f32⟩ : BufTy).Contents (Elt F) → (⟨S32000x64, .f32⟩ : BufTy).Contents (Elt F)),
    binary main_v131 main_v130 main_v132 (mulf : (⟨S32000x64, .f32⟩ : BufTy).Contents (Elt F) → (⟨S32000x64, .f32⟩ : BufTy).Contents (Elt F) → (⟨S32000x64, .f32⟩ : BufTy).Contents (Elt F)),
    nullary main_cst_30 (constant S_ .f32 0x00000000#32),
    unary main_cst_30 main_v133 (broadcastInDim S1000x64 ![] bcast_S_S1000x64 : (⟨S_, .f32⟩ : BufTy).Contents (Elt F) → (⟨S1000x64, .f32⟩ : BufTy).Contents (Elt F)),
    unary main_arg13 main_v134 (broadcastInDim S32000x1 ![0] bcast_S32000_S32000x1_0 : (⟨S32000, .i32⟩ : BufTy).Contents (Elt F) → (⟨S32000x1, .i32⟩ : BufTy).Contents (Elt F)),
    ternary main_v133 main_v134 main_v132 main_v135 ((fun x i u => Host.scatterAdd scatter_S1000x64_S32000x1_S32000x64_1_0_0_1 x i u) : (⟨S1000x64, .f32⟩ : BufTy).Contents (Elt F) → (⟨S32000x1, .i32⟩ : BufTy).Contents (Elt F) → (⟨S32000x64, .f32⟩ : BufTy).Contents (Elt F) → (⟨S1000x64, .f32⟩ : BufTy).Contents (Elt F)),
    nullary main_cst_31 (constant S_ .f32 0x3F666666#32),
    unary main_cst_31 main_v136 (broadcastInDim S1000x64 ![] bcast_S_S1000x64 : (⟨S_, .f32⟩ : BufTy).Contents (Elt F) → (⟨S1000x64, .f32⟩ : BufTy).Contents (Elt F)),
    binary main_v136 main_v121 main_v137 (mulf : (⟨S1000x64, .f32⟩ : BufTy).Contents (Elt F) → (⟨S1000x64, .f32⟩ : BufTy).Contents (Elt F) → (⟨S1000x64, .f32⟩ : BufTy).Contents (Elt F)),
    binary main_v135 main_v137 main_v138 (addf : (⟨S1000x64, .f32⟩ : BufTy).Contents (Elt F) → (⟨S1000x64, .f32⟩ : BufTy).Contents (Elt F) → (⟨S1000x64, .f32⟩ : BufTy).Contents (Elt F)),
    binary main_v122 main_v138 main_v139 (addf : (⟨S1000x64, .f32⟩ : BufTy).Contents (Elt F) → (⟨S1000x64, .f32⟩ : BufTy).Contents (Elt F) → (⟨S1000x64, .f32⟩ : BufTy).Contents (Elt F)),
    unary main_arg15 main_v140 (broadcastInDim S32000x1 ![0] bcast_S32000_S32000x1_0 : (⟨S32000, .f32⟩ : BufTy).Contents (Elt F) → (⟨S32000x1, .f32⟩ : BufTy).Contents (Elt F)),
    nullary main_c_32 (constantI S_ 32 0#32),
    unary main_c_32 main_v141 (broadcastInDim S32000 ![] bcast_S_S32000 : (⟨S_, .i32⟩ : BufTy).Contents (Elt F) → (⟨S32000, .i32⟩ : BufTy).Contents (Elt F)),
    binary main_arg14 main_v141 main_v142 (cmpi .slt : (⟨S32000, .i32⟩ : BufTy).Contents (Elt F) → (⟨S32000, .i32⟩ : BufTy).Contents (Elt F) → (⟨S32000, .i1⟩ : BufTy).Contents (Elt F)),
    nullary main_c_33 (constantI S_ 32 1000#32),
    unary main_c_33 main_v143 (broadcastInDim S32000 ![] bcast_S_S32000 : (⟨S_, .i32⟩ : BufTy).Contents (Elt F) → (⟨S32000, .i32⟩ : BufTy).Contents (Elt F)),
    binary main_arg14 main_v143 main_v144 (addi : (⟨S32000, .i32⟩ : BufTy).Contents (Elt F) → (⟨S32000, .i32⟩ : BufTy).Contents (Elt F) → (⟨S32000, .i32⟩ : BufTy).Contents (Elt F)),
    ternary main_v142 main_v144 main_arg14 main_v145 (select : (⟨S32000, .i1⟩ : BufTy).Contents (Elt F) → (⟨S32000, .i32⟩ : BufTy).Contents (Elt F) → (⟨S32000, .i32⟩ : BufTy).Contents (Elt F) → (⟨S32000, .i32⟩ : BufTy).Contents (Elt F)),
    unary main_v145 main_v146 (broadcastInDim S32000x1 ![0] bcast_S32000_S32000x1_0 : (⟨S32000, .i32⟩ : BufTy).Contents (Elt F) → (⟨S32000x1, .i32⟩ : BufTy).Contents (Elt F)),
    binary main_v138 main_v146 main_v147 ((fun x i => Host.gather gather_S1000x64_S32000x1_S32000x64_1_0_n_n_0_1_164 x i) : (⟨S1000x64, .f32⟩ : BufTy).Contents (Elt F) → (⟨S32000x1, .i32⟩ : BufTy).Contents (Elt F) → (⟨S32000x64, .f32⟩ : BufTy).Contents (Elt F)),
    unary main_v140 main_v148 (broadcastInDim S32000x64 ![0, 1] bcast_S32000x1_S32000x64_0_1 : (⟨S32000x1, .f32⟩ : BufTy).Contents (Elt F) → (⟨S32000x64, .f32⟩ : BufTy).Contents (Elt F)),
    binary main_v148 main_v147 main_v149 (mulf : (⟨S32000x64, .f32⟩ : BufTy).Contents (Elt F) → (⟨S32000x64, .f32⟩ : BufTy).Contents (Elt F) → (⟨S32000x64, .f32⟩ : BufTy).Contents (Elt F)),
    nullary main_cst_34 (constant S_ .f32 0x00000000#32),
    unary main_cst_34 main_v150 (broadcastInDim S1000x64 ![] bcast_S_S1000x64 : (⟨S_, .f32⟩ : BufTy).Contents (Elt F) → (⟨S1000x64, .f32⟩ : BufTy).Contents (Elt F)),
    unary main_arg13 main_v151 (broadcastInDim S32000x1 ![0] bcast_S32000_S32000x1_0 : (⟨S32000, .i32⟩ : BufTy).Contents (Elt F) → (⟨S32000x1, .i32⟩ : BufTy).Contents (Elt F)),
    ternary main_v150 main_v151 main_v149 main_v152 ((fun x i u => Host.scatterAdd scatter_S1000x64_S32000x1_S32000x64_1_0_0_1 x i u) : (⟨S1000x64, .f32⟩ : BufTy).Contents (Elt F) → (⟨S32000x1, .i32⟩ : BufTy).Contents (Elt F) → (⟨S32000x64, .f32⟩ : BufTy).Contents (Elt F) → (⟨S1000x64, .f32⟩ : BufTy).Contents (Elt F)),
    nullary main_cst_35 (constant S_ .f32 0x3F666666#32),
    unary main_cst_35 main_v153 (broadcastInDim S1000x64 ![] bcast_S_S1000x64 : (⟨S_, .f32⟩ : BufTy).Contents (Elt F) → (⟨S1000x64, .f32⟩ : BufTy).Contents (Elt F)),
    binary main_v153 main_v138 main_v154 (mulf : (⟨S1000x64, .f32⟩ : BufTy).Contents (Elt F) → (⟨S1000x64, .f32⟩ : BufTy).Contents (Elt F) → (⟨S1000x64, .f32⟩ : BufTy).Contents (Elt F)),
    binary main_v152 main_v154 main_v155 (addf : (⟨S1000x64, .f32⟩ : BufTy).Contents (Elt F) → (⟨S1000x64, .f32⟩ : BufTy).Contents (Elt F) → (⟨S1000x64, .f32⟩ : BufTy).Contents (Elt F)),
    binary main_v139 main_v155 main_v156 (addf : (⟨S1000x64, .f32⟩ : BufTy).Contents (Elt F) → (⟨S1000x64, .f32⟩ : BufTy).Contents (Elt F) → (⟨S1000x64, .f32⟩ : BufTy).Contents (Elt F)),
    nullary main_cst_36 (constant S_ .f32 0x40800000#32),
    unary main_cst_36 main_v157 (broadcastInDim S1000x64 ![] bcast_S_S1000x64 : (⟨S_, .f32⟩ : BufTy).Contents (Elt F) → (⟨S1000x64, .f32⟩ : BufTy).Contents (Elt F)),
    binary main_v156 main_v157 main_v158 (Host.divf : (⟨S1000x64, .f32⟩ : BufTy).Contents (Elt F) → (⟨S1000x64, .f32⟩ : BufTy).Contents (Elt F) → (⟨S1000x64, .f32⟩ : BufTy).Contents (Elt F)) ]

/-- The references that stretch writes. -/
abbrev WcK : List (Ref sig .tc) :=
  [main_v106, main_c_24, main_v107, main_v108, main_c_25, main_v109, main_v110, main_v111, main_v112, main_v113, main_v114, main_v115, main_cst_26, main_v116, main_v117, main_v118, main_cst_27, main_v119, main_v120, main_v121, main_v122, main_v123, main_c_28, main_v124, main_v125, main_c_29, main_v126, main_v127, main_v128, main_v129, main_v130, main_v131, main_v132, main_cst_30, main_v133, main_v134, main_v135, main_cst_31, main_v136, main_v137, main_v138, main_v139, main_v140, main_c_32, main_v141, main_v142, main_c_33, main_v143, main_v144, main_v145, main_v146, main_v147, main_v148, main_v149, main_cst_34, main_v150, main_v151, main_v152, main_cst_35, main_v153, main_v154, main_v155, main_v156, main_cst_36, main_v157, main_v158]

set_option maxRecDepth 8192 in
theorem cK_writes : (cK : List (HloOp τ sig (Elt F))).Forall fun op => op.writes ⊆ ((WcK).map (Proc.devRef (τ := τ) .tc)).toFinset :=
  ⟨writes_sub (unary_writes ..) (by decide),
   writes_sub (nullary_writes ..) (by decide),
   writes_sub (unary_writes ..) (by decide),
   writes_sub (binary_writes ..) (by decide),
   writes_sub (nullary_writes ..) (by decide),
   writes_sub (unary_writes ..) (by decide),
   writes_sub (binary_writes ..) (by decide),
   writes_sub (ternary_writes ..) (by decide),
   writes_sub (unary_writes ..) (by decide),
   writes_sub (binary_writes ..) (by decide),
   writes_sub (unary_writes ..) (by decide),
   writes_sub (binary_writes ..) (by decide),
   writes_sub (nullary_writes ..) (by decide),
   writes_sub (unary_writes ..) (by decide),
   writes_sub (unary_writes ..) (by decide),
   writes_sub (ternary_writes ..) (by decide),
   writes_sub (nullary_writes ..) (by decide),
   writes_sub (unary_writes ..) (by decide),
   writes_sub (binary_writes ..) (by decide),
   writes_sub (binary_writes ..) (by decide),
   writes_sub (binary_writes ..) (by decide),
   writes_sub (unary_writes ..) (by decide),
   writes_sub (nullary_writes ..) (by decide),
   writes_sub (unary_writes ..) (by decide),
   writes_sub (binary_writes ..) (by decide),
   writes_sub (nullary_writes ..) (by decide),
   writes_sub (unary_writes ..) (by decide),
   writes_sub (binary_writes ..) (by decide),
   writes_sub (ternary_writes ..) (by decide),
   writes_sub (unary_writes ..) (by decide),
   writes_sub (binary_writes ..) (by decide),
   writes_sub (unary_writes ..) (by decide),
   writes_sub (binary_writes ..) (by decide),
   writes_sub (nullary_writes ..) (by decide),
   writes_sub (unary_writes ..) (by decide),
   writes_sub (unary_writes ..) (by decide),
   writes_sub (ternary_writes ..) (by decide),
   writes_sub (nullary_writes ..) (by decide),
   writes_sub (unary_writes ..) (by decide),
   writes_sub (binary_writes ..) (by decide),
   writes_sub (binary_writes ..) (by decide),
   writes_sub (binary_writes ..) (by decide),
   writes_sub (unary_writes ..) (by decide),
   writes_sub (nullary_writes ..) (by decide),
   writes_sub (unary_writes ..) (by decide),
   writes_sub (binary_writes ..) (by decide),
   writes_sub (nullary_writes ..) (by decide),
   writes_sub (unary_writes ..) (by decide),
   writes_sub (binary_writes ..) (by decide),
   writes_sub (ternary_writes ..) (by decide),
   writes_sub (unary_writes ..) (by decide),
   writes_sub (binary_writes ..) (by decide),
   writes_sub (unary_writes ..) (by decide),
   writes_sub (binary_writes ..) (by decide),
   writes_sub (nullary_writes ..) (by decide),
   writes_sub (unary_writes ..) (by decide),
   writes_sub (unary_writes ..) (by decide),
   writes_sub (ternary_writes ..) (by decide),
   writes_sub (nullary_writes ..) (by decide),
   writes_sub (unary_writes ..) (by decide),
   writes_sub (binary_writes ..) (by decide),
   writes_sub (binary_writes ..) (by decide),
   writes_sub (binary_writes ..) (by decide),
   writes_sub (nullary_writes ..) (by decide),
   writes_sub (unary_writes ..) (by decide),
   writes_sub (binary_writes ..) (by decide)⟩

theorem cK_frame {r : Ref sig .tc} (hr : r ∉ WcK) (V : Valuation τ sig (Elt F)) :
    after (cK (F := F)) V (Proc.devRef .tc r) = V (Proc.devRef .tc r) :=
  after_of_writes_sub cK V cK_writes hr

/-- The batch gathers and the dense head: operations 199 … 277. -/
abbrev cH : List (HloOp τ sig (Elt F)) :=
  [ nullary main_c_37 (constantI S_ 32 0#32),
    unary main_c_37 main_v159 (broadcastInDim S16384 ![] bcast_S_S16384 : (⟨S_, .i32⟩ : BufTy).Contents (Elt F) → (⟨S16384, .i32⟩ : BufTy).Contents (Elt F)),
    binary main_arg0 main_v159 main_v160 (cmpi .slt : (⟨S16384, .i32⟩ : BufTy).Contents (Elt F) → (⟨S16384, .i32⟩ : BufTy).Contents (Elt F) → (⟨S16384, .i1⟩ : BufTy).Contents (Elt F)),
    nullary main_c_38 (constantI S_ 32 100000#32),
    unary main_c_38 main_v161 (broadcastInDim S16384 ![] bcast_S_S16384 : (⟨S_, .i32⟩ : BufTy).Contents (Elt F) → (⟨S16384, .i32⟩ : BufTy).Contents (Elt F)),
    binary main_arg0 main_v161 main_v162 (addi : (⟨S16384, .i32⟩ : BufTy).Contents (Elt F) → (⟨S16384, .i32⟩ : BufTy).Contents (Elt F) → (⟨S16384, .i32⟩ : BufTy).Contents (Elt F)),
    ternary main_v160 main_v162 main_arg0 main_v163 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v163 main_v164 (broadcastInDim S16384x1 ![0] bcast_S16384_S16384x1_0 : (⟨S16384, .i32⟩ : BufTy).Contents (Elt F) → (⟨S16384x1, .i32⟩ : BufTy).Contents (Elt F)),
    binary main_v52 main_v164 main_v165 ((fun x i => Host.gather gather_S100000x64_S16384x1_S16384x64_1_0_n_n_0_1_164 x i) : (⟨S100000x64, .f32⟩ : BufTy).Contents (Elt F) → (⟨S16384x1, .i32⟩ : BufTy).Contents (Elt F) → (⟨S16384x64, .f32⟩ : BufTy).Contents (Elt F)),
    nullary main_c_39 (constantI S_ 32 0#32),
    unary main_c_39 main_v166 (broadcastInDim S16384 ![] bcast_S_S16384 : (⟨S_, .i32⟩ : BufTy).Contents (Elt F) → (⟨S16384, .i32⟩ : BufTy).Contents (Elt F)),
    binary main_arg1 main_v166 main_v167 (cmpi .slt : (⟨S16384, .i32⟩ : BufTy).Contents (Elt F) → (⟨S16384, .i32⟩ : BufTy).Contents (Elt F) → (⟨S16384, .i1⟩ : BufTy).Contents (Elt F)),
    nullary main_c_40 (constantI S_ 32 30000#32),
    unary main_c_40 main_v168 (broadcastInDim S16384 ![] bcast_S_S16384 : (⟨S_, .i32⟩ : BufTy).Contents (Elt F) → (⟨S16384, .i32⟩ : BufTy).Contents (Elt F)),
    binary main_arg1 main_v168 main_v169 (addi : (⟨S16384, .i32⟩ : BufTy).Contents (Elt F) → (⟨S16384, .i32⟩ : BufTy).Contents (Elt F) → (⟨S16384, .i32⟩ : BufTy).Contents (Elt F)),
    ternary main_v167 main_v169 main_arg1 main_v170 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v170 main_v171 (broadcastInDim S16384x1 ![0] bcast_S16384_S16384x1_0 : (⟨S16384, .i32⟩ : BufTy).Contents (Elt F) → (⟨S16384x1, .i32⟩ : BufTy).Contents (Elt F)),
    binary main_v105 main_v171 main_v172 ((fun x i => Host.gather gather_S30000x64_S16384x1_S16384x64_1_0_n_n_0_1_164 x i) : (⟨S30000x64, .f32⟩ : BufTy).Contents (Elt F) → (⟨S16384x1, .i32⟩ : BufTy).Contents (Elt F) → (⟨S16384x64, .f32⟩ : BufTy).Contents (Elt F)),
    binary main_v165 main_arg16 main_v173 ((fun l r => Host.dotGeneral dot_S16384x64_S64x128_S16384x128_1_0_0_1_n_n none l r) : (⟨S16384x64, .f32⟩ : BufTy).Contents (Elt F) → (⟨S64x128, .f32⟩ : BufTy).Contents (Elt F) → (⟨S16384x128, .f32⟩ : BufTy).Contents (Elt F)),
    unary main_arg17 main_v174 (broadcastInDim S1x128 ![1] bcast_S128_S1x128_1 : (⟨S128, .f32⟩ : BufTy).Contents (Elt F) → (⟨S1x128, .f32⟩ : BufTy).Contents (Elt F)),
    unary main_v174 main_v175 (broadcastInDim S16384x128 ![0, 1] bcast_S1x128_S16384x128_0_1 : (⟨S1x128, .f32⟩ : BufTy).Contents (Elt F) → (⟨S16384x128, .f32⟩ : BufTy).Contents (Elt F)),
    binary main_v173 main_v175 main_v176 (addf : (⟨S16384x128, .f32⟩ : BufTy).Contents (Elt F) → (⟨S16384x128, .f32⟩ : BufTy).Contents (Elt F) → (⟨S16384x128, .f32⟩ : BufTy).Contents (Elt F)),
    nullary main_cst_41 (constant S_ .f32 0x3DCCCCCD#32),
    TRef.nullary main_call0.cst (constant S_ .f32 0x00000000#32),
    TRef.unary main_call0.cst main_call0.v0 (broadcastInDim S16384x128 ![] bcast_S_S16384x128),
    TRef.binary (.of main_v176 : TRef sig ⟨S16384x128, .f32⟩) main_call0.v0 main_call0.v1 (cmpf .oge),
    TRef.unary (.of main_cst_41 : TRef sig ⟨S_, .f32⟩) main_call0.v2 id,
    TRef.unary main_call0.v2 main_call0.v3 (broadcastInDim S16384x128 ![] bcast_S_S16384x128),
    TRef.binary main_call0.v3 (.of main_v176 : TRef sig ⟨S16384x128, .f32⟩) main_call0.v4 mulf,
    TRef.ternary main_call0.v1 (.of main_v176 : TRef sig ⟨S16384x128, .f32⟩) main_call0.v4 main_call0.call0.v0 select,
    binary main_v172 main_arg18 main_v178 ((fun l r => Host.dotGeneral dot_S16384x64_S64x128_S16384x128_1_0_0_1_n_n none l r) : (⟨S16384x64, .f32⟩ : BufTy).Contents (Elt F) → (⟨S64x128, .f32⟩ : BufTy).Contents (Elt F) → (⟨S16384x128, .f32⟩ : BufTy).Contents (Elt F)),
    unary main_arg19 main_v179 (broadcastInDim S1x128 ![1] bcast_S128_S1x128_1 : (⟨S128, .f32⟩ : BufTy).Contents (Elt F) → (⟨S1x128, .f32⟩ : BufTy).Contents (Elt F)),
    unary main_v179 main_v180 (broadcastInDim S16384x128 ![0, 1] bcast_S1x128_S16384x128_0_1 : (⟨S1x128, .f32⟩ : BufTy).Contents (Elt F) → (⟨S16384x128, .f32⟩ : BufTy).Contents (Elt F)),
    binary main_v178 main_v180 main_v181 (addf : (⟨S16384x128, .f32⟩ : BufTy).Contents (Elt F) → (⟨S16384x128, .f32⟩ : BufTy).Contents (Elt F) → (⟨S16384x128, .f32⟩ : BufTy).Contents (Elt F)),
    nullary main_cst_42 (constant S_ .f32 0x3DCCCCCD#32),
    TRef.nullary main_call1.cst (constant S_ .f32 0x00000000#32),
    TRef.unary main_call1.cst main_call1.v0 (broadcastInDim S16384x128 ![] bcast_S_S16384x128),
    TRef.binary (.of main_v181 : TRef sig ⟨S16384x128, .f32⟩) main_call1.v0 main_call1.v1 (cmpf .oge),
    TRef.unary (.of main_cst_42 : TRef sig ⟨S_, .f32⟩) main_call1.v2 id,
    TRef.unary main_call1.v2 main_call1.v3 (broadcastInDim S16384x128 ![] bcast_S_S16384x128),
    TRef.binary main_call1.v3 (.of main_v181 : TRef sig ⟨S16384x128, .f32⟩) main_call1.v4 mulf,
    TRef.ternary main_call1.v1 (.of main_v181 : TRef sig ⟨S16384x128, .f32⟩) main_call1.v4 main_call1.call0.v0 select,
    binary main_v158 main_arg20 main_v183 ((fun l r => Host.dotGeneral dot_S1000x64_S64x128_S1000x128_1_0_0_1_n_n none l r) : (⟨S1000x64, .f32⟩ : BufTy).Contents (Elt F) → (⟨S64x128, .f32⟩ : BufTy).Contents (Elt F) → (⟨S1000x128, .f32⟩ : BufTy).Contents (Elt F)),
    unary main_arg21 main_v184 (broadcastInDim S1x128 ![1] bcast_S128_S1x128_1 : (⟨S128, .f32⟩ : BufTy).Contents (Elt F) → (⟨S1x128, .f32⟩ : BufTy).Contents (Elt F)),
    unary main_v184 main_v185 (broadcastInDim S1000x128 ![0, 1] bcast_S1x128_S1000x128_0_1 : (⟨S1x128, .f32⟩ : BufTy).Contents (Elt F) → (⟨S1000x128, .f32⟩ : BufTy).Contents (Elt F)),
    binary main_v183 main_v185 main_v186 (addf : (⟨S1000x128, .f32⟩ : BufTy).Contents (Elt F) → (⟨S1000x128, .f32⟩ : BufTy).Contents (Elt F) → (⟨S1000x128, .f32⟩ : BufTy).Contents (Elt F)),
    nullary main_cst_43 (constant S_ .f32 0x3DCCCCCD#32),
    TRef.nullary main_call2.cst (constant S_ .f32 0x00000000#32),
    TRef.unary main_call2.cst main_call2.v0 (broadcastInDim S1000x128 ![] bcast_S_S1000x128),
    TRef.binary (.of main_v186 : TRef sig ⟨S1000x128, .f32⟩) main_call2.v0 main_call2.v1 (cmpf .oge),
    TRef.unary (.of main_cst_43 : TRef sig ⟨S_, .f32⟩) main_call2.v2 id,
    TRef.unary main_call2.v2 main_call2.v3 (broadcastInDim S1000x128 ![] bcast_S_S1000x128),
    TRef.binary main_call2.v3 (.of main_v186 : TRef sig ⟨S1000x128, .f32⟩) main_call2.v4 mulf,
    TRef.ternary main_call2.v1 (.of main_v186 : TRef sig ⟨S1000x128, .f32⟩) main_call2.v4 main_call2.call0.v0 select,
    binary main_v172 main_arg22 main_v188 ((fun l r => Host.dotGeneral dot_S16384x64_S64x1_S16384x1_1_0_0_1_n_n none l r) : (⟨S16384x64, .f32⟩ : BufTy).Contents (Elt F) → (⟨S64x1, .f32⟩ : BufTy).Contents (Elt F) → (⟨S16384x1, .f32⟩ : BufTy).Contents (Elt F)),
    unary main_arg23 main_v189 (broadcastInDim S1x1 ![1] bcast_S1_S1x1_1 : (⟨S1, .f32⟩ : BufTy).Contents (Elt F) → (⟨S1x1, .f32⟩ : BufTy).Contents (Elt F)),
    unary main_v189 main_v190 (broadcastInDim S16384x1 ![0, 1] bcast_S1x1_S16384x1_0_1 : (⟨S1x1, .f32⟩ : BufTy).Contents (Elt F) → (⟨S16384x1, .f32⟩ : BufTy).Contents (Elt F)),
    binary main_v188 main_v190 main_v191 (addf : (⟨S16384x1, .f32⟩ : BufTy).Contents (Elt F) → (⟨S16384x1, .f32⟩ : BufTy).Contents (Elt F) → (⟨S16384x1, .f32⟩ : BufTy).Contents (Elt F)),
    unary main_v191 main_v192 (Host.negf : (⟨S16384x1, .f32⟩ : BufTy).Contents (Elt F) → (⟨S16384x1, .f32⟩ : BufTy).Contents (Elt F)),
    unary main_v192 main_v193 (Host.exp : (⟨S16384x1, .f32⟩ : BufTy).Contents (Elt F) → (⟨S16384x1, .f32⟩ : BufTy).Contents (Elt F)),
    nullary main_cst_44 (constant S_ .f32 0x3F800000#32),
    unary main_cst_44 main_v194 (broadcastInDim S16384x1 ![] bcast_S_S16384x1 : (⟨S_, .f32⟩ : BufTy).Contents (Elt F) → (⟨S16384x1, .f32⟩ : BufTy).Contents (Elt F)),
    binary main_v194 main_v193 main_v195 (addf : (⟨S16384x1, .f32⟩ : BufTy).Contents (Elt F) → (⟨S16384x1, .f32⟩ : BufTy).Contents (Elt F) → (⟨S16384x1, .f32⟩ : BufTy).Contents (Elt F)),
    nullary main_cst_45 (constant S_ .f32 0x3F800000#32),
    unary main_cst_45 main_v196 (broadcastInDim S16384x1 ![] bcast_S_S16384x1 : (⟨S_, .f32⟩ : BufTy).Contents (Elt F) → (⟨S16384x1, .f32⟩ : BufTy).Contents (Elt F)),
    binary main_v196 main_v195 main_v197 (Host.divf : (⟨S16384x1, .f32⟩ : BufTy).Contents (Elt F) → (⟨S16384x1, .f32⟩ : BufTy).Contents (Elt F) → (⟨S16384x1, .f32⟩ : BufTy).Contents (Elt F)),
    unary main_v187 main_v198 ((transpose S128x1000 [1, 0] · transposes_S1000x128_S128x1000_1_0) : (⟨S1000x128, .f32⟩ : BufTy).Contents (Elt F) → (⟨S128x1000, .f32⟩ : BufTy).Contents (Elt F)),
    binary main_v177 main_v198 main_v199 ((fun l r => Host.dotGeneral dot_S16384x128_S128x1000_S16384x1000_1_0_0_1_n_n none l r) : (⟨S16384x128, .f32⟩ : BufTy).Contents (Elt F) → (⟨S128x1000, .f32⟩ : BufTy).Contents (Elt F) → (⟨S16384x1000, .f32⟩ : BufTy).Contents (Elt F)),
    unary main_v187 main_v200 ((transpose S128x1000 [1, 0] · transposes_S1000x128_S128x1000_1_0) : (⟨S1000x128, .f32⟩ : BufTy).Contents (Elt F) → (⟨S128x1000, .f32⟩ : BufTy).Contents (Elt F)),
    binary main_v182 main_v200 main_v201 ((fun l r => Host.dotGeneral dot_S16384x128_S128x1000_S16384x1000_1_0_0_1_n_n none l r) : (⟨S16384x128, .f32⟩ : BufTy).Contents (Elt F) → (⟨S128x1000, .f32⟩ : BufTy).Contents (Elt F) → (⟨S16384x1000, .f32⟩ : BufTy).Contents (Elt F)),
    nullary main_c_46 (constantI S_ 32 0#32),
    unary main_c_46 main_v202 (broadcastInDim S16384 ![] bcast_S_S16384 : (⟨S_, .i32⟩ : BufTy).Contents (Elt F) → (⟨S16384, .i32⟩ : BufTy).Contents (Elt F)),
    binary main_arg1 main_v202 main_v203 (cmpi .slt : (⟨S16384, .i32⟩ : BufTy).Contents (Elt F) → (⟨S16384, .i32⟩ : BufTy).Contents (Elt F) → (⟨S16384, .i1⟩ : BufTy).Contents (Elt F)),
    nullary main_c_47 (constantI S_ 32 30000#32),
    unary main_c_47 main_v204 (broadcastInDim S16384 ![] bcast_S_S16384 : (⟨S_, .i32⟩ : BufTy).Contents (Elt F) → (⟨S16384, .i32⟩ : BufTy).Contents (Elt F)),
    binary main_arg1 main_v204 main_v205 (addi : (⟨S16384, .i32⟩ : BufTy).Contents (Elt F) → (⟨S16384, .i32⟩ : BufTy).Contents (Elt F) → (⟨S16384, .i32⟩ : BufTy).Contents (Elt F)),
    ternary main_v203 main_v205 main_arg1 main_v206 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v206 main_v207 (broadcastInDim S16384x1 ![0] bcast_S16384_S16384x1_0 : (⟨S16384, .i32⟩ : BufTy).Contents (Elt F) → (⟨S16384x1, .i32⟩ : BufTy).Contents (Elt F)),
    binary main_arg6 main_v207 main_v208 ((fun x i => Host.gather gather_S30000x64_S16384x1_S16384x64_1_0_n_n_0_1_164 x i) : (⟨S30000x64, .f32⟩ : BufTy).Contents (Elt F) → (⟨S16384x1, .i32⟩ : BufTy).Contents (Elt F) → (⟨S16384x64, .f32⟩ : BufTy).Contents (Elt F)) ]

/-- The references that stretch writes. -/
abbrev WcH : List (Ref sig .tc) :=
  [main_c_37, main_v159, main_v160, main_c_38, main_v161, main_v162, main_v163, main_v164, main_v165, main_c_39, main_v166, main_v167, main_c_40, main_v168, main_v169, main_v170, main_v171, main_v172, main_v173, main_v174, main_v175, main_v176, main_cst_41, main_call0_cst, main_call0_v0, main_call0_v1, main_call0_v2, main_call0_v3, main_call0_v4, main_v177, main_v178, main_v179, main_v180, main_v181, main_cst_42, main_call1_cst, main_call1_v0, main_call1_v1, main_call1_v2, main_call1_v3, main_call1_v4, main_v182, main_v183, main_v184, main_v185, main_v186, main_cst_43, main_call2_cst, main_call2_v0, main_call2_v1, main_call2_v2, main_call2_v3, main_call2_v4, main_v187, main_v188, main_v189, main_v190, main_v191, main_v192, main_v193, main_cst_44, main_v194, main_v195, main_cst_45, main_v196, main_v197, main_v198, main_v199, main_v200, main_v201, main_c_46, main_v202, main_v203, main_c_47, main_v204, main_v205, main_v206, main_v207, main_v208]

set_option maxRecDepth 8192 in
theorem cH_writes : (cH : List (HloOp τ sig (Elt F))).Forall fun op => op.writes ⊆ ((WcH).map (Proc.devRef (τ := τ) .tc)).toFinset :=
  ⟨writes_sub (nullary_writes ..) (by decide),
   writes_sub (unary_writes ..) (by decide),
   writes_sub (binary_writes ..) (by decide),
   writes_sub (nullary_writes ..) (by decide),
   writes_sub (unary_writes ..) (by decide),
   writes_sub (binary_writes ..) (by decide),
   writes_sub (ternary_writes ..) (by decide),
   writes_sub (unary_writes ..) (by decide),
   writes_sub (binary_writes ..) (by decide),
   writes_sub (nullary_writes ..) (by decide),
   writes_sub (unary_writes ..) (by decide),
   writes_sub (binary_writes ..) (by decide),
   writes_sub (nullary_writes ..) (by decide),
   writes_sub (unary_writes ..) (by decide),
   writes_sub (binary_writes ..) (by decide),
   writes_sub (ternary_writes ..) (by decide),
   writes_sub (unary_writes ..) (by decide),
   writes_sub (binary_writes ..) (by decide),
   writes_sub (binary_writes ..) (by decide),
   writes_sub (unary_writes ..) (by decide),
   writes_sub (unary_writes ..) (by decide),
   writes_sub (binary_writes ..) (by decide),
   writes_sub (nullary_writes ..) (by decide),
   writes_sub (nullary_writes ..) (by decide),
   writes_sub (unary_writes ..) (by decide),
   writes_sub (binary_writes ..) (by decide),
   writes_sub (unary_writes ..) (by decide),
   writes_sub (unary_writes ..) (by decide),
   writes_sub (binary_writes ..) (by decide),
   writes_sub (ternary_writes ..) (by decide),
   writes_sub (binary_writes ..) (by decide),
   writes_sub (unary_writes ..) (by decide),
   writes_sub (unary_writes ..) (by decide),
   writes_sub (binary_writes ..) (by decide),
   writes_sub (nullary_writes ..) (by decide),
   writes_sub (nullary_writes ..) (by decide),
   writes_sub (unary_writes ..) (by decide),
   writes_sub (binary_writes ..) (by decide),
   writes_sub (unary_writes ..) (by decide),
   writes_sub (unary_writes ..) (by decide),
   writes_sub (binary_writes ..) (by decide),
   writes_sub (ternary_writes ..) (by decide),
   writes_sub (binary_writes ..) (by decide),
   writes_sub (unary_writes ..) (by decide),
   writes_sub (unary_writes ..) (by decide),
   writes_sub (binary_writes ..) (by decide),
   writes_sub (nullary_writes ..) (by decide),
   writes_sub (nullary_writes ..) (by decide),
   writes_sub (unary_writes ..) (by decide),
   writes_sub (binary_writes ..) (by decide),
   writes_sub (unary_writes ..) (by decide),
   writes_sub (unary_writes ..) (by decide),
   writes_sub (binary_writes ..) (by decide),
   writes_sub (ternary_writes ..) (by decide),
   writes_sub (binary_writes ..) (by decide),
   writes_sub (unary_writes ..) (by decide),
   writes_sub (unary_writes ..) (by decide),
   writes_sub (binary_writes ..) (by decide),
   writes_sub (unary_writes ..) (by decide),
   writes_sub (unary_writes ..) (by decide),
   writes_sub (nullary_writes ..) (by decide),
   writes_sub (unary_writes ..) (by decide),
   writes_sub (binary_writes ..) (by decide),
   writes_sub (nullary_writes ..) (by decide),
   writes_sub (unary_writes ..) (by decide),
   writes_sub (binary_writes ..) (by decide),
   writes_sub (unary_writes ..) (by decide),
   writes_sub (binary_writes ..) (by decide),
   writes_sub (unary_writes ..) (by decide),
   writes_sub (binary_writes ..) (by decide),
   writes_sub (nullary_writes ..) (by decide),
   writes_sub (unary_writes ..) (by decide),
   writes_sub (binary_writes ..) (by decide),
   writes_sub (nullary_writes ..) (by decide),
   writes_sub (unary_writes ..) (by decide),
   writes_sub (binary_writes ..) (by decide),
   writes_sub (ternary_writes ..) (by decide),
   writes_sub (unary_writes ..) (by decide),
   writes_sub (binary_writes ..) (by decide)⟩

theorem cH_frame {r : Ref sig .tc} (hr : r ∉ WcH) (V : Valuation τ sig (Elt F)) :
    after (cH (F := F)) V (Proc.devRef .tc r) = V (Proc.devRef .tc r) :=
  after_of_writes_sub cH V cH_writes hr

set_option maxRecDepth 16384 in
set_option maxHeartbeats 4000000 in
/-- The line is its four stretches one after the other. -/
theorem ops_chunks : (ops : List (HloOp τ sig (Elt F))) = cS ++ (cE ++ (cK ++ cH)) := rfl

/-! ## What the results hold

Each stretch is read on its own, from any contents: a graph stage's smoothed table is the specification's term of the
arguments; the head's five results are the specification's terms of the three tables and the arguments. Carried through
the later stretches unchanged, they compose to the specification's terms of the arguments alone. -/

section Results
attribute [local irreducible] Host.gather Host.scatterAdd

set_option maxRecDepth 16384 in
set_option maxHeartbeats 4000000 in
theorem S_v52 (V : Valuation τ sig (Elt Ideal)) :
    after (cS (F := Ideal)) V (Proc.devRef .tc main_v52)
      = Cert.Spec.convS (F := Ideal) (V (Proc.devRef .tc main_arg3)) (V (Proc.devRef .tc main_arg7)) (V (Proc.devRef .tc main_arg8)) (V (Proc.devRef .tc main_arg9)) := by
  unfold cS
  after_results_simp <;> rfl

set_option maxRecDepth 16384 in
set_option maxHeartbeats 4000000 in
theorem E_v105 (V : Valuation τ sig (Elt Ideal)) :
    after (cE (F := Ideal)) V (Proc.devRef .tc main_v105)
      = Cert.Spec.convE (F := Ideal) (V (Proc.devRef .tc main_arg4)) (V (Proc.devRef .tc main_arg10)) (V (Proc.devRef .tc main_arg11)) (V (Proc.devRef .tc main_arg12)) := by
  unfold cE
  after_results_simp <;> rfl

set_option maxRecDepth 16384 in
set_option maxHeartbeats 4000000 in
theorem K_v158 (V : Valuation τ sig (Elt Ideal)) :
    after (cK (F := Ideal)) V (Proc.devRef .tc main_v158)
      = Cert.Spec.convK (F := Ideal) (V (Proc.devRef .tc main_arg5)) (V (Proc.devRef .tc main_arg13)) (V (Proc.devRef .tc main_arg14)) (V (Proc.devRef .tc main_arg15)) := by
  unfold cK
  after_results_simp <;> rfl

set_option maxRecDepth 16384 in
set_option maxHeartbeats 4000000 in
theorem H_main_v199 (W : Valuation τ sig (Elt Ideal)) :
    after (cH (F := Ideal)) W (Proc.devRef .tc main_v199)
      = Cert.Spec.hostScore (F := Ideal) (Cert.Spec.hostProjB (F := Ideal) (Host.gather Cert.KernelIdeal.gather_S100000x64_S16384x1_S16384x64_1_0_n_n_0_1_164 (W (Proc.devRef .tc main_v52)) (Cert.Spec.batchIdx 100000#32 (W (Proc.devRef .tc main_arg0)))) (W (Proc.devRef .tc main_arg16)) (W (Proc.devRef .tc main_arg17))) (Cert.Spec.hostKnowTs (F := Ideal) (W (Proc.devRef .tc main_v158)) (W (Proc.devRef .tc main_arg20)) (W (Proc.devRef .tc main_arg21))) := by
  unfold cH
  after_results_simp <;> rfl

set_option maxRecDepth 16384 in
set_option maxHeartbeats 4000000 in
theorem H_main_v201 (W : Valuation τ sig (Elt Ideal)) :
    after (cH (F := Ideal)) W (Proc.devRef .tc main_v201)
      = Cert.Spec.hostScore (F := Ideal) (Cert.Spec.hostProjB (F := Ideal) (Host.gather Cert.KernelIdeal.gather_S30000x64_S16384x1_S16384x64_1_0_n_n_0_1_164 (W (Proc.devRef .tc main_v105)) (Cert.Spec.batchIdx 30000#32 (W (Proc.devRef .tc main_arg1)))) (W (Proc.devRef .tc main_arg18)) (W (Proc.devRef .tc main_arg19))) (Cert.Spec.hostKnowTs (F := Ideal) (W (Proc.devRef .tc main_v158)) (W (Proc.devRef .tc main_arg20)) (W (Proc.devRef .tc main_arg21))) := by
  unfold cH
  after_results_simp <;> rfl

set_option maxRecDepth 16384 in
set_option maxHeartbeats 4000000 in
theorem H_main_v197 (W : Valuation τ sig (Elt Ideal)) :
    after (cH (F := Ideal)) W (Proc.devRef .tc main_v197)
      = Cert.Spec.hostDisc (F := Ideal) (Host.gather Cert.KernelIdeal.gather_S30000x64_S16384x1_S16384x64_1_0_n_n_0_1_164 (W (Proc.devRef .tc main_v105)) (Cert.Spec.batchIdx 30000#32 (W (Proc.devRef .tc main_arg1)))) (W (Proc.devRef .tc main_arg22)) (W (Proc.devRef .tc main_arg23)) := by
  unfold cH
  after_results_simp <;> rfl

set_option maxRecDepth 16384 in
set_option maxHeartbeats 4000000 in
theorem H_main_v187 (W : Valuation τ sig (Elt Ideal)) :
    after (cH (F := Ideal)) W (Proc.devRef .tc main_v187)
      = Cert.Spec.hostKnowTs (F := Ideal) (W (Proc.devRef .tc main_v158)) (W (Proc.devRef .tc main_arg20)) (W (Proc.devRef .tc main_arg21)) := by
  unfold cH
  after_results_simp <;> rfl

set_option maxRecDepth 16384 in
set_option maxHeartbeats 4000000 in
theorem H_main_v208 (W : Valuation τ sig (Elt Ideal)) :
    after (cH (F := Ideal)) W (Proc.devRef .tc main_v208)
      = Cert.Spec.impact (F := Ideal) (W (Proc.devRef .tc main_arg1)) (W (Proc.devRef .tc main_arg6)) := by
  unfold cH
  after_results_simp <;> rfl

theorem pre_arg0 (V : Valuation τ sig (Elt Ideal)) :
    after (cK (F := Ideal)) (after cE (after cS V)) (Proc.devRef .tc main_arg0) = V (Proc.devRef .tc main_arg0) :=
  (cK_frame (by decide) _).trans ((cE_frame (by decide) _).trans (cS_frame (by decide) _))

theorem pre_arg1 (V : Valuation τ sig (Elt Ideal)) :
    after (cK (F := Ideal)) (after cE (after cS V)) (Proc.devRef .tc main_arg1) = V (Proc.devRef .tc main_arg1) :=
  (cK_frame (by decide) _).trans ((cE_frame (by decide) _).trans (cS_frame (by decide) _))

theorem pre_arg2 (V : Valuation τ sig (Elt Ideal)) :
    after (cK (F := Ideal)) (after cE (after cS V)) (Proc.devRef .tc main_arg2) = V (Proc.devRef .tc main_arg2) :=
  (cK_frame (by decide) _).trans ((cE_frame (by decide) _).trans (cS_frame (by decide) _))

theorem pre_arg3 (V : Valuation τ sig (Elt Ideal)) :
    after (cK (F := Ideal)) (after cE (after cS V)) (Proc.devRef .tc main_arg3) = V (Proc.devRef .tc main_arg3) :=
  (cK_frame (by decide) _).trans ((cE_frame (by decide) _).trans (cS_frame (by decide) _))

theorem pre_arg4 (V : Valuation τ sig (Elt Ideal)) :
    after (cK (F := Ideal)) (after cE (after cS V)) (Proc.devRef .tc main_arg4) = V (Proc.devRef .tc main_arg4) :=
  (cK_frame (by decide) _).trans ((cE_frame (by decide) _).trans (cS_frame (by decide) _))

theorem pre_arg5 (V : Valuation τ sig (Elt Ideal)) :
    after (cK (F := Ideal)) (after cE (after cS V)) (Proc.devRef .tc main_arg5) = V (Proc.devRef .tc main_arg5) :=
  (cK_frame (by decide) _).trans ((cE_frame (by decide) _).trans (cS_frame (by decide) _))

theorem pre_arg6 (V : Valuation τ sig (Elt Ideal)) :
    after (cK (F := Ideal)) (after cE (after cS V)) (Proc.devRef .tc main_arg6) = V (Proc.devRef .tc main_arg6) :=
  (cK_frame (by decide) _).trans ((cE_frame (by decide) _).trans (cS_frame (by decide) _))

theorem pre_arg7 (V : Valuation τ sig (Elt Ideal)) :
    after (cK (F := Ideal)) (after cE (after cS V)) (Proc.devRef .tc main_arg7) = V (Proc.devRef .tc main_arg7) :=
  (cK_frame (by decide) _).trans ((cE_frame (by decide) _).trans (cS_frame (by decide) _))

theorem pre_arg8 (V : Valuation τ sig (Elt Ideal)) :
    after (cK (F := Ideal)) (after cE (after cS V)) (Proc.devRef .tc main_arg8) = V (Proc.devRef .tc main_arg8) :=
  (cK_frame (by decide) _).trans ((cE_frame (by decide) _).trans (cS_frame (by decide) _))

theorem pre_arg9 (V : Valuation τ sig (Elt Ideal)) :
    after (cK (F := Ideal)) (after cE (after cS V)) (Proc.devRef .tc main_arg9) = V (Proc.devRef .tc main_arg9) :=
  (cK_frame (by decide) _).trans ((cE_frame (by decide) _).trans (cS_frame (by decide) _))

theorem pre_arg10 (V : Valuation τ sig (Elt Ideal)) :
    after (cK (F := Ideal)) (after cE (after cS V)) (Proc.devRef .tc main_arg10) = V (Proc.devRef .tc main_arg10) :=
  (cK_frame (by decide) _).trans ((cE_frame (by decide) _).trans (cS_frame (by decide) _))

theorem pre_arg11 (V : Valuation τ sig (Elt Ideal)) :
    after (cK (F := Ideal)) (after cE (after cS V)) (Proc.devRef .tc main_arg11) = V (Proc.devRef .tc main_arg11) :=
  (cK_frame (by decide) _).trans ((cE_frame (by decide) _).trans (cS_frame (by decide) _))

theorem pre_arg12 (V : Valuation τ sig (Elt Ideal)) :
    after (cK (F := Ideal)) (after cE (after cS V)) (Proc.devRef .tc main_arg12) = V (Proc.devRef .tc main_arg12) :=
  (cK_frame (by decide) _).trans ((cE_frame (by decide) _).trans (cS_frame (by decide) _))

theorem pre_arg13 (V : Valuation τ sig (Elt Ideal)) :
    after (cK (F := Ideal)) (after cE (after cS V)) (Proc.devRef .tc main_arg13) = V (Proc.devRef .tc main_arg13) :=
  (cK_frame (by decide) _).trans ((cE_frame (by decide) _).trans (cS_frame (by decide) _))

theorem pre_arg14 (V : Valuation τ sig (Elt Ideal)) :
    after (cK (F := Ideal)) (after cE (after cS V)) (Proc.devRef .tc main_arg14) = V (Proc.devRef .tc main_arg14) :=
  (cK_frame (by decide) _).trans ((cE_frame (by decide) _).trans (cS_frame (by decide) _))

theorem pre_arg15 (V : Valuation τ sig (Elt Ideal)) :
    after (cK (F := Ideal)) (after cE (after cS V)) (Proc.devRef .tc main_arg15) = V (Proc.devRef .tc main_arg15) :=
  (cK_frame (by decide) _).trans ((cE_frame (by decide) _).trans (cS_frame (by decide) _))

theorem pre_arg16 (V : Valuation τ sig (Elt Ideal)) :
    after (cK (F := Ideal)) (after cE (after cS V)) (Proc.devRef .tc main_arg16) = V (Proc.devRef .tc main_arg16) :=
  (cK_frame (by decide) _).trans ((cE_frame (by decide) _).trans (cS_frame (by decide) _))

theorem pre_arg17 (V : Valuation τ sig (Elt Ideal)) :
    after (cK (F := Ideal)) (after cE (after cS V)) (Proc.devRef .tc main_arg17) = V (Proc.devRef .tc main_arg17) :=
  (cK_frame (by decide) _).trans ((cE_frame (by decide) _).trans (cS_frame (by decide) _))

theorem pre_arg18 (V : Valuation τ sig (Elt Ideal)) :
    after (cK (F := Ideal)) (after cE (after cS V)) (Proc.devRef .tc main_arg18) = V (Proc.devRef .tc main_arg18) :=
  (cK_frame (by decide) _).trans ((cE_frame (by decide) _).trans (cS_frame (by decide) _))

theorem pre_arg19 (V : Valuation τ sig (Elt Ideal)) :
    after (cK (F := Ideal)) (after cE (after cS V)) (Proc.devRef .tc main_arg19) = V (Proc.devRef .tc main_arg19) :=
  (cK_frame (by decide) _).trans ((cE_frame (by decide) _).trans (cS_frame (by decide) _))

theorem pre_arg20 (V : Valuation τ sig (Elt Ideal)) :
    after (cK (F := Ideal)) (after cE (after cS V)) (Proc.devRef .tc main_arg20) = V (Proc.devRef .tc main_arg20) :=
  (cK_frame (by decide) _).trans ((cE_frame (by decide) _).trans (cS_frame (by decide) _))

theorem pre_arg21 (V : Valuation τ sig (Elt Ideal)) :
    after (cK (F := Ideal)) (after cE (after cS V)) (Proc.devRef .tc main_arg21) = V (Proc.devRef .tc main_arg21) :=
  (cK_frame (by decide) _).trans ((cE_frame (by decide) _).trans (cS_frame (by decide) _))

theorem pre_arg22 (V : Valuation τ sig (Elt Ideal)) :
    after (cK (F := Ideal)) (after cE (after cS V)) (Proc.devRef .tc main_arg22) = V (Proc.devRef .tc main_arg22) :=
  (cK_frame (by decide) _).trans ((cE_frame (by decide) _).trans (cS_frame (by decide) _))

theorem pre_arg23 (V : Valuation τ sig (Elt Ideal)) :
    after (cK (F := Ideal)) (after cE (after cS V)) (Proc.devRef .tc main_arg23) = V (Proc.devRef .tc main_arg23) :=
  (cK_frame (by decide) _).trans ((cE_frame (by decide) _).trans (cS_frame (by decide) _))

theorem pre_v52 (V : Valuation τ sig (Elt Ideal)) :
    after (cK (F := Ideal)) (after cE (after cS V)) (Proc.devRef .tc main_v52)
      = Cert.Spec.convS (F := Ideal) (V (Proc.devRef .tc main_arg3)) (V (Proc.devRef .tc main_arg7)) (V (Proc.devRef .tc main_arg8)) (V (Proc.devRef .tc main_arg9)) :=
  (cK_frame (by decide) _).trans ((cE_frame (by decide) _).trans (S_v52 V))

theorem pre_v105 (V : Valuation τ sig (Elt Ideal)) :
    after (cK (F := Ideal)) (after cE (after cS V)) (Proc.devRef .tc main_v105)
      = Cert.Spec.convE (F := Ideal) (V (Proc.devRef .tc main_arg4)) (V (Proc.devRef .tc main_arg10)) (V (Proc.devRef .tc main_arg11)) (V (Proc.devRef .tc main_arg12)) := by
  rw [cK_frame (r := main_v105) (by decide), E_v105, cS_frame (r := main_arg4) (by decide), cS_frame (r := main_arg10) (by decide), cS_frame (r := main_arg11) (by decide), cS_frame (r := main_arg12) (by decide)]

theorem pre_v158 (V : Valuation τ sig (Elt Ideal)) :
    after (cK (F := Ideal)) (after cE (after cS V)) (Proc.devRef .tc main_v158)
      = Cert.Spec.convK (F := Ideal) (V (Proc.devRef .tc main_arg5)) (V (Proc.devRef .tc main_arg13)) (V (Proc.devRef .tc main_arg14)) (V (Proc.devRef .tc main_arg15)) := by
  rw [K_v158, cE_frame (r := main_arg5) (by decide), cS_frame (r := main_arg5) (by decide), cE_frame (r := main_arg13) (by decide), cS_frame (r := main_arg13) (by decide), cE_frame (r := main_arg14) (by decide), cS_frame (r := main_arg14) (by decide), cE_frame (r := main_arg15) (by decide), cS_frame (r := main_arg15) (by decide)]

set_option maxRecDepth 16384 in
set_option maxHeartbeats 4000000 in
/-- The fold read at `main_v199`, from any contents `V`: the specification's term of the arguments' contents. -/
theorem res_main_v199 (V : Valuation τ sig (Elt Ideal)) :
    after (ops (F := Ideal)) V (Proc.devRef .tc main_v199)
      = Cert.Spec.hostScore (F := Ideal) (Cert.Spec.hostProjB (F := Ideal) (Cert.Spec.batchStudent (F := Ideal) (V (Proc.devRef .tc main_arg0)) (V (Proc.devRef .tc main_arg3)) (V (Proc.devRef .tc main_arg7)) (V (Proc.devRef .tc main_arg8)) (V (Proc.devRef .tc main_arg9))) (V (Proc.devRef .tc main_arg16)) (V (Proc.devRef .tc main_arg17))) (Cert.Spec.hostKnowTs (F := Ideal) (Cert.Spec.convK (F := Ideal) (V (Proc.devRef .tc main_arg5)) (V (Proc.devRef .tc main_arg13)) (V (Proc.devRef .tc main_arg14)) (V (Proc.devRef .tc main_arg15))) (V (Proc.devRef .tc main_arg20)) (V (Proc.devRef .tc main_arg21))) := by
  rw [ops_chunks, after_append, after_append, after_append, H_main_v199, pre_v52, pre_v158, pre_arg0, pre_arg16, pre_arg17, pre_arg20, pre_arg21] <;> rfl

set_option maxRecDepth 16384 in
set_option maxHeartbeats 4000000 in
/-- The fold read at `main_v201`, from any contents `V`: the specification's term of the arguments' contents. -/
theorem res_main_v201 (V : Valuation τ sig (Elt Ideal)) :
    after (ops (F := Ideal)) V (Proc.devRef .tc main_v201)
      = Cert.Spec.hostScore (F := Ideal) (Cert.Spec.hostProjB (F := Ideal) (Cert.Spec.batchExercise (F := Ideal) (V (Proc.devRef .tc main_arg1)) (V (Proc.devRef .tc main_arg4)) (V (Proc.devRef .tc main_arg10)) (V (Proc.devRef .tc main_arg11)) (V (Proc.devRef .tc main_arg12))) (V (Proc.devRef .tc main_arg18)) (V (Proc.devRef .tc main_arg19))) (Cert.Spec.hostKnowTs (F := Ideal) (Cert.Spec.convK (F := Ideal) (V (Proc.devRef .tc main_arg5)) (V (Proc.devRef .tc main_arg13)) (V (Proc.devRef .tc main_arg14)) (V (Proc.devRef .tc main_arg15))) (V (Proc.devRef .tc main_arg20)) (V (Proc.devRef .tc main_arg21))) := by
  rw [ops_chunks, after_append, after_append, after_append, H_main_v201, pre_v105, pre_v158, pre_arg1, pre_arg18, pre_arg19, pre_arg20, pre_arg21] <;> rfl

set_option maxRecDepth 16384 in
set_option maxHeartbeats 4000000 in
/-- The fold read at `main_v197`, from any contents `V`: the specification's term of the arguments' contents. -/
theorem res_main_v197 (V : Valuation τ sig (Elt Ideal)) :
    after (ops (F := Ideal)) V (Proc.devRef .tc main_v197)
      = Cert.Spec.hostDisc (F := Ideal) (Cert.Spec.batchExercise (F := Ideal) (V (Proc.devRef .tc main_arg1)) (V (Proc.devRef .tc main_arg4)) (V (Proc.devRef .tc main_arg10)) (V (Proc.devRef .tc main_arg11)) (V (Proc.devRef .tc main_arg12))) (V (Proc.devRef .tc main_arg22)) (V (Proc.devRef .tc main_arg23)) := by
  rw [ops_chunks, after_append, after_append, after_append, H_main_v197, pre_v105, pre_arg1, pre_arg22, pre_arg23] <;> rfl

set_option maxRecDepth 16384 in
set_option maxHeartbeats 4000000 in
/-- The fold read at `main_v187`, from any contents `V`: the specification's term of the arguments' contents. -/
theorem res_main_v187 (V : Valuation τ sig (Elt Ideal)) :
    after (ops (F := Ideal)) V (Proc.devRef .tc main_v187)
      = Cert.Spec.hostKnowTs (F := Ideal) (Cert.Spec.convK (F := Ideal) (V (Proc.devRef .tc main_arg5)) (V (Proc.devRef .tc main_arg13)) (V (Proc.devRef .tc main_arg14)) (V (Proc.devRef .tc main_arg15))) (V (Proc.devRef .tc main_arg20)) (V (Proc.devRef .tc main_arg21)) := by
  rw [ops_chunks, after_append, after_append, after_append, H_main_v187, pre_v158, pre_arg20, pre_arg21] <;> rfl

set_option maxRecDepth 16384 in
set_option maxHeartbeats 4000000 in
/-- The fold read at `main_v208`, from any contents `V`: the specification's term of the arguments' contents. -/
theorem res_main_v208 (V : Valuation τ sig (Elt Ideal)) :
    after (ops (F := Ideal)) V (Proc.devRef .tc main_v208)
      = Cert.Spec.impact (F := Ideal) (V (Proc.devRef .tc main_arg1)) (V (Proc.devRef .tc main_arg6)) := by
  rw [ops_chunks, after_append, after_append, after_append, H_main_v208, pre_arg1, pre_arg6] <;> rfl

theorem res_main_arg0 (V : Valuation τ sig (Elt Ideal)) :
    after (ops (F := Ideal)) V (Proc.devRef .tc main_arg0) = V (Proc.devRef .tc main_arg0) := by
  rw [ops_chunks, after_append, after_append, after_append, cH_frame (r := main_arg0) (by decide), pre_arg0]

theorem res_main_arg1 (V : Valuation τ sig (Elt Ideal)) :
    after (ops (F := Ideal)) V (Proc.devRef .tc main_arg1) = V (Proc.devRef .tc main_arg1) := by
  rw [ops_chunks, after_append, after_append, after_append, cH_frame (r := main_arg1) (by decide), pre_arg1]

theorem res_main_arg2 (V : Valuation τ sig (Elt Ideal)) :
    after (ops (F := Ideal)) V (Proc.devRef .tc main_arg2) = V (Proc.devRef .tc main_arg2) := by
  rw [ops_chunks, after_append, after_append, after_append, cH_frame (r := main_arg2) (by decide), pre_arg2]

theorem res_main_arg3 (V : Valuation τ sig (Elt Ideal)) :
    after (ops (F := Ideal)) V (Proc.devRef .tc main_arg3) = V (Proc.devRef .tc main_arg3) := by
  rw [ops_chunks, after_append, after_append, after_append, cH_frame (r := main_arg3) (by decide), pre_arg3]

theorem res_main_arg4 (V : Valuation τ sig (Elt Ideal)) :
    after (ops (F := Ideal)) V (Proc.devRef .tc main_arg4) = V (Proc.devRef .tc main_arg4) := by
  rw [ops_chunks, after_append, after_append, after_append, cH_frame (r := main_arg4) (by decide), pre_arg4]

theorem res_main_arg5 (V : Valuation τ sig (Elt Ideal)) :
    after (ops (F := Ideal)) V (Proc.devRef .tc main_arg5) = V (Proc.devRef .tc main_arg5) := by
  rw [ops_chunks, after_append, after_append, after_append, cH_frame (r := main_arg5) (by decide), pre_arg5]

theorem res_main_arg6 (V : Valuation τ sig (Elt Ideal)) :
    after (ops (F := Ideal)) V (Proc.devRef .tc main_arg6) = V (Proc.devRef .tc main_arg6) := by
  rw [ops_chunks, after_append, after_append, after_append, cH_frame (r := main_arg6) (by decide), pre_arg6]

theorem res_main_arg7 (V : Valuation τ sig (Elt Ideal)) :
    after (ops (F := Ideal)) V (Proc.devRef .tc main_arg7) = V (Proc.devRef .tc main_arg7) := by
  rw [ops_chunks, after_append, after_append, after_append, cH_frame (r := main_arg7) (by decide), pre_arg7]

theorem res_main_arg8 (V : Valuation τ sig (Elt Ideal)) :
    after (ops (F := Ideal)) V (Proc.devRef .tc main_arg8) = V (Proc.devRef .tc main_arg8) := by
  rw [ops_chunks, after_append, after_append, after_append, cH_frame (r := main_arg8) (by decide), pre_arg8]

theorem res_main_arg9 (V : Valuation τ sig (Elt Ideal)) :
    after (ops (F := Ideal)) V (Proc.devRef .tc main_arg9) = V (Proc.devRef .tc main_arg9) := by
  rw [ops_chunks, after_append, after_append, after_append, cH_frame (r := main_arg9) (by decide), pre_arg9]

theorem res_main_arg10 (V : Valuation τ sig (Elt Ideal)) :
    after (ops (F := Ideal)) V (Proc.devRef .tc main_arg10) = V (Proc.devRef .tc main_arg10) := by
  rw [ops_chunks, after_append, after_append, after_append, cH_frame (r := main_arg10) (by decide), pre_arg10]

theorem res_main_arg11 (V : Valuation τ sig (Elt Ideal)) :
    after (ops (F := Ideal)) V (Proc.devRef .tc main_arg11) = V (Proc.devRef .tc main_arg11) := by
  rw [ops_chunks, after_append, after_append, after_append, cH_frame (r := main_arg11) (by decide), pre_arg11]

theorem res_main_arg12 (V : Valuation τ sig (Elt Ideal)) :
    after (ops (F := Ideal)) V (Proc.devRef .tc main_arg12) = V (Proc.devRef .tc main_arg12) := by
  rw [ops_chunks, after_append, after_append, after_append, cH_frame (r := main_arg12) (by decide), pre_arg12]

theorem res_main_arg13 (V : Valuation τ sig (Elt Ideal)) :
    after (ops (F := Ideal)) V (Proc.devRef .tc main_arg13) = V (Proc.devRef .tc main_arg13) := by
  rw [ops_chunks, after_append, after_append, after_append, cH_frame (r := main_arg13) (by decide), pre_arg13]

theorem res_main_arg14 (V : Valuation τ sig (Elt Ideal)) :
    after (ops (F := Ideal)) V (Proc.devRef .tc main_arg14) = V (Proc.devRef .tc main_arg14) := by
  rw [ops_chunks, after_append, after_append, after_append, cH_frame (r := main_arg14) (by decide), pre_arg14]

theorem res_main_arg15 (V : Valuation τ sig (Elt Ideal)) :
    after (ops (F := Ideal)) V (Proc.devRef .tc main_arg15) = V (Proc.devRef .tc main_arg15) := by
  rw [ops_chunks, after_append, after_append, after_append, cH_frame (r := main_arg15) (by decide), pre_arg15]

theorem res_main_arg16 (V : Valuation τ sig (Elt Ideal)) :
    after (ops (F := Ideal)) V (Proc.devRef .tc main_arg16) = V (Proc.devRef .tc main_arg16) := by
  rw [ops_chunks, after_append, after_append, after_append, cH_frame (r := main_arg16) (by decide), pre_arg16]

theorem res_main_arg17 (V : Valuation τ sig (Elt Ideal)) :
    after (ops (F := Ideal)) V (Proc.devRef .tc main_arg17) = V (Proc.devRef .tc main_arg17) := by
  rw [ops_chunks, after_append, after_append, after_append, cH_frame (r := main_arg17) (by decide), pre_arg17]

theorem res_main_arg18 (V : Valuation τ sig (Elt Ideal)) :
    after (ops (F := Ideal)) V (Proc.devRef .tc main_arg18) = V (Proc.devRef .tc main_arg18) := by
  rw [ops_chunks, after_append, after_append, after_append, cH_frame (r := main_arg18) (by decide), pre_arg18]

theorem res_main_arg19 (V : Valuation τ sig (Elt Ideal)) :
    after (ops (F := Ideal)) V (Proc.devRef .tc main_arg19) = V (Proc.devRef .tc main_arg19) := by
  rw [ops_chunks, after_append, after_append, after_append, cH_frame (r := main_arg19) (by decide), pre_arg19]

theorem res_main_arg20 (V : Valuation τ sig (Elt Ideal)) :
    after (ops (F := Ideal)) V (Proc.devRef .tc main_arg20) = V (Proc.devRef .tc main_arg20) := by
  rw [ops_chunks, after_append, after_append, after_append, cH_frame (r := main_arg20) (by decide), pre_arg20]

theorem res_main_arg21 (V : Valuation τ sig (Elt Ideal)) :
    after (ops (F := Ideal)) V (Proc.devRef .tc main_arg21) = V (Proc.devRef .tc main_arg21) := by
  rw [ops_chunks, after_append, after_append, after_append, cH_frame (r := main_arg21) (by decide), pre_arg21]

theorem res_main_arg22 (V : Valuation τ sig (Elt Ideal)) :
    after (ops (F := Ideal)) V (Proc.devRef .tc main_arg22) = V (Proc.devRef .tc main_arg22) := by
  rw [ops_chunks, after_append, after_append, after_append, cH_frame (r := main_arg22) (by decide), pre_arg22]

theorem res_main_arg23 (V : Valuation τ sig (Elt Ideal)) :
    after (ops (F := Ideal)) V (Proc.devRef .tc main_arg23) = V (Proc.devRef .tc main_arg23) := by
  rw [ops_chunks, after_append, after_append, after_append, cH_frame (r := main_arg23) (by decide), pre_arg23]

/-- On every device, at the ideal float values, from any memory with zero counters: every weakly fair execution of
    @main terminates with each result at the specification's term of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v199) = Cert.Spec.hostScore (F := Ideal) (Cert.Spec.hostProjB (F := Ideal) (Cert.Spec.batchStudent (F := Ideal) (m ((c.tc : Thread nD τ).loc main_arg0)) (m ((c.tc : Thread nD τ).loc main_arg3)) (m ((c.tc : Thread nD τ).loc main_arg7)) (m ((c.tc : Thread nD τ).loc main_arg8)) (m ((c.tc : Thread nD τ).loc main_arg9))) (m ((c.tc : Thread nD τ).loc main_arg16)) (m ((c.tc : Thread nD τ).loc main_arg17))) (Cert.Spec.hostKnowTs (F := Ideal) (Cert.Spec.convK (F := Ideal) (m ((c.tc : Thread nD τ).loc main_arg5)) (m ((c.tc : Thread nD τ).loc main_arg13)) (m ((c.tc : Thread nD τ).loc main_arg14)) (m ((c.tc : Thread nD τ).loc main_arg15))) (m ((c.tc : Thread nD τ).loc main_arg20)) (m ((c.tc : Thread nD τ).loc main_arg21)))
      ∧ r.2.mem ((c.tc : Thread nD τ).loc main_v201) = Cert.Spec.hostScore (F := Ideal) (Cert.Spec.hostProjB (F := Ideal) (Cert.Spec.batchExercise (F := Ideal) (m ((c.tc : Thread nD τ).loc main_arg1)) (m ((c.tc : Thread nD τ).loc main_arg4)) (m ((c.tc : Thread nD τ).loc main_arg10)) (m ((c.tc : Thread nD τ).loc main_arg11)) (m ((c.tc : Thread nD τ).loc main_arg12))) (m ((c.tc : Thread nD τ).loc main_arg18)) (m ((c.tc : Thread nD τ).loc main_arg19))) (Cert.Spec.hostKnowTs (F := Ideal) (Cert.Spec.convK (F := Ideal) (m ((c.tc : Thread nD τ).loc main_arg5)) (m ((c.tc : Thread nD τ).loc main_arg13)) (m ((c.tc : Thread nD τ).loc main_arg14)) (m ((c.tc : Thread nD τ).loc main_arg15))) (m ((c.tc : Thread nD τ).loc main_arg20)) (m ((c.tc : Thread nD τ).loc main_arg21)))
      ∧ r.2.mem ((c.tc : Thread nD τ).loc main_v197) = Cert.Spec.hostDisc (F := Ideal) (Cert.Spec.batchExercise (F := Ideal) (m ((c.tc : Thread nD τ).loc main_arg1)) (m ((c.tc : Thread nD τ).loc main_arg4)) (m ((c.tc : Thread nD τ).loc main_arg10)) (m ((c.tc : Thread nD τ).loc main_arg11)) (m ((c.tc : Thread nD τ).loc main_arg12))) (m ((c.tc : Thread nD τ).loc main_arg22)) (m ((c.tc : Thread nD τ).loc main_arg23))
      ∧ r.2.mem ((c.tc : Thread nD τ).loc main_v187) = Cert.Spec.hostKnowTs (F := Ideal) (Cert.Spec.convK (F := Ideal) (m ((c.tc : Thread nD τ).loc main_arg5)) (m ((c.tc : Thread nD τ).loc main_arg13)) (m ((c.tc : Thread nD τ).loc main_arg14)) (m ((c.tc : Thread nD τ).loc main_arg15))) (m ((c.tc : Thread nD τ).loc main_arg20)) (m ((c.tc : Thread nD τ).loc main_arg21))
      ∧ r.2.mem ((c.tc : Thread nD τ).loc main_v208) = Cert.Spec.impact (F := Ideal) (m ((c.tc : Thread nD τ).loc main_arg1)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23) :=
  (θ_run defs _ _).mono (fun _ h c => ⟨(h c main_v199).trans (res_main_v199 (launchContents m c)),
      (h c main_v201).trans (res_main_v201 (launchContents m c)),
      (h c main_v197).trans (res_main_v197 (launchContents m c)),
      (h c main_v187).trans (res_main_v187 (launchContents m c)),
      (h c main_v208).trans (res_main_v208 (launchContents m c)),
      (h c main_arg0).trans (res_main_arg0 (launchContents m c)),
      (h c main_arg1).trans (res_main_arg1 (launchContents m c)),
      (h c main_arg2).trans (res_main_arg2 (launchContents m c)),
      (h c main_arg3).trans (res_main_arg3 (launchContents m c)),
      (h c main_arg4).trans (res_main_arg4 (launchContents m c)),
      (h c main_arg5).trans (res_main_arg5 (launchContents m c)),
      (h c main_arg6).trans (res_main_arg6 (launchContents m c)),
      (h c main_arg7).trans (res_main_arg7 (launchContents m c)),
      (h c main_arg8).trans (res_main_arg8 (launchContents m c)),
      (h c main_arg9).trans (res_main_arg9 (launchContents m c)),
      (h c main_arg10).trans (res_main_arg10 (launchContents m c)),
      (h c main_arg11).trans (res_main_arg11 (launchContents m c)),
      (h c main_arg12).trans (res_main_arg12 (launchContents m c)),
      (h c main_arg13).trans (res_main_arg13 (launchContents m c)),
      (h c main_arg14).trans (res_main_arg14 (launchContents m c)),
      (h c main_arg15).trans (res_main_arg15 (launchContents m c)),
      (h c main_arg16).trans (res_main_arg16 (launchContents m c)),
      (h c main_arg17).trans (res_main_arg17 (launchContents m c)),
      (h c main_arg18).trans (res_main_arg18 (launchContents m c)),
      (h c main_arg19).trans (res_main_arg19 (launchContents m c)),
      (h c main_arg20).trans (res_main_arg20 (launchContents m c)),
      (h c main_arg21).trans (res_main_arg21 (launchContents m c)),
      (h c main_arg22).trans (res_main_arg22 (launchContents m c)),
      (h c main_arg23).trans (res_main_arg23 (launchContents m c))⟩)
    (run_after m ρ)

end Results

end Cert.ReferenceIdeal.RefRun

end
-- ==== Proof.HostIdx.lean ====
/-
  The reference's dense head read at an index, at the ideal values (floats are extended reals).

  The host operations compose the head as: a matrix product (a sum over the one contracted coordinate of products of
  entries), a bias laid along the rows, the leaky rectifier written as a select on `y ≥ 0` between `y` and the
  slope times `y`; for the scores a product against the transposed knowledge projection; for the discrimination
  `1 / (1 + exp (−y))`, which is the logistic function. Read at an index these are the index-level targets
  `proj`, `score` and `disc`.
-/
import proofs.«140787_j71700184039602_1_alg».proof.Proof.Spec
import Idealize.ShloMosaic.Lib.ValueIdx
import Idealize.ShloMosaic.Lib.Pipeline.Value
import Idealize.ShloMosaic.Lib.ValueLayout
import Idealize.ShloMosaic.Lib.IdealHost
import Idealize.ShloMosaic.Lib.KernelVsHost
import Idealize.ShloMosaic.PureOps.Ideal.Laws

noncomputable section

open scoped BigOperators

namespace Cert.Spec.HostIdx

open Idealize.ShloMosaic Idealize.ShloMosaic.ValueIdx
open Cert.ReferenceIdeal Cert.ReferenceIdeal.Facts₀
open Cert.Spec (LK)

variable [Cert.ReferenceIdeal.Facts₀]

/-! ## Single host operations at an index -/

/-- The host's product of an m×k by a k×n matrix (the left operand's axis 1 contracted with the right operand's
    axis 0), read at `(a, b)`: the sum over the contracted coordinate. -/
theorem dotGeneral_rows_cols_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims _ _ _) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The printed select on `y ≥ 0` between `y` and the slope times `y` is `LK y`. -/
theorem select_oge_eq_LK (y : EReal) :
    Scalar.select (Ideal.cmp .oge y (Ideal.ofBits .f32 0x00000000#32)) y (Ideal.ofBits .f32 0x3DCCCCCD#32 * y)
      = LK y := by
  unfold LK Scalar.select Ideal.cmp
  rw [Ideal.ofBits_zero_f32]
  by_cases h : (0 : EReal) ≤ y
  · simp [h]
  · simp [h]

/-- The leaky rectifier as the host writes it on any shape (zero and the slope broadcast from scalars), read at an
    index, is `LK` of the element. -/
theorem leaky_apply {T : Shape} (h : (⟨0, ![]⟩ : Shape).BroadcastsInDim T ![]) (y : FVec Ideal T .f32) (j : T.Idx) :
    select (cmpf .oge y (broadcastInDim T ![] h (constant (F := Ideal) ⟨0, ![]⟩ .f32 0x00000000#32))) y
        (mulf (broadcastInDim T ![] h (constant (F := Ideal) ⟨0, ![]⟩ .f32 0x3DCCCCCD#32)) y) j
      = LK (y j) := by
  rw [select_apply, cmpf_apply, mulf_apply, broadcastInDim_scalar_apply, broadcastInDim_scalar_apply,
    constant_apply, constant_apply]
  exact select_oge_eq_LK _

/-- A bias `[b]` laid as one row `[1, b]` and broadcast down `a` rows reads, at `(p, c)`, the bias at `c`. -/
theorem bias_rows_apply {a b : Nat} (v : (⟨1, ![b]⟩ : Shape).Idx → EReal)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (c : Fin b) :
    broadcastInDim ⟨2, ![a, b]⟩ ![0, 1] h2 (broadcastInDim ⟨2, ![1, b]⟩ ![1] h1 v) (ix2 p c) = v (ix1 c) := by
  rw [broadcastInDim_oneRow_apply]
  refine broadcastInDim_apply ![1] h1 v (ix2 (0 : Fin 1) c) (ix1 c) fun ax => ?_
  match ax with
  | ⟨0, _⟩ =>
    show c.val = if b = 1 then 0 else c.val
    split
    · have := c.isLt; omega
    · rfl

/-- The host's exponential at an index is the exponential of the element. -/
theorem hostExp_apply {s : Shape} {φ : FTy} (a : FVec Ideal s φ) (i : s.Idx) : Host.exp a i = Ideal.exp (a i) := rfl

/-- The host's negation at an index is the negation of the element. -/
theorem hostNegf_apply {s : Shape} {φ : FTy} (a : FVec Ideal s φ) (i : s.Idx) : Host.negf a i = -(a i) := rfl

/-! ## The head's compositions at an index -/

theorem hostKnowTs_apply (kf : FVec Ideal S1000x64 .f32) (W : FVec Ideal S64x128 .f32) (b : FVec Ideal S128 .f32)
    (q : Fin 1000) (f : Fin 128) :
    Cert.Spec.hostKnowTs kf W b (ix2 q f)
      = Cert.Spec.proj (fun q k => kf (ix2 q k)) (fun k f => W (ix2 k f)) (fun f => b (ix1 f)) q f := by
  unfold Cert.Spec.hostKnowTs Cert.Spec.leakyK Cert.Spec.proj
  rw [leaky_apply, addf_apply, bias_rows_apply]
  exact congrArg (fun t => LK (t + b (ix1 f))) (dotGeneral_rows_cols_apply _ none kf W q f)

theorem hostProjB_apply (x : FVec Ideal S16384x64 .f32) (W : FVec Ideal S64x128 .f32) (b : FVec Ideal S128 .f32)
    (P : Fin 16384) (f : Fin 128) :
    Cert.Spec.hostProjB x W b (ix2 P f)
      = Cert.Spec.proj (fun P k => x (ix2 P k)) (fun k f => W (ix2 k f)) (fun f => b (ix1 f)) P f := by
  unfold Cert.Spec.hostProjB Cert.Spec.leakyB Cert.Spec.proj
  rw [leaky_apply, addf_apply, bias_rows_apply]
  exact congrArg (fun t => LK (t + b (ix1 f))) (dotGeneral_rows_cols_apply _ none x W P f)

theorem hostScore_apply (pr : FVec Ideal S16384x128 .f32) (kts : FVec Ideal S1000x128 .f32)
    (P : Fin 16384) (q : Fin 1000) :
    Cert.Spec.hostScore pr kts (ix2 P q) = ∑ f : Fin 128, pr (ix2 P f) * kts (ix2 q f) := by
  unfold Cert.Spec.hostScore
  refine (dotGeneral_rows_cols_apply _ none pr _ P q).trans ?_
  exact Finset.sum_congr rfl fun f _ => by rw [transpose_ix2_apply]

theorem hostScore_proj (x : FVec Ideal S16384x64 .f32) (W : FVec Ideal S64x128 .f32) (b : FVec Ideal S128 .f32)
    (kts : FVec Ideal S1000x128 .f32) (P : Fin 16384) (q : Fin 1000) :
    Cert.Spec.hostScore (Cert.Spec.hostProjB x W b) kts (ix2 P q)
      = Cert.Spec.score (fun P k => x (ix2 P k)) (fun k f => W (ix2 k f)) (fun f => b (ix1 f))
          (fun q f => kts (ix2 q f)) P q := by
  rw [hostScore_apply]
  unfold Cert.Spec.score
  exact Finset.sum_congr rfl fun f _ => by rw [hostProjB_apply]

theorem hostDisc_apply (be : FVec Ideal S16384x64 .f32) (w : FVec Ideal S64x1 .f32) (b : FVec Ideal S1 .f32)
    (P : Fin 16384) :
    Cert.Spec.hostDisc be w b (ix2 P (0 : Fin 1))
      = Cert.Spec.disc (fun P k => be (ix2 P k)) (fun k => w (ix2 k (0 : Fin 1))) (b (ix1 (0 : Fin 1))) P := by
  unfold Cert.Spec.hostDisc Cert.Spec.disc Ideal.logistic
  rw [hostDivf_apply, addf_apply, hostExp_apply, hostNegf_apply, addf_apply, bias_rows_apply,
    broadcastInDim_scalar_apply, constant_apply, Ideal.ofBits_one_f32]
  exact congrArg (fun t => Ideal.div 1 (1 + Ideal.exp (-(t + b (ix1 (0 : Fin 1))))))
    (dotGeneral_rows_cols_apply _ none be w P (0 : Fin 1))

end Cert.Spec.HostIdx

end
-- ==== Proof.Bridge.lean ====
/-
  The reference's dense head and the kernel side's whole-array functions are the same functions.

  Both are, entry by entry, the index-level targets `proj`, `score` and `disc` of the same arrays: the reference's
  host operations read at an index give them (one lemma each), and the kernel side's functions are defined by them at
  the index's coordinates. The two programs' shape names denote the same shapes.
-/
import proofs.«140787_j71700184039602_1_alg».proof.Proof.KBlocks
import proofs.«140787_j71700184039602_1_alg».proof.Proof.HostIdx

noncomputable section

namespace Cert.Bridge

open Idealize.ShloMosaic Idealize.ShloMosaic.ValueIdx

variable [Cert.ReferenceIdeal.Facts₀]

/-- The reference's knowledge projection is the kernel side's whole-array function of the same three arrays. -/
theorem hostKnowTs_eq (kf : FVec Ideal Cert.ReferenceIdeal.S1000x64 .f32) (W : FVec Ideal Cert.ReferenceIdeal.S64x128 .f32)
    (b : FVec Ideal Cert.ReferenceIdeal.S128 .f32) :
    Cert.Spec.hostKnowTs kf W b = Cert.KernelIdeal.KBlocks.K3 kf W b := by
  funext i
  obtain ⟨q, f, rfl⟩ : ∃ (q : Fin 1000) (f : Fin 128), i = ix2 q f := ⟨i 0, i 1, eq_ix2 i⟩
  exact Cert.Spec.HostIdx.hostKnowTs_apply kf W b q f

/-- The reference's score array (projected rows against the transposed knowledge projection) is the kernel side's
    whole-array function of the rows, the weight, the bias and the knowledge projection. -/
theorem hostScore_eq (x : FVec Ideal Cert.ReferenceIdeal.S16384x64 .f32) (W : FVec Ideal Cert.ReferenceIdeal.S64x128 .f32)
    (b : FVec Ideal Cert.ReferenceIdeal.S128 .f32) (kf : FVec Ideal Cert.ReferenceIdeal.S1000x64 .f32)
    (Wk : FVec Ideal Cert.ReferenceIdeal.S64x128 .f32) (bk : FVec Ideal Cert.ReferenceIdeal.S128 .f32) :
    Cert.Spec.hostScore (Cert.Spec.hostProjB x W b) (Cert.Spec.hostKnowTs kf Wk bk)
      = Cert.KernelIdeal.KBlocks.S9 x W b (Cert.KernelIdeal.KBlocks.K3 kf Wk bk) := by
  rw [hostKnowTs_eq]
  funext i
  obtain ⟨P, q, rfl⟩ : ∃ (P : Fin 16384) (q : Fin 1000), i = ix2 P q := ⟨i 0, i 1, eq_ix2 i⟩
  exact Cert.Spec.HostIdx.hostScore_proj x W b (Cert.KernelIdeal.KBlocks.K3 kf Wk bk) P q

/-- The reference's discrimination column is the kernel side's whole-array function of the rows, the weight column
    and the bias. -/
theorem hostDisc_eq (be : FVec Ideal Cert.ReferenceIdeal.S16384x64 .f32) (w : FVec Ideal Cert.ReferenceIdeal.S64x1 .f32)
    (b : FVec Ideal Cert.ReferenceIdeal.S1 .f32) :
    Cert.Spec.hostDisc be w b = Cert.KernelIdeal.KBlocks.D11 be w b := by
  funext i
  obtain ⟨P, z, rfl⟩ : ∃ (P : Fin 16384) (z : Fin 1), i = ix2 P z := ⟨i 0, i 1, eq_ix2 i⟩
  obtain rfl : z = 0 := Subsingleton.elim _ _
  exact Cert.Spec.HostIdx.hostDisc_apply be w b P

end Cert.Bridge

end
-- ==== Proof.lean ====
/-
  The certificate of a graph-smoothing, dense-head model against its plain reference.

  Both programs smooth three embedding tables over sparse graphs with the same host operations, gather a batch of
  student and exercise rows, and then compute: a rectified affine projection of the knowledge table; the student and
  exercise rows' rectified projections contracted with it over the 128 features (two score arrays); a logistic
  discrimination column; and the batch's impact rows. The kernel program does the dense part in two grid regions
  (formats narrowed to bf16 before each product, which on the extended reals changes nothing); the reference does it
  with host products and a transposed table.

  The three frames: the two kernel programs' are the generated frame certificates; the reference's is its run with the
  results dropped. Nothing was rewritten when the kernel was idealized, so there is nothing to preserve. For the value
  claim both runs are stated with the SAME five functions of the argument arrays: the kernel's by tiling its blocks,
  the reference's by reading its host operations index by index; the graph stage is carried as one function on both
  sides and never opened, and no step needs the inputs to be finite.
-/
import proofs.«140787_j71700184039602_1_alg».proof.Defs
import proofs.«140787_j71700184039602_1_alg».proof.Proof.Gen.Kernel
import proofs.«140787_j71700184039602_1_alg».proof.Proof.Gen.Kernel.Frame
import proofs.«140787_j71700184039602_1_alg».proof.Proof.Gen.KernelIdeal
import proofs.«140787_j71700184039602_1_alg».proof.Proof.Gen.KernelIdeal.Frame
import proofs.«140787_j71700184039602_1_alg».proof.Proof.Gen.ReferenceIdeal
import proofs.«140787_j71700184039602_1_alg».proof.Proof.Gen.Pre_finite_inputs
import proofs.«140787_j71700184039602_1_alg».proof.Proof.KValue
import proofs.«140787_j71700184039602_1_alg».proof.Proof.RefRun
import proofs.«140787_j71700184039602_1_alg».proof.Proof.Bridge

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the five results forgotten. -/
theorem frame_ri : Cert.frame_ReferenceIdeal := fun m ρ _ =>
  (θ_run Cert.ReferenceIdeal.defs _ _).mono (fun _ h c => (h c).2.2.2.2.2) (Cert.ReferenceIdeal.RefRun.run m ρ)

/-- From memories that agree on the arguments both programs end with the same five arrays: the reference's host head,
    read index by index, is the function the kernel's blocks tile. -/
theorem algebraic : Cert.algebraic_KernelIdeal_ReferenceIdeal := by
  intro m ρ m' ρ' _ hagree
  refine ⟨fun c => Cert.KernelIdeal.KValue.stuTs m c, fun c => Cert.KernelIdeal.KValue.diffTs m c,
    fun c => Cert.KernelIdeal.KValue.discTs m c, fun c => Cert.KernelIdeal.KValue.knowTs m c,
    fun c => Cert.Spec.impact (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg6)),
    Cert.KernelIdeal.KValue.run m ρ, ?_⟩
  refine (θ_run Cert.ReferenceIdeal.defs _ _).mono (fun r h c => ?_) (Cert.ReferenceIdeal.RefRun.run m' ρ')
  obtain ⟨h0, h1, h2, h3, h4, hargs⟩ := h c
  obtain ⟨g0, g1, g2, g3, g4, g5, g6, g7, g8, g9, g10, g11, g12, g13, g14, g15, g16, g17, g18, g19, g20, g21, g22, g23⟩ := hagree c
  refine ⟨h0.trans ?_, h1.trans ?_, h2.trans ?_, h3.trans ?_, h4.trans ?_, hargs⟩
  · rw [g0, g3, g7, g8, g9, g16, g17, g5, g13, g14, g15, g20, g21]
    exact Cert.Bridge.hostScore_eq _ _ _ _ _ _
  · rw [g1, g4, g10, g11, g12, g18, g19, g5, g13, g14, g15, g20, g21]
    exact Cert.Bridge.hostScore_eq _ _ _ _ _ _
  · rw [g1, g4, g10, g11, g12, g22, g23]
    exact Cert.Bridge.hostDisc_eq _ _ _
  · rw [g5, g13, g14, g15, g20, g21]
    exact Cert.Bridge.hostKnowTs_eq _ _ _
  · rw [g1, g6]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
